-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2048x1024 : Shape := ⟨3, ![1, 2048, 1024]⟩
abbrev S1x2048x2048 : Shape := ⟨3, ![1, 2048, 2048]⟩
abbrev S1024x1024 : Shape := ⟨2, ![1024, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg5 : FVec F S1024x1024 .f32) (main_arg6 : FVec F S1024x1024 .f32) (main_arg7 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg5
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg6
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg7
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  main_v33

def fn {F : FTy → Type} [FloatOps F] (main_arg0 : FVec F S1x2048x1024 .f32) (main_arg1 : FVec F S1x2048x1024 .f32) (main_arg2 : FVec F S1x2048x1024 .f32) (main_arg3 : IVec S1x2048x2048 32) (main_arg4 : FVec F S1024x1024 .f32) (main_arg5 : FVec F S1024x1024 .f32) (main_arg6 : FVec F S1024x1024 .f32) (main_arg7 : FVec F S1024x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1x2048x1024 .f32 := Host.absf main_arg1
  let main_cst_0 : FVec F S_ .f32 := constant S_ .f32 0x7F800000#32
  let main_v5 : FVec F S1x2048x1024 .f32 := broadcastInDim S1x2048x1024 ![] bcast_S_S1x2048x1024 main_cst_0
  let main_v6 : IVec S1x2048x1024 1 := cmpf .olt main_v4 main_v5
  let main_c_1 : IVec S_ 1 := constantI S_ 1 1#1
  let main_v7 : IVec S_ 1 := (fun x v => Host.reduce IntOp.andi x v reducesTo_S1x2048x1024_S_d0_1_2 h_S_) main_v6 main_c_1
  let main_v8 : IVec S_ 1 := andi main_v3 main_v7
  let main_v9 : FVec F S1x2048x1024 .f32 := Host.absf main_arg2
  let main_cst_2 : FVec F S_ .f32 := constant S_ .f32 0x7F800000#32
  let main_v10 : FVec F S1x2048x1024 .f32 := broadcastInDim S1x2048x1024 ![] bcast_S_S1x2048x1024 main_cst_2
  let main_v11 : IVec S1x2048x1024 1 := cmpf .olt main_v9 main_v10
  let main_c_3 : IVec S_ 1 := constantI S_ 1 1#1
  let main_v12 : IVec S_ 1 := (fun x v => Host.reduce IntOp.andi x v reducesTo_S1x2048x1024_S_d0_1_2 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg5 main_arg6 main_arg7 main_v13 main_v16
-- ==== Kernel.lean ====
abbrev S1x2048x1024 : Shape := ⟨3, ![1, 2048, 1024]⟩
abbrev S1x2048x2048 : Shape := ⟨3, ![1, 2048, 2048]⟩
abbrev S1024x1024 : Shape := ⟨2, ![1024, 1024]⟩
abbrev S2048x1024 : Shape := ⟨2, ![2048, 1024]⟩
abbrev S2048x2048 : Shape := ⟨2, ![2048, 2048]⟩
abbrev S512x1024 : Shape := ⟨2, ![512, 1024]⟩
abbrev S16x2048x2048 : Shape := ⟨3, ![16, 2048, 2048]⟩
abbrev S256x128 : Shape := ⟨2, ![256, 128]⟩
abbrev S2048x128 : Shape := ⟨2, ![2048, 128]⟩
abbrev S256x2048 : Shape := ⟨2, ![256, 2048]⟩
abbrev S2x256x2048 : Shape := ⟨3, ![2, 256, 2048]⟩
abbrev S256x64 : Shape := ⟨2, ![256, 64]⟩
abbrev S2048x64 : Shape := ⟨2, ![2048, 64]⟩
abbrev S256 : Shape := ⟨1, ![256]⟩
abbrev S256x1 : Shape := ⟨2, ![256, 1]⟩
abbrev S1x256x2048 : Shape := ⟨3, ![1, 256, 2048]⟩
abbrev S1x16x2048x2048 : Shape := ⟨4, ![1, 16, 2048, 2048]⟩

abbrev nBuf : Space → Nat
  | .hbm => 20
  | .vmem => 32
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x2048x1024, .f32⟩
  | .hbm, ⟨3, _⟩ => ⟨S1x2048x2048, .i32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x2048, .i32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S16x2048x2048, .f32⟩
  | .hbm, ⟨16, _⟩ => ⟨S2048x1024, .f32⟩
  | .hbm, ⟨17, _⟩ => ⟨S2048x1024, .f32⟩
  | .hbm, ⟨18, _⟩ => ⟨S1x2048x1024, .f32⟩
  | .hbm, ⟨19, _⟩ => ⟨S1x16x2048x2048, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1024x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1024x1024, .f32⟩
  | .local _ .vmem, ⟨13, _⟩ => ⟨S512x1024, .f32⟩
  | .local _ .vmem, ⟨14, _⟩ => ⟨S512x1024, .f32⟩
  | .local _ .vmem, ⟨15, _⟩ => ⟨S256x128, .f32⟩
  | .local _ .vmem, ⟨16, _⟩ => ⟨S256x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S256x2048, .i32⟩
  | .local _ .vmem, ⟨22, _⟩ => ⟨S256x2048, .i32⟩
  | .local _ .vmem, ⟨23, _⟩ => ⟨S2x256x2048, .f32⟩
  | .local _ .vmem, ⟨24, _⟩ => ⟨S2x256x2048, .f32⟩
  | .local _ .vmem, ⟨25, _⟩ => ⟨S256x128, .f32⟩
  | .local _ .vmem, ⟨26, _⟩ => ⟨S256x128, .f32⟩
  | .local _ .vmem, ⟨27, _⟩ => ⟨S512x1024, .f32⟩
  | .local _ .vmem, ⟨28, _⟩ => ⟨S512x1024, .f32⟩
  | .local _ .vmem, ⟨29, _⟩ => ⟨S1024x1024, .f32⟩
  | .local _ .vmem, ⟨30, _⟩ => ⟨S512x1024, .f32⟩
  | .local _ .vmem, ⟨31, _⟩ => ⟨S512x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg3_1 : Ref sig .tc := ⟨.vmem, 22, rfl⟩
abbrev cc3_stg4_0 : Ref sig .tc := ⟨.vmem, 23, rfl⟩
abbrev cc3_stg4_1 : Ref sig .tc := ⟨.vmem, 24, rfl⟩
abbrev cc3_stg5_0 : Ref sig .tc := ⟨.vmem, 25, rfl⟩
abbrev cc3_stg5_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc3_sem3_0 : DmaSem sig := 21
abbrev cc3_sem3_1 : DmaSem sig := 22
abbrev cc3_sem4_0 : DmaSem sig := 23
abbrev cc3_sem4_1 : DmaSem sig := 24
abbrev cc3_sem5_0 : DmaSem sig := 25
abbrev cc3_sem5_1 : DmaSem sig := 26
abbrev cc4_sem0_0 : DmaSem sig := 27
abbrev cc4_sem0_1 : DmaSem sig := 28
abbrev cc4_sem1_0 : DmaSem sig := 29
abbrev cc4_sem2_0 : DmaSem sig := 30
abbrev cc4_sem2_1 : DmaSem sig := 31

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![8, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S256x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2048x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S256x2048 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S2x256x2048 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S256x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S512x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  shapeCasts_S1x2048x1024_S2048x1024 : S1x2048x1024.ShapeCasts S2048x1024
  shapeCasts_S1x2048x2048_S2048x2048 : S1x2048x2048.ShapeCasts S2048x2048
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  slices_S256x128_o0_0_S256x64 : S256x128.Slices ![0, 0] S256x64
  slices_S2048x128_o0_0_S2048x64 : S2048x128.Slices ![0, 0] S2048x64
  reduces_S256x2048_S256 : S256x2048.Reduces [1] S256
  shapeCasts_S256_S256x1 : S256.ShapeCasts S256x1
  broadcasts_S256x1_S256x2048 : S256x1.Broadcasts S256x2048
  inb_S2x256x2048_S1x256x2048_0_0_0 : ∀ a, (![0, 0, 0] : Fin 3 → Nat) a + S1x256x2048.size a ≤ S2x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  slices_S256x128_o0_64_S256x64 : S256x128.Slices ![0, 64] S256x64
  slices_S2048x128_o0_64_S2048x64 : S2048x128.Slices ![0, 64] S2048x64
  inb_S2x256x2048_S1x256x2048_1_0_0 : ∀ a, (![1, 0, 0] : Fin 3 → Nat) a + S1x256x2048.size a ≤ S2x256x2048.size a
  concatenates_S256x64_S256x64_S256x128_d1 : Shape.Concatenates [S256x64, S256x64] S256x128 1
  bcast_S2048x1024_S1x2048x1024_1_2 : S2048x1024.BroadcastsInDim S1x2048x1024 (![1, 2] : Fin 2 → Fin S1x2048x1024.rank)
  bcast_S16x2048x2048_S1x16x2048x2048_1_2_3 : S16x2048x2048.BroadcastsInDim S1x16x2048x2048 (![1, 2, 3] : Fin 3 → Fin S1x16x2048x2048.rank)
  dot_S512x1024_S1024x1024_S512x1024_1_1_0_0_n_n_wf : DotDims.WF S512x1024 S1024x1024 S512x1024 [1] [1] [0] [0] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S2048x1024.size a
  hwx0_0 : ∀ i : grid0.Coords, EltTy.bits .f32 = 32 ∨ (Rect.block (s := S2048x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S2048x1024.size a
  hwx0_2 : ∀ i : grid0.Coords, EltTy.bits .f32 = 32 ∨ (Rect.block (s := S2048x1024) S512x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S2048x1024.size a
  hwx1_0 : ∀ i : grid1.Coords, EltTy.bits .f32 = 32 ∨ (Rect.block (s := S2048x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S2048x1024.size a
  hwx1_2 : ∀ i : grid1.Coords, EltTy.bits .f32 = 32 ∨ (Rect.block (s := S2048x1024) S512x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S2048x1024.size a
  hwx2_0 : ∀ i : grid2.Coords, EltTy.bits .f32 = 32 ∨ (Rect.block (s := S2048x1024) S512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S2048x1024.size a
  hwx2_2 : ∀ i : grid2.Coords, EltTy.bits .f32 = 32 ∨ (Rect.block (s := S2048x1024) S512x1024.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x128.size a ≤ S2048x1024.size a
  hwx3_0 : ∀ i : grid3.Coords, EltTy.bits .f32 = 32 ∨ (Rect.block (s := S2048x1024) S256x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x128.size a ≤ S2048x1024.size a
  hwx3_1 : ∀ i : grid3.Coords, EltTy.bits .f32 = 32 ∨ (Rect.block (s := S2048x1024) S2048x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x128.size a ≤ S2048x1024.size a
  hwx3_2 : ∀ i : grid3.Coords, EltTy.bits .f32 = 32 ∨ (Rect.block (s := S2048x1024) S2048x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S256x2048.size a ≤ S2048x2048.size a
  hwx3_3 : ∀ i : grid3.Coords, EltTy.bits .i32 = 32 ∨ (Rect.block (s := S2048x2048) S256x2048.size (cc3_transform_3 i) (hinb3_3 i)).WholeWords (EltTy.packing .i32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2x256x2048.size a ≤ S16x2048x2048.size a
  hwx3_4 : ∀ i : grid3.Coords, EltTy.bits .f32 = 32 ∨ (Rect.block (s := S16x2048x2048) S2x256x2048.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S256x128.size a ≤ S2048x1024.size a
  hwx3_5 : ∀ i : grid3.Coords, EltTy.bits .f32 = 32 ∨ (Rect.block (s := S2048x1024) S256x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x1024.size a ≤ S2048x1024.size a
  hwx4_0 : ∀ i : grid4.Coords, EltTy.bits .f32 = 32 ∨ (Rect.block (s := S2048x1024) S512x1024.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .f32 = 32 ∨ (Rect.block (s := S1024x1024) S1024x1024.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S512x1024.size a ≤ S2048x1024.size a
  hwx4_2 : ∀ i : grid4.Coords, EltTy.bits .f32 = 32 ∨ (Rect.block (s := S2048x1024) S512x1024.size (cc4_transform_2 i) (hinb4_2 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S512x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v2) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6) S512x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v4) S256x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v5) S2048x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v6) S2048x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v3) S256x2048.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v7_0) S2x256x2048.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v7_1) S256x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v7_1) S512x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v8) S512x1024.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S1x2048x1024 : Shape := ⟨3, ![1, 2048, 1024]⟩
abbrev S1x2048x2048 : Shape := ⟨3, ![1, 2048, 2048]⟩
abbrev S1024x1024 : Shape := ⟨2, ![1024, 1024]⟩
abbrev S1x2048x16x64 : Shape := ⟨4, ![1, 2048, 16, 64]⟩
abbrev S1x16x2048x64 : Shape := ⟨4, ![1, 16, 2048, 64]⟩
abbrev S1x16x2048x2048 : Shape := ⟨4, ![1, 16, 2048, 2048]⟩
abbrev S_ : Shape := ⟨0, ![]⟩
abbrev S1x1x2048x2048 : Shape := ⟨4, ![1, 1, 2048, 2048]⟩
abbrev S1x16x2048 : Shape := ⟨3, ![1, 16, 2048]⟩
abbrev S1x16x2048x1 : Shape := ⟨4, ![1, 16, 2048, 1]⟩

abbrev nBuf : Space → Nat
  | .hbm => 47
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x2048x1024, .f32⟩
  | .hbm, ⟨3, _⟩ => ⟨S1x2048x2048, .i32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1x2048x1024, .f32⟩
  | .hbm, ⟨9, _⟩ => ⟨S1x2048x16x64, .f32⟩
  | .hbm, ⟨10, _⟩ => ⟨S1x16x2048x64, .f32⟩
  | .hbm, ⟨11, _⟩ => ⟨S1x2048x1024, .f32⟩
  | .hbm, ⟨12, _⟩ => ⟨S1x2048x16x64, .f32⟩
  | .hbm, ⟨13, _⟩ => ⟨S1x16x2048x64, .f32⟩
  | .hbm, ⟨14, _⟩ => ⟨S1x2048x1024, .f32⟩
  | .hbm, ⟨15, _⟩ => ⟨S1x2048x16x64, .f32⟩
  | .hbm, ⟨16, _⟩ => ⟨S1x16x2048x64, .f32⟩
  | .hbm, ⟨17, _⟩ => ⟨S1x16x2048x2048, .f32⟩
  | .hbm, ⟨18, _⟩ => ⟨S_, .f32⟩
  | .hbm, ⟨19, _⟩ => ⟨S1x16x2048x2048, .f32⟩
  | .hbm, ⟨20, _⟩ => ⟨S1x16x2048x2048, .f32⟩
  | .hbm, ⟨21, _⟩ => ⟨S_, .i32⟩
  | .hbm, ⟨22, _⟩ => ⟨S1x2048x2048, .i32⟩
  | .hbm, ⟨23, _⟩ => ⟨S1x2048x2048, .i1⟩
  | .hbm, ⟨24, _⟩ => ⟨S1x1x2048x2048, .i1⟩
  | .hbm, ⟨25, _⟩ => ⟨S_, .f32⟩
  | .hbm, ⟨26, _⟩ => ⟨S1x16x2048x2048, .i1⟩
  | .hbm, ⟨27, _⟩ => ⟨S1x16x2048x2048, .f32⟩
  | .hbm, ⟨28, _⟩ => ⟨S1x16x2048x2048, .f32⟩
  | .hbm, ⟨29, _⟩ => ⟨S_, .f32⟩
  | .hbm, ⟨30, _⟩ => ⟨S1x16x2048, .f32⟩
  | .hbm, ⟨31, _⟩ => ⟨S_, .f32⟩
  | .hbm, ⟨32, _⟩ => ⟨S1x16x2048, .f32⟩
  | .hbm, ⟨33, _⟩ => ⟨S1x16x2048, .f32⟩
  | .hbm, ⟨34, _⟩ => ⟨S1x16x2048x1, .f32⟩
  | .hbm, ⟨35, _⟩ => ⟨S1x16x2048x2048, .f32⟩
  | .hbm, ⟨36, _⟩ => ⟨S1x16x2048x2048, .f32⟩
  | .hbm, ⟨37, _⟩ => ⟨S1x16x2048x2048, .f32⟩
  | .hbm, ⟨38, _⟩ => ⟨S_, .f32⟩
  | .hbm, ⟨39, _⟩ => ⟨S1x16x2048, .f32⟩
  | .hbm, ⟨40, _⟩ => ⟨S1x16x2048x1, .f32⟩
  | .hbm, ⟨41, _⟩ => ⟨S1x16x2048x2048, .f32⟩
  | .hbm, ⟨42, _⟩ => ⟨S1x16x2048x2048, .f32⟩
  | .hbm, ⟨43, _⟩ => ⟨S1x16x2048x64, .f32⟩
  | .hbm, ⟨44, _⟩ => ⟨S1x2048x16x64, .f32⟩
  | .hbm, ⟨45, _⟩ => ⟨S1x2048x1024, .f32⟩
  | .hbm, ⟨46, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]

class Facts₀ : Prop where
  shapeCasts_S1x2048x1024_S1x2048x16x64 : S1x2048x1024.ShapeCasts S1x2048x16x64
  transposes_S1x2048x16x64_S1x16x2048x64_0_2_1_3 : S1x2048x16x64.Transposes [0, 2, 1, 3] S1x16x2048x64
  bcast_S_S1x16x2048x2048 : S_.BroadcastsInDim S1x16x2048x2048 (![] : Fin 0 → Fin S1x16x2048x2048.rank)
  bcast_S_S1x2048x2048 : S_.BroadcastsInDim S1x2048x2048 (![] : Fin 0 → Fin S1x2048x2048.rank)
  bcast_S1x2048x2048_S1x1x2048x2048_0_2_3 : S1x2048x2048.BroadcastsInDim S1x1x2048x2048 (![0, 2, 3] : Fin 3 → Fin S1x1x2048x2048.rank)
  bcast_S1x1x2048x2048_S1x16x2048x2048_0_1_2_3 : S1x1x2048x2048.BroadcastsInDim S1x16x2048x2048 (![0, 1, 2, 3] : Fin 4 → Fin S1x16x2048x2048.rank)
  reducesTo_S1x16x2048x2048_S1x16x2048_d3 : S1x16x2048x2048.ReducesTo [3] S1x16x2048
  h_S_ : 0 < S_.numel
  bcast_S_S1x16x2048 : S_.BroadcastsInDim S1x16x2048 (![] : Fin 0 → Fin S1x16x2048.rank)
  bcast_S1x16x2048_S1x16x2048x1_0_1_2 : S1x16x2048.BroadcastsInDim S1x16x2048x1 (![0, 1, 2] : Fin 3 → Fin S1x16x2048x1.rank)
  bcast_S1x16x2048x1_S1x16x2048x2048_0_1_2_3 : S1x16x2048x1.BroadcastsInDim S1x16x2048x2048 (![0, 1, 2, 3] : Fin 4 → Fin S1x16x2048x2048.rank)
  transposes_S1x16x2048x64_S1x2048x16x64_0_2_1_3 : S1x16x2048x64.Transposes [0, 2, 1, 3] S1x2048x16x64
  shapeCasts_S1x2048x16x64_S1x2048x1024 : S1x2048x16x64.ShapeCasts S1x2048x1024
  dot_S1x2048x1024_S1024x1024_S1x2048x1024_2_1_01_0_n_n_wf : DotDims.WF S1x2048x1024 S1024x1024 S1x2048x1024 [2] [1] [0, 1] [0] [] []
  dot_S1x16x2048x64_S1x16x2048x64_S1x16x2048x2048_3_3_2_2_01_01_wf : DotDims.WF S1x16x2048x64 S1x16x2048x64 S1x16x2048x2048 [3] [3] [2] [2] [0, 1] [0, 1]
  dot_S1x16x2048x2048_S1x16x2048x64_S1x16x2048x64_3_2_2_3_01_01_wf : DotDims.WF S1x16x2048x2048 S1x16x2048x64 S1x16x2048x64 [3] [2] [2] [3] [0, 1] [0, 1]

variable [Facts₀]

def dot_S1x2048x1024_S1024x1024_S1x2048x1024_2_1_01_0_n_n : DotDims S1x2048x1024 S1024x1024 S1x2048x1024 where
  lhsContracting := [2]
  rhsContracting := [1]
  lhsNonContracting := [0, 1]
  rhsNonContracting := [0]
  lhsBatch := []
  rhsBatch := []
  wf := dot_S1x2048x1024_S1024x1024_S1x2048x1024_2_1_01_0_n_n_wf
def dot_S1x16x2048x64_S1x16x2048x64_S1x16x2048x2048_3_3_2_2_01_01 : DotDims S1x16x2048x64 S1x16x2048x64 S1x16x2048x2048 where
  lhsContracting := [3]
  rhsContracting := [3]
  lhsNonContracting := [2]
  rhsNonContracting := [2]
  lhsBatch := [0, 1]
  rhsBatch := [0, 1]
  wf := dot_S1x16x2048x64_S1x16x2048x64_S1x16x2048x2048_3_3_2_2_01_01_wf
def dot_S1x16x2048x2048_S1x16x2048x64_S1x16x2048x64_3_2_2_3_01_01 : DotDims S1x16x2048x2048 S1x16x2048x64 S1x16x2048x64 where
  lhsContracting := [3]
  rhsContracting := [2]
  lhsNonContracting := [2]
  rhsNonContracting := [3]
  lhsBatch := [0, 1]
  rhsBatch := [0, 1]
  wf := dot_S1x16x2048x2048_S1x16x2048x64_S1x16x2048x64_3_2_2_3_01_01_wf

class Facts : Prop extends Facts₀ where

variable [Facts]
-- ==== Proof.KRun.lean ====
/-
  The idealized kernel's run with its two results named.

  Every weakly fair execution of the program from a memory with zero counters terminates without a fault, and in every
  final state the two result buffers hold the contents the last boundary of the program's segments assigns them (the
  fold of the host operations and of the five regions' write-backs over the launch memory), while the eight argument
  arrays are as launched.  The argument is the one that gives the frame: the segments' chain from the launch memory, the
  last thread state read against the final state; only what is read off the last boundary differs.
-/
import proofs.«147855_j51891794870426_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: both results at the last boundary's contents, the arguments unchanged. -/
theorem run_values : θ_run defs (onTc (τ := τ) (main (F := F))) ⟨m, fun _ => 0, ρ⟩ (fun r => ∀ c : Dev nD,
      r.2.mem ((c.tc : Thread nD τ).loc main_v9) = W7 m ρ c (Proc.devRef .tc main_v9)
      ∧ r.2.mem ((c.tc : Thread nD τ).loc main_v10) = W7 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v9 (by decide)),
       h c _ (mem_uc main_v10 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Cert.KernelIdeal.KRun

end
-- ==== Proof.Spec.lean ====
/-
  Multi-head attention with a masked fill, as functions of the argument arrays on the extended reals.

  The three activations are [1, 2048, 1024] arrays, the four weights [1024, 1024], the mask an integer
  [1, 2048, 2048] array; there are 16 heads of width 64, head h owning the columns 64 h … 64 h + 63 of the model axis.
  A projection is x · Wᵀ.  The score of head h at (s, t) is the fill constant where the mask is non-zero and otherwise
  the inner product of row s of the projected queries with row t of the projected keys over the head's 64 columns,
  times 1/8.  The attention weights are the softmax of the scores along t, written without subtracting a maximum.  The
  context at (s, e) sums the SCORES (not the weights) of the head that owns column e against column e of the projected
  values, and the output is the context projected once more.
-/
import Idealize.ShloMosaic.PureOps.Ideal
import Idealize.ShloMosaic.Lib.ValueIdx

noncomputable section

open scoped BigOperators

namespace Cert.Attn

open Idealize.ShloMosaic Idealize.ShloMosaic.ValueIdx

abbrev SX : Shape := ⟨3, ![1, 2048, 1024]⟩
abbrev SM : Shape := ⟨3, ![1, 2048, 2048]⟩
abbrev SW : Shape := ⟨2, ![1024, 1024]⟩
abbrev SO : Shape := ⟨3, ![1, 2048, 1024]⟩
abbrev SA : Shape := ⟨4, ![1, 16, 2048, 2048]⟩
abbrev S2 : Shape := ⟨2, ![2048, 1024]⟩

/-- The column of the model axis that holds coordinate `d` of head `h`. -/
def col (h : Fin 16) (d : Fin 64) : Fin 1024 := ⟨64 * h.val + d.val, by omega⟩

/-- The head that owns column `e` of the model axis. -/
def hd (e : Fin 1024) : Fin 16 := ⟨e.val / 64, by omega⟩

/-- The fill value of a masked score, and the scale 1/8 of an unmasked one, as the float words both programs hold. -/
def fill : EReal := Ideal.ofBits .f32 0xB3D6BF95#32
def scale : EReal := Ideal.ofBits .f32 0x3E000000#32

/-- A projection x · Wᵀ at row `s`, column `d`. -/
def proj (x : SX.Idx → EReal) (w : SW.Idx → EReal) (s : Fin 2048) (d : Fin 1024) : EReal :=
  ∑ e : Fin 1024, x (ix3 (0 : Fin 1) s e) * w (ix2 d e)

/-- A matrix times the transpose of a weight matrix, as an array: `lin x w (s, d) = ∑ e, x (s, e) · w (d, e)`. -/
def lin (x : S2.Idx → EReal) (w : SW.Idx → EReal) : S2.Idx → EReal :=
  fun i => ∑ e : Fin 1024, x (ix2 (i 0) e) * w (ix2 (i 1) e)

/-- The masked, scaled score of head `h` at query row `s`, key row `t`, from the projected queries and keys. -/
def score (q k : Fin 2048 → Fin 1024 → EReal) (msk : Fin 2048 → Fin 2048 → BitVec 32) (h : Fin 16) (s t : Fin 2048) : EReal :=
  Scalar.select (IntOp.cmpi .ne (msk s t) 0#32) fill
    ((∑ d : Fin 64, q s (col h d) * k t (col h d)) * scale)

/-- The attention weight: the exponential of a score over the sum of the exponentials of its row. -/
def weight (q k : Fin 2048 → Fin 1024 → EReal) (msk : Fin 2048 → Fin 2048 → BitVec 32) (h : Fin 16) (s t : Fin 2048) : EReal :=
  Ideal.div (Ideal.exp (score q k msk h s t)) (∑ u : Fin 2048, Ideal.exp (score q k msk h s u))

/-- The context at row `s`, column `e`: the scores of the head owning `e` against column `e` of the values. -/
def ctx (q k v : Fin 2048 → Fin 1024 → EReal) (msk : Fin 2048 → Fin 2048 → BitVec 32) (s : Fin 2048) (e : Fin 1024) : EReal :=
  ∑ t : Fin 2048, score q k msk (hd e) s t * v t e

/-- The output at row `s`, column `d`: the context times Wₒᵀ. -/
def out (q k v : Fin 2048 → Fin 1024 → EReal) (msk : Fin 2048 → Fin 2048 → BitVec 32) (wo : SW.Idx → EReal) (s : Fin 2048) (d : Fin 1024) : EReal :=
  ∑ e : Fin 1024, ctx q k v msk s e * wo (ix2 d e)

/-- The two results as arrays of the eight arguments. -/
def outArr (xq xk xv : SX.Idx → EReal) (msk : SM.Idx → BitVec 32) (wq wk wv wo : SW.Idx → EReal) : SO.Idx → EReal :=
  fun i => out (proj xq wq) (proj xk wk) (proj xv wv) (fun s t => msk (ix3 (0 : Fin 1) s t)) wo (i 1) (i 2)

def weightArr (xq xk : SX.Idx → EReal) (msk : SM.Idx → BitVec 32) (wq wk : SW.Idx → EReal) : SA.Idx → EReal :=
  fun i => weight (proj xq wq) (proj xk wk) (fun s t => msk (ix3 (0 : Fin 1) s t)) (i 1) (i 2) (i 3)

theorem col_val (h : Fin 16) (d : Fin 64) : (col h d).val = 64 * h.val + d.val := rfl
theorem hd_val (e : Fin 1024) : (hd e).val = e.val / 64 := rfl

end Cert.Attn

end
-- ==== Proof.LibRegroup.lean ====
/-
  A row-major array regrouped without moving an element: adjacent axes merged into one, one axis split into
  two, a trailing unit axis added, and a trailing unit axis broadcast along a new extent. Each lemma reads the
  regrouped array at an index written by coordinates and names the operand's index by coordinates, the relation
  between them being the arithmetic of the row-major position: an axis of extent `g * l` is the pair
  `(u, v)`, `u < g`, `v < l`, at position `u * l + v`.
-/
import Idealize.ShloMosaic.Lib.Pipeline.Value
import Idealize.ShloMosaic.Lib.ValueIdx

namespace Idealize.ShloMosaic.Regroup

open Idealize.ShloMosaic Idealize.ShloMosaic.ValueIdx

variable {α : Type}

/-- The last axis of a matrix split in two: `[a, n] → [a, g, l]` with `n = g * l` reads, at `(q, u, v)`, the
    operand at `(q, u * l + v)`. -/
theorem shapeCast_splitLast_apply {a n g l : ℕ} (hn : n = g * l) (x : (⟨2, ![a, n]⟩ : Shape).Idx → α)
    (h : (⟨2, ![a, n]⟩ : Shape).ShapeCasts ⟨3, ![a, g, l]⟩) (q : Fin a) (u : Fin g) (v : Fin l) (k : Fin n)
    (hk : k.val = u.val * l + v.val) :
    shapeCast ⟨3, ![a, g, l]⟩ x h (ix3 q u v) = x (ix2 q k) :=
  shapeCast_apply x h _ _ (by
    rw [Shape.rowMajor_val_two, Shape.rowMajor_val_three]
    show q.val * n + k.val = (q.val * g + u.val) * l + v.val
    rw [hk, hn]; ring)

/-- The last two axes of a rank-3 array merged: `[a, g, l] → [a, n]` with `n = g * l` reads, at `(q, k)` with
    `k = u * l + v`, the operand at `(q, u, v)`. -/
theorem shapeCast_mergeLast_apply {a n g l : ℕ} (hn : n = g * l) (x : (⟨3, ![a, g, l]⟩ : Shape).Idx → α)
    (h : (⟨3, ![a, g, l]⟩ : Shape).ShapeCasts ⟨2, ![a, n]⟩) (q : Fin a) (k : Fin n) (u : Fin g) (v : Fin l)
    (hk : k.val = u.val * l + v.val) :
    shapeCast ⟨2, ![a, n]⟩ x h (ix2 q k) = x (ix3 q u v) :=
  shapeCast_apply x h _ _ (by
    rw [Shape.rowMajor_val_two, Shape.rowMajor_val_three]
    show (q.val * g + u.val) * l + v.val = q.val * n + k.val
    rw [hk, hn]; ring)

/-- The first two axes of a rank-3 array merged: `[b, s, n] → [r, n]` with `r = b * s` reads, at `(p, k)` with
    `p = i * s + j`, the operand at `(i, j, k)`. -/
theorem shapeCast_mergeFirst_apply {b s n r : ℕ} (x : (⟨3, ![b, s, n]⟩ : Shape).Idx → α)
    (h : (⟨3, ![b, s, n]⟩ : Shape).ShapeCasts ⟨2, ![r, n]⟩) (p : Fin r) (k : Fin n) (i : Fin b) (j : Fin s)
    (hp : p.val = i.val * s + j.val) :
    shapeCast ⟨2, ![r, n]⟩ x h (ix2 p k) = x (ix3 i j k) :=
  shapeCast_apply x h _ _ (by
    rw [Shape.rowMajor_val_two, Shape.rowMajor_val_three]
    show (i.val * s + j.val) * n + k.val = p.val * n + k.val
    rw [hp])

/-- The first axis of a matrix split in two: `[r, n] → [b, s, n]` with `r = b * s` reads, at `(i, j, k)`, the
    operand at `(i * s + j, k)`. -/
theorem shapeCast_splitFirst_apply {b s n r : ℕ} (x : (⟨2, ![r, n]⟩ : Shape).Idx → α)
    (h : (⟨2, ![r, n]⟩ : Shape).ShapeCasts ⟨3, ![b, s, n]⟩) (i : Fin b) (j : Fin s) (k : Fin n) (p : Fin r)
    (hp : p.val = i.val * s + j.val) :
    shapeCast ⟨3, ![b, s, n]⟩ x h (ix3 i j k) = x (ix2 p k) :=
  shapeCast_apply x h _ _ (by
    rw [Shape.rowMajor_val_two, Shape.rowMajor_val_three]
    show p.val * n + k.val = (i.val * s + j.val) * n + k.val
    rw [hp])

/-- A vector cut into rows: `[n] → [a, g]` reads, at `(o, u)`, the operand at `o * g + u`. -/
theorem shapeCast_rows_apply {n a g : ℕ} (x : (⟨1, ![n]⟩ : Shape).Idx → α)
    (h : (⟨1, ![n]⟩ : Shape).ShapeCasts ⟨2, ![a, g]⟩) (o : Fin a) (u : Fin g) (k : Fin n)
    (hk : k.val = o.val * g + u.val) :
    shapeCast ⟨2, ![a, g]⟩ x h (ix2 o u) = x (ix1 k) :=
  shapeCast_apply x h _ _ (by
    rw [Shape.rowMajor_val_two, Shape.rowMajor_val_one]
    show k.val = o.val * g + u.val
    exact hk)

/-- A trailing unit axis added to a matrix: `[a, g] → [a, g, 1]` reads, at `(q, u, w)`, the operand at `(q, u)`. -/
theorem shapeCast_trailingUnit_apply {a g : ℕ} (x : (⟨2, ![a, g]⟩ : Shape).Idx → α)
    (h : (⟨2, ![a, g]⟩ : Shape).ShapeCasts ⟨3, ![a, g, 1]⟩) (q : Fin a) (u : Fin g) (w : Fin 1) :
    shapeCast ⟨3, ![a, g, 1]⟩ x h (ix3 q u w) = x (ix2 q u) :=
  shapeCast_apply x h _ _ (by
    have hw : w.val = 0 := by omega
    rw [Shape.rowMajor_val_two, Shape.rowMajor_val_three]
    show q.val * g + u.val = (q.val * g + u.val) * 1 + w.val
    rw [hw, Nat.mul_one, Nat.add_zero])

/-- A trailing unit axis broadcast along a new extent: `[a, g, 1] → [a, g, l]` reads, at `(q, u, v)`, the
    operand's one entry `(q, u, 0)` of that column. -/
theorem broadcastTo_trailingUnit_apply {a g l : ℕ} (x : (⟨3, ![a, g, 1]⟩ : Shape).Idx → α)
    (h : (⟨3, ![a, g, 1]⟩ : Shape).Broadcasts ⟨3, ![a, g, l]⟩) (q : Fin a) (u : Fin g) (v : Fin l) :
    broadcastTo ⟨3, ![a, g, l]⟩ x h (ix3 q u v) = x (ix3 q u (0 : Fin 1)) := by
  refine broadcastTo_apply x h (ix3 q u v) (ix3 q u (0 : Fin 1)) fun ax => ?_
  match ax with
  | ⟨0, _⟩ =>
    show q.val = if a = 1 then 0 else q.val
    split
    · have := q.isLt; omega
    · rfl
  | ⟨1, _⟩ =>
    show u.val = if g = 1 then 0 else u.val
    split
    · have := u.isLt; omega
    · rfl
  | ⟨2, _⟩ => rfl

end Idealize.ShloMosaic.Regroup
-- ==== Proof.KHost.lean ====
/-
  The host operations before the regions of the idealized kernel.

  They drop the unit batch axis of the three activations [1, 2048, 1024] and of the mask [1, 2048, 2048] and write
  nothing else: row s, column e of an activation as the first region finds it is the argument at (0, s, e), and a weight
  is the argument itself.
-/
import proofs.«147855_j51891794870426_2_alg».proof.Proof.Gen.KernelIdeal.Frame
import proofs.«147855_j51891794870426_2_alg».proof.Proof.Spec
import proofs.«147855_j51891794870426_2_alg».proof.Proof.LibRegroup
import Idealize.ShloMosaic.Lib.StableHlo.Run
import Idealize.ShloMosaic.Lib.Pipeline.Value

set_option maxRecDepth 16384

noncomputable section

open scoped BigOperators

namespace Cert.KernelIdeal.KHost

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-! ## The host operations before the regions: the unit batch axis dropped -/

theorem V1_v0 (c : Dev nD) : (V1 m ρ c main_v0 : S2048x1024.Idx → EReal)
    = shapeCast S2048x1024 (m ((c : Thread nD τ).loc main_arg0)) shapeCasts_S1x2048x1024_S2048x1024 := by
  show StableHlo.after hostOps0 (W0 m ρ c) (Proc.devRef .tc main_v0) = _
  after_results; rfl
theorem V1_v1 (c : Dev nD) : (V1 m ρ c main_v1 : S2048x1024.Idx → EReal)
    = shapeCast S2048x1024 (m ((c : Thread nD τ).loc main_arg1)) shapeCasts_S1x2048x1024_S2048x1024 := by
  show StableHlo.after hostOps0 (W0 m ρ c) (Proc.devRef .tc main_v1) = _
  after_results; rfl
theorem V1_v2 (c : Dev nD) : (V1 m ρ c main_v2 : S2048x1024.Idx → EReal)
    = shapeCast S2048x1024 (m ((c : Thread nD τ).loc main_arg2)) shapeCasts_S1x2048x1024_S2048x1024 := by
  show StableHlo.after hostOps0 (W0 m ρ c) (Proc.devRef .tc main_v2) = _
  after_results; rfl
theorem V1_v3 (c : Dev nD) : (V1 m ρ c main_v3 : S2048x2048.Idx → BitVec 32)
    = shapeCast S2048x2048 (m ((c : Thread nD τ).loc main_arg3)) shapeCasts_S1x2048x2048_S2048x2048 := by
  show StableHlo.after hostOps0 (W0 m ρ c) (Proc.devRef .tc main_v3) = _
  after_results; rfl

/-- A weight is not written by the host operations before the regions. -/
theorem W1_arg4 (c : Dev nD) : W1 m ρ c (Proc.devRef .tc main_arg4) = m ((c : Thread nD τ).loc main_arg4) := by
  show StableHlo.after hostOps0 (W0 m ρ c) (Proc.devRef .tc main_arg4) = _
  after_results
theorem W1_arg5 (c : Dev nD) : W1 m ρ c (Proc.devRef .tc main_arg5) = m ((c : Thread nD τ).loc main_arg5) := by
  show StableHlo.after hostOps0 (W0 m ρ c) (Proc.devRef .tc main_arg5) = _
  after_results
theorem W1_arg6 (c : Dev nD) : W1 m ρ c (Proc.devRef .tc main_arg6) = m ((c : Thread nD τ).loc main_arg6) := by
  show StableHlo.after hostOps0 (W0 m ρ c) (Proc.devRef .tc main_arg6) = _
  after_results
theorem W1_arg7 (c : Dev nD) : W1 m ρ c (Proc.devRef .tc main_arg7) = m ((c : Thread nD τ).loc main_arg7) := by
  show StableHlo.after hostOps0 (W0 m ρ c) (Proc.devRef .tc main_arg7) = _
  after_results

/-- Row `s`, column `e` of an activation with the batch axis dropped is the argument at `(0, s, e)`. -/
theorem V1_v0_apply (c : Dev nD) (s : Fin 2048) (e : Fin 1024) :
    (V1 m ρ c main_v0 : S2048x1024.Idx → EReal) (ix2 s e) = (m ((c : Thread nD τ).loc main_arg0) : S1x2048x1024.Idx → EReal) (ix3 (0 : Fin 1) s e) := by
  rw [V1_v0]; exact Regroup.shapeCast_mergeFirst_apply _ _ s e 0 s (by simp)
theorem V1_v1_apply (c : Dev nD) (s : Fin 2048) (e : Fin 1024) :
    (V1 m ρ c main_v1 : S2048x1024.Idx → EReal) (ix2 s e) = (m ((c : Thread nD τ).loc main_arg1) : S1x2048x1024.Idx → EReal) (ix3 (0 : Fin 1) s e) := by
  rw [V1_v1]; exact Regroup.shapeCast_mergeFirst_apply _ _ s e 0 s (by simp)
theorem V1_v2_apply (c : Dev nD) (s : Fin 2048) (e : Fin 1024) :
    (V1 m ρ c main_v2 : S2048x1024.Idx → EReal) (ix2 s e) = (m ((c : Thread nD τ).loc main_arg2) : S1x2048x1024.Idx → EReal) (ix3 (0 : Fin 1) s e) := by
  rw [V1_v2]; exact Regroup.shapeCast_mergeFirst_apply _ _ s e 0 s (by simp)
theorem V1_v3_apply (c : Dev nD) (s t : Fin 2048) :
    (V1 m ρ c main_v3 : S2048x2048.Idx → BitVec 32) (ix2 s t) = (m ((c : Thread nD τ).loc main_arg3) : S1x2048x2048.Idx → BitVec 32) (ix3 (0 : Fin 1) s t) := by
  rw [V1_v3]; exact Regroup.shapeCast_mergeFirst_apply _ _ s t 0 s (by simp)

end Cert.KernelIdeal.KHost

end
-- ==== Proof.KWalk.lean ====
/-
  The idealized kernel's buffers from boundary to boundary.

  The program is five pipelined regions between two stretches of host operations.  A region writes only its own output
  arrays, so every other buffer is read at the boundary where it was last written: the three projections x · Wᵀ are read,
  at the entry of the attention region, where the first three regions left them; the context is read at the entry of the
  last region where the attention region left it; the weights are the arguments all along.  What each region leaves in an
  output array is taken here as a hypothesis (one per output array, at any entry contents).
-/
import proofs.«147855_j51891794870426_2_alg».proof.Proof.KHost

set_option maxRecDepth 16384

noncomputable section

open scoped BigOperators

namespace Cert.KernelIdeal.KWalk

open Cert.KernelIdeal Cert.KernelIdeal.Gen Idealize.ShloMosaic Idealize.ShloMosaic.TcCoe Idealize.SL.Sem
open Idealize.ShloMosaic.StableHlo Idealize.ShloMosaic.ValueIdx

/-- Contents of the TensorCore's buffers at a boundary. -/
abbrev VT := (c : Dev nD) → (b : Ref sig .tc) → Buf (Elt Ideal) ((c : Thread nD τ).loc b)

variable (m : (ℓ : Loc nD τ sig) → Buf (Elt Ideal) ℓ) (ρ : Dev nD → PrngReg)

/-! ## The projections, where the attention region reads them -/

theorem V4_v4 (hL0 : ∀ (V : VT) (c : Dev nD), (dat0 (F := Ideal) V c).arrAt 2 cfg0.N = Cert.Attn.lin (V c main_v0) (V c main_arg4))
    (c : Dev nD) : (V4 m ρ c main_v4 : S2048x1024.Idx → EReal) = Cert.Attn.lin (V1 m ρ c main_v0) (m ((c : Thread nD τ).loc main_arg4)) :=
  calc (V4 m ρ c main_v4 : S2048x1024.Idx → EReal)
    _ = W3 m ρ c (Proc.devRef .tc main_v4) := W4_of_ne m ρ c main_v4 (by decide)
    _ = W2 m ρ c (Proc.devRef .tc main_v4) := W3_of_ne m ρ c main_v4 (by decide)
    _ = (dat0 (V1 m ρ) c).arrAt 2 cfg0.N := W2_arr m ρ c 2
    _ = Cert.Attn.lin (V1 m ρ c main_v0) (V1 m ρ c main_arg4) := hL0 (V1 m ρ) c
    _ = Cert.Attn.lin (V1 m ρ c main_v0) (m ((c : Thread nD τ).loc main_arg4)) := congrArg _ (KHost.W1_arg4 m ρ c)

theorem V4_v5 (hL1 : ∀ (V : VT) (c : Dev nD), (dat1 (F := Ideal) V c).arrAt 2 cfg1.N = Cert.Attn.lin (V c main_v1) (V c main_arg5))
    (c : Dev nD) : (V4 m ρ c main_v5 : S2048x1024.Idx → EReal) = Cert.Attn.lin (V1 m ρ c main_v1) (m ((c : Thread nD τ).loc main_arg5)) :=
  calc (V4 m ρ c main_v5 : S2048x1024.Idx → EReal)
    _ = W3 m ρ c (Proc.devRef .tc main_v5) := W4_of_ne m ρ c main_v5 (by decide)
    _ = (dat1 (V2 m ρ) c).arrAt 2 cfg1.N := W3_arr m ρ c 2
    _ = Cert.Attn.lin (V2 m ρ c main_v1) (V2 m ρ c main_arg5) := hL1 (V2 m ρ) c
    _ = Cert.Attn.lin (V1 m ρ c main_v1) (m ((c : Thread nD τ).loc main_arg5)) := congrArg₂ _
          (W2_of_ne m ρ c main_v1 (by decide))
          ((W2_of_ne m ρ c main_arg5 (by decide)).trans (KHost.W1_arg5 m ρ c))

theorem V4_v6 (hL2 : ∀ (V : VT) (c : Dev nD), (dat2 (F := Ideal) V c).arrAt 2 cfg2.N = Cert.Attn.lin (V c main_v2) (V c main_arg6))
    (c : Dev nD) : (V4 m ρ c main_v6 : S2048x1024.Idx → EReal) = Cert.Attn.lin (V1 m ρ c main_v2) (m ((c : Thread nD τ).loc main_arg6)) :=
  calc (V4 m ρ c main_v6 : S2048x1024.Idx → EReal)
    _ = (dat2 (V3 m ρ) c).arrAt 2 cfg2.N := W4_arr m ρ c 2
    _ = Cert.Attn.lin (V3 m ρ c main_v2) (V3 m ρ c main_arg6) := hL2 (V3 m ρ) c
    _ = Cert.Attn.lin (V1 m ρ c main_v2) (m ((c : Thread nD τ).loc main_arg6)) := congrArg₂ _
          ((W3_of_ne m ρ c main_v2 (by decide)).trans (W2_of_ne m ρ c main_v2 (by decide)))
          ((W3_of_ne m ρ c main_arg6 (by decide)).trans ((W2_of_ne m ρ c main_arg6 (by decide)).trans (KHost.W1_arg6 m ρ c)))

/-- The mask, where the attention region reads it. -/
theorem V4_v3 (c : Dev nD) : (V4 m ρ c main_v3 : S2048x2048.Idx → BitVec 32) = V1 m ρ c main_v3 :=
  (W4_of_ne m ρ c main_v3 (by decide)).trans ((W3_of_ne m ρ c main_v3 (by decide)).trans (W2_of_ne m ρ c main_v3 (by decide)))

/-- The last weight, where the last region reads it. -/
theorem V5_arg7 (c : Dev nD) : (V5 m ρ c main_arg7 : S1024x1024.Idx → EReal) = (m ((c : Thread nD τ).loc main_arg7)) :=
  (W5_of_ne m ρ c main_arg7 (by decide)).trans ((W4_of_ne m ρ c main_arg7 (by decide)).trans ((W3_of_ne m ρ c main_arg7 (by decide)).trans
    ((W2_of_ne m ρ c main_arg7 (by decide)).trans (KHost.W1_arg7 m ρ c))))

/-! ## The projections at an index: x · Wᵀ of the arguments -/

/-- A product x · Wᵀ of a matrix that is an activation with its unit batch axis dropped is the activation's projection. -/
theorem lin_proj (x : Cert.Attn.S2.Idx → EReal) (a : Cert.Attn.SX.Idx → EReal) (w : Cert.Attn.SW.Idx → EReal)
    (h : ∀ (s : Fin 2048) (e : Fin 1024), x (ix2 s e) = a (ix3 (0 : Fin 1) s e)) (s : Fin 2048) (d : Fin 1024) :
    Cert.Attn.lin x w (ix2 s d) = Cert.Attn.proj a w s d :=
  Finset.sum_congr rfl fun e _ => congrArg (· * w (ix2 d e)) (h s e)

theorem projQ (hL0 : ∀ (V : VT) (c : Dev nD), (dat0 (F := Ideal) V c).arrAt 2 cfg0.N = Cert.Attn.lin (V c main_v0) (V c main_arg4))
    (c : Dev nD) : (fun (s : Fin 2048) (d : Fin 1024) => (V4 m ρ c main_v4 : S2048x1024.Idx → EReal) (ix2 s d))
      = Cert.Attn.proj (m ((c : Thread nD τ).loc main_arg0)) (m ((c : Thread nD τ).loc main_arg4)) := by
  funext s d
  rw [V4_v4 m ρ hL0 c]
  exact lin_proj _ _ _ (KHost.V1_v0_apply m ρ c) s d

theorem projK (hL1 : ∀ (V : VT) (c : Dev nD), (dat1 (F := Ideal) V c).arrAt 2 cfg1.N = Cert.Attn.lin (V c main_v1) (V c main_arg5))
    (c : Dev nD) : (fun (s : Fin 2048) (d : Fin 1024) => (V4 m ρ c main_v5 : S2048x1024.Idx → EReal) (ix2 s d))
      = Cert.Attn.proj (m ((c : Thread nD τ).loc main_arg1)) (m ((c : Thread nD τ).loc main_arg5)) := by
  funext s d
  rw [V4_v5 m ρ hL1 c]
  exact lin_proj _ _ _ (KHost.V1_v1_apply m ρ c) s d

theorem projV (hL2 : ∀ (V : VT) (c : Dev nD), (dat2 (F := Ideal) V c).arrAt 2 cfg2.N = Cert.Attn.lin (V c main_v2) (V c main_arg6))
    (c : Dev nD) : (fun (s : Fin 2048) (d : Fin 1024) => (V4 m ρ c main_v6 : S2048x1024.Idx → EReal) (ix2 s d))
      = Cert.Attn.proj (m ((c : Thread nD τ).loc main_arg2)) (m ((c : Thread nD τ).loc main_arg6)) := by
  funext s d
  rw [V4_v6 m ρ hL2 c]
  exact lin_proj _ _ _ (KHost.V1_v2_apply m ρ c) s d

theorem maskM (c : Dev nD) : (fun (s t : Fin 2048) => (V4 m ρ c main_v3 : S2048x2048.Idx → BitVec 32) (ix2 s t))
      = fun s t => ((m ((c : Thread nD τ).loc main_arg3)) : S1x2048x2048.Idx → BitVec 32) (ix3 (0 : Fin 1) s t) := by
  funext s t
  rw [V4_v3 m ρ c]
  exact KHost.V1_v3_apply m ρ c s t

end Cert.KernelIdeal.KWalk

end
-- ==== Proof.KOut.lean ====
/-
  The idealized kernel's two results as functions of its eight arguments.

  The output is the last region's product of the context with Wₒᵀ, with the unit batch axis put back; the context is what
  the attention region leaves, from the three projections of the arguments and the mask.  The attention weights are the
  attention region's other output with the unit batch axis put back.  What each region leaves in an output array is a
  hypothesis here, one per output array at any entry contents.
-/
import proofs.«147855_j51891794870426_2_alg».proof.Proof.KWalk

set_option maxRecDepth 16384

noncomputable section

open scoped BigOperators

namespace Cert.KernelIdeal.KOut

open Cert.KernelIdeal Cert.KernelIdeal.Gen Idealize.ShloMosaic Idealize.ShloMosaic.TcCoe Idealize.SL.Sem
open Idealize.ShloMosaic.StableHlo Idealize.ShloMosaic.ValueIdx

/-- A product with Wₒᵀ of an array that holds the context is the output. -/
theorem lin_out (X : Cert.Attn.S2.Idx → EReal) (q k v : Fin 2048 → Fin 1024 → EReal) (msk : Fin 2048 → Fin 2048 → BitVec 32)
    (wo : Cert.Attn.SW.Idx → EReal) (hX : X = fun i => Cert.Attn.ctx q k v msk (i 0) (i 1)) (s : Fin 2048) (d : Fin 1024) :
    Cert.Attn.lin X wo (ix2 s d) = Cert.Attn.out q k v msk wo s d := by
  subst hX; rfl

/-- An array put under a unit leading axis reads, at `(b, s, d)`, the array at `(s, d)`. -/
theorem lead3 (x : S2048x1024.Idx → EReal) (b : Fin 1) (s : Fin 2048) (d : Fin 1024) :
    broadcastInDim S1x2048x1024 ![1, 2] bcast_S2048x1024_S1x2048x1024_1_2 x (ix3 b s d) = x (ix2 s d) :=
  broadcastInDim_apply _ _ x (ix3 b s d) (ix2 s d) fun a => by
    match a with
    | ⟨0, _⟩ => show s.val = if (2048 : ℕ) = 1 then 0 else s.val; rw [if_neg (by decide)]
    | ⟨1, _⟩ => show d.val = if (1024 : ℕ) = 1 then 0 else d.val; rw [if_neg (by decide)]

theorem lead4 (x : S16x2048x2048.Idx → EReal) (b : Fin 1) (h : Fin 16) (s t : Fin 2048) :
    broadcastInDim S1x16x2048x2048 ![1, 2, 3] bcast_S16x2048x2048_S1x16x2048x2048_1_2_3 x (ix4 b h s t) = x (ix3 h s t) :=
  broadcastInDim_apply _ _ x (ix4 b h s t) (ix3 h s t) fun a => by
    match a with
    | ⟨0, _⟩ => show h.val = if (16 : ℕ) = 1 then 0 else h.val; rw [if_neg (by decide)]
    | ⟨1, _⟩ => show s.val = if (2048 : ℕ) = 1 then 0 else s.val; rw [if_neg (by decide)]
    | ⟨2, _⟩ => show t.val = if (2048 : ℕ) = 1 then 0 else t.val; rw [if_neg (by decide)]

variable (m : (ℓ : Loc nD τ sig) → Buf (Elt Ideal) ℓ) (ρ : Dev nD → PrngReg)

/-- The first result: the output of the attention layer, of the eight arguments. -/
theorem out_value
    (hL0 : ∀ (V : KWalk.VT) (c : Dev nD), (dat0 (F := Ideal) V c).arrAt 2 cfg0.N = Cert.Attn.lin (V c main_v0) (V c main_arg4))
    (hL1 : ∀ (V : KWalk.VT) (c : Dev nD), (dat1 (F := Ideal) V c).arrAt 2 cfg1.N = Cert.Attn.lin (V c main_v1) (V c main_arg5))
    (hL2 : ∀ (V : KWalk.VT) (c : Dev nD), (dat2 (F := Ideal) V c).arrAt 2 cfg2.N = Cert.Attn.lin (V c main_v2) (V c main_arg6))
    (hL4 : ∀ (V : KWalk.VT) (c : Dev nD), (dat4 (F := Ideal) V c).arrAt 2 cfg4.N = Cert.Attn.lin (V c main_v7_1) (V c main_arg7))
    (hA5 : ∀ (V : KWalk.VT) (c : Dev nD), (dat3 (F := Ideal) V c).arrAt 5 cfg3.N = fun i => Cert.Attn.ctx
        (fun s d => V c main_v4 (ix2 s d)) (fun t d => V c main_v5 (ix2 t d)) (fun t e => V c main_v6 (ix2 t e)) (fun s t => V c main_v3 (ix2 s t)) (i 0) (i 1))
    (c : Dev nD) :
    (W7 m ρ c (Proc.devRef .tc main_v9) : S1x2048x1024.Idx → EReal)
      = Cert.Attn.outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have e9 : (W7 m ρ c (Proc.devRef .tc main_v9) : S1x2048x1024.Idx → EReal)
      = broadcastInDim S1x2048x1024 ![1, 2] bcast_S2048x1024_S1x2048x1024_1_2 (W6 m ρ c (Proc.devRef .tc main_v8)) := by
    show StableHlo.after hostOps5 (W6 m ρ c) (Proc.devRef .tc main_v9) = _
    after_results
  have e8 : (W6 m ρ c (Proc.devRef .tc main_v8) : S2048x1024.Idx → EReal) = Cert.Attn.lin (V5 m ρ c main_v7_1) (m ((c : Thread nD τ).loc main_arg7)) :=
    (W6_arr m ρ c 2).trans ((hL4 (V5 m ρ) c).trans (congrArg _ (KWalk.V5_arg7 m ρ c)))
  have e71 : (V5 m ρ c main_v7_1 : S2048x1024.Idx → EReal) = fun i => Cert.Attn.ctx
      (Cert.Attn.proj (m ((c : Thread nD τ).loc main_arg0)) (m ((c : Thread nD τ).loc main_arg4))) (Cert.Attn.proj (m ((c : Thread nD τ).loc main_arg1)) (m ((c : Thread nD τ).loc main_arg5))) (Cert.Attn.proj (m ((c : Thread nD τ).loc main_arg2)) (m ((c : Thread nD τ).loc main_arg6)))
      (fun s t => ((m ((c : Thread nD τ).loc main_arg3)) : S1x2048x2048.Idx → BitVec 32) (ix3 (0 : Fin 1) s t)) (i 0) (i 1) := by
    refine (W5_arr m ρ c 5).trans ((hA5 (V4 m ρ) c).trans ?_)
    rw [KWalk.projQ m ρ hL0 c, KWalk.projK m ρ hL1 c, KWalk.projV m ρ hL2 c, KWalk.maskM m ρ c]
  funext i
  obtain ⟨b, s, d, rfl⟩ : ∃ (b : Fin 1) (s : Fin 2048) (d : Fin 1024), i = ix3 b s d := ⟨i 0, i 1, i 2, eq_ix3 i⟩
  rw [e9, lead3, e8]
  exact lin_out _ _ _ _ _ _ e71 s d

/-- The second result: the attention weights, of the queries, the keys, the mask and their two weights. -/
theorem weight_value
    (hL0 : ∀ (V : KWalk.VT) (c : Dev nD), (dat0 (F := Ideal) V c).arrAt 2 cfg0.N = Cert.Attn.lin (V c main_v0) (V c main_arg4))
    (hL1 : ∀ (V : KWalk.VT) (c : Dev nD), (dat1 (F := Ideal) V c).arrAt 2 cfg1.N = Cert.Attn.lin (V c main_v1) (V c main_arg5))
    (hA4 : ∀ (V : KWalk.VT) (c : Dev nD), (dat3 (F := Ideal) V c).arrAt 4 cfg3.N = fun i => Cert.Attn.weight
        (fun s d => V c main_v4 (ix2 s d)) (fun t d => V c main_v5 (ix2 t d)) (fun s t => V c main_v3 (ix2 s t)) (i 0) (i 1) (i 2))
    (c : Dev nD) :
    (W7 m ρ c (Proc.devRef .tc main_v10) : S1x16x2048x2048.Idx → EReal)
      = Cert.Attn.weightArr (m ((c : Thread nD τ).loc main_arg0)) (m ((c : Thread nD τ).loc main_arg1)) (m ((c : Thread nD τ).loc main_arg3)) (m ((c : Thread nD τ).loc main_arg4)) (m ((c : Thread nD τ).loc main_arg5)) := by
  have e10 : (W7 m ρ c (Proc.devRef .tc main_v10) : S1x16x2048x2048.Idx → EReal)
      = broadcastInDim S1x16x2048x2048 ![1, 2, 3] bcast_S16x2048x2048_S1x16x2048x2048_1_2_3 (W6 m ρ c (Proc.devRef .tc main_v7_0)) := by
    show StableHlo.after hostOps5 (W6 m ρ c) (Proc.devRef .tc main_v10) = _
    after_results
  have e70 : (W6 m ρ c (Proc.devRef .tc main_v7_0) : S16x2048x2048.Idx → EReal) = fun i => Cert.Attn.weight
      (Cert.Attn.proj (m ((c : Thread nD τ).loc main_arg0)) (m ((c : Thread nD τ).loc main_arg4))) (Cert.Attn.proj (m ((c : Thread nD τ).loc main_arg1)) (m ((c : Thread nD τ).loc main_arg5)))
      (fun s t => ((m ((c : Thread nD τ).loc main_arg3)) : S1x2048x2048.Idx → BitVec 32) (ix3 (0 : Fin 1) s t)) (i 0) (i 1) (i 2) := by
    refine (W6_of_ne m ρ c main_v7_0 (by decide)).trans ((W5_arr m ρ c 4).trans ((hA4 (V4 m ρ) c).trans ?_))
    rw [KWalk.projQ m ρ hL0 c, KWalk.projK m ρ hL1 c, KWalk.maskM m ρ c]
  funext i
  obtain ⟨b, h, s, t, rfl⟩ : ∃ (b : Fin 1) (h : Fin 16) (s t : Fin 2048), i = ix4 b h s t := ⟨i 0, i 1, i 2, i 3, eq_ix4 i⟩
  rw [e10, lead4, e70]
  rfl

end Cert.KernelIdeal.KOut

end
-- ==== Proof.LibGram.lean ====
/-
  Three readings of a matrix at an index, on the extended reals, for any extents.

  * A product of an [n0, K] matrix with an [n1, K] matrix that contracts the LAST axis of both (a Gram-type product
    x · yᵀ) sums, at the result index (r, c), over the positions of a one-axis contraction shape; re-indexed by that
    axis' coordinate it is ∑ k < K, l (r, k) · r (c, k). Stated for any dimension record of those shapes: the record owes
    one contracting axis of extent K (axis 1 on both sides) and free axes that read the result's coordinates.
  * A lane maximum of an [n, k] matrix over its ROWS (axis 0), at column c, is the fold of max from the accumulator's
    value over the n entries of that column; over its COLUMNS (axis 1), at row r, the fold over the row's k entries.
-/
import Idealize.ShloMosaic.PureOps.Ideal.Laws
import Idealize.ShloMosaic.Lib.ValueIdx

noncomputable section

open scoped BigOperators

namespace Idealize.ShloMosaic.Gram

open Idealize.ShloMosaic Idealize.ShloMosaic.ValueIdx

/-- The contraction sum of x · yᵀ at a result index is the sum over the shared last coordinate. -/
theorem sum_contr_last {n0 n1 K : ℕ} {M : Type*} [AddCommMonoid M] [Mul M]
    (D : DotDims (⟨2, ![n0, K]⟩ : Shape) (⟨2, ![n1, K]⟩ : Shape) (⟨2, ![n0, n1]⟩ : Shape))
    (hr : D.contr.rank = 1) (hs : D.contr.size ⟨0, by omega⟩ = K)
    (hlc : D.lhsContracting = [1]) (hrc : D.rhsContracting = [1])
    (hl0 : ∀ j q, (D.lhsIdx j q 0).val = (j 0).val) (hr0 : ∀ j q, (D.rhsIdx j q 0).val = (j 1).val)
    (l : (⟨2, ![n0, K]⟩ : Shape).Idx → M) (r : (⟨2, ![n1, K]⟩ : Shape).Idx → M) (j : (⟨2, ![n0, n1]⟩ : Shape).Idx) :
    ∑ q : D.contr.Idx, l (D.lhsIdx j q) * r (D.rhsIdx j q) = ∑ k : Fin K, l (ix2 (j 0) k) * r (ix2 (j 1) k) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 (j 1) k := funext fun a => Fin.ext (by
    match a with
    | ⟨0, _⟩ => exact hr0 _ _
    | ⟨1, _⟩ => exact h2.trans hk)
  exact congrArg₂ (· * ·) (congrArg l el) (congrArg r er)

/-- The reduced index `c` with the row `r` put back is the matrix index `(r, c)`. -/
theorem lift_cols {n k : ℕ} (h : (⟨2, ![n, k]⟩ : Shape).Reduces [0] ⟨1, ![k]⟩) (c : Fin k) (r : Fin n) :
    h.lift (ix1 c) r = ix2 r c :=
  funext fun a => Fin.ext (by match a with | ⟨0, _⟩ => rfl | ⟨1, _⟩ => rfl)

/-- The reduced index `r` with the column `c` put back is the matrix index `(r, c)`. -/
theorem lift_rows {n k : ℕ} (h : (⟨2, ![n, k]⟩ : Shape).Reduces [1] ⟨1, ![n]⟩) (r : Fin n) (c : Fin k) :
    h.lift (ix1 r) c = ix2 r c :=
  funext fun a => Fin.ext (by match a with | ⟨0, _⟩ => rfl | ⟨1, _⟩ => rfl)

/-- A lane maximum over the rows of an `[n, k]` matrix, at column `c`: the fold of max over that column. -/
theorem multiReduction_max_cols_apply {n k : ℕ} (src : FVec Ideal ⟨2, ![n, k]⟩ .f32) (acc : BitVec 32)
    (h : (⟨2, ![n, k]⟩ : Shape).Reduces [0] ⟨1, ![k]⟩) (hφ : FKind.Formats .f32)
    (hacc : acc = FKind.maximumf.neutral .f32 hφ) (c : Fin k) :
    multiReduction .maximumf [0] ⟨1, ![k]⟩ src acc h hφ hacc (ix1 c)
      = (Finset.univ : Finset (Fin n)).fold max (Ideal.ofBits .f32 acc) (fun r => src (ix2 r c)) :=
  (Ideal.multiReduction_maximumf_single src acc h hφ hacc (ix1 c)).trans
    (Finset.fold_congr fun r _ => congrArg src (lift_cols h c r))

/-- A lane maximum over the columns of an `[n, k]` matrix, at row `r`: the fold of max over that row. -/
theorem multiReduction_max_rows_apply {n k : ℕ} (src : FVec Ideal ⟨2, ![n, k]⟩ .f32) (acc : BitVec 32)
    (h : (⟨2, ![n, k]⟩ : Shape).Reduces [1] ⟨1, ![n]⟩) (hφ : FKind.Formats .f32)
    (hacc : acc = FKind.maximumf.neutral .f32 hφ) (r : Fin n) :
    multiReduction .maximumf [1] ⟨1, ![n]⟩ src acc h hφ hacc (ix1 r)
      = (Finset.univ : Finset (Fin k)).fold max (Ideal.ofBits .f32 acc) (fun c => src (ix2 r c)) :=
  (Ideal.multiReduction_maximumf_single src acc h hφ hacc (ix1 r)).trans
    (Finset.fold_congr fun c _ => congrArg src (lift_rows h r c))

end Idealize.ShloMosaic.Gram

end
-- ==== Proof.LinPay.lean ====
/-
  The body of a linear-projection kernel, read at an index of its result, on the extended reals.

  The body takes a block x of 512 rows of the activations, [512, 1024], and the whole weight matrix w, [1024, 1024],
  narrows both to the 16-bit format — a change of format is the identity on extended reals — and multiplies them
  contracting the LAST axis of both into a zero accumulator: the result is x · wᵀ,

      (x · wᵀ) (p, d) = ∑ e < 1024, x (p, e) · w (d, e).

  The product's own reading sums over the positions of a one-axis contraction shape; the dimension record's free axes
  read the result's coordinates (row p for the block, column d for the weight's ROW), and re-indexing the contraction
  shape by its one coordinate gives the sum over e.  The four projection kernels have this one body, so it is read here
  once per kernel name, each by the same steps.
-/
import proofs.«147855_j51891794870426_2_alg».proof.Proof.Gen.KernelIdeal.Skeleton
import proofs.«147855_j51891794870426_2_alg».proof.Proof.LibGram
import Idealize.ShloMosaic.Lib.Pipeline.Value
import Idealize.ShloMosaic.PureOps.Ideal.Laws

noncomputable section

open scoped BigOperators

namespace Cert.KernelIdeal.LinPay

open Cert.KernelIdeal Cert.KernelIdeal.Gen Idealize.ShloMosaic Idealize.ShloMosaic.ValueIdx

/-- The dimension record of the product: axis 1 of both operands is contracted, axis 0 of both is free. -/
abbrev D : DotDims S512x1024 S1024x1024 S512x1024 := dot_S512x1024_S1024x1024_S512x1024_1_1_0_0_n_n

/-- The block operand is read at the result's row. -/
theorem lhs_row (j : S512x1024.Idx) (q : D.contr.Idx) : (D.lhsIdx j q 0).val = (j 0).val := by
  unfold DotDims.lhsIdx
  rw [dif_neg (show ¬(0 : Fin S512x1024.rank) ∈ D.lhsBatch by decide),
    dif_pos (show (0 : Fin S512x1024.rank) ∈ D.lhsNonContracting by decide)]
  rfl

/-- The weight operand is read at the ROW named by the result's column. -/
theorem rhs_row (j : S512x1024.Idx) (q : D.contr.Idx) : (D.rhsIdx j q 0).val = (j 1).val := by
  unfold DotDims.rhsIdx
  rw [dif_neg (show ¬(0 : Fin S1024x1024.rank) ∈ D.rhsBatch by decide),
    dif_pos (show (0 : Fin S1024x1024.rank) ∈ D.rhsNonContracting by decide)]
  rfl

/-- The product into the zero accumulator at (p, d): the inner product of row p of the block with row d of the weight. -/
theorem matmul_zero_apply {φ₁ φ₂ : FTy} (l : FVec Ideal S512x1024 φ₁) (r : FVec Ideal S1024x1024 φ₂) (p : Fin 512) (d : Fin 1024) :
    FloatOps.matmul D none l r (constant S512x1024 .f32 0x00000000#32) (ix2 p d) = ∑ e : Fin 1024, l (ix2 p e) * r (ix2 d e) :=
  (Ideal.matmul_constant_zero_apply D none l r (ix2 p d)).trans
    (Gram.sum_contr_last D rfl rfl rfl rfl lhs_row rhs_row l r (ix2 p d))

/-- The body of the first projection kernel at (p, d). -/
theorem k0_pay1_apply (x0 : Vec Ideal S512x1024 .f32) (x1 : Vec Ideal S1024x1024 .f32) (p : Fin 512) (d : Fin 1024) :
    Gen.k0_pay1 x0 x1 (ix2 p d) = ∑ e : Fin 1024, x0 (ix2 p e) * x1 (ix2 d e) := by
  unfold Gen.k0_pay1
  rw [shapeCast_self]
  exact matmul_zero_apply _ _ p d

/-- The body of the second projection kernel at (p, d). -/
theorem k1_pay1_apply (x0 : Vec Ideal S512x1024 .f32) (x1 : Vec Ideal S1024x1024 .f32) (p : Fin 512) (d : Fin 1024) :
    Gen.k1_pay1 x0 x1 (ix2 p d) = ∑ e : Fin 1024, x0 (ix2 p e) * x1 (ix2 d e) := by
  unfold Gen.k1_pay1
  rw [shapeCast_self]
  exact matmul_zero_apply _ _ p d

/-- The body of the third projection kernel at (p, d). -/
theorem k2_pay1_apply (x0 : Vec Ideal S512x1024 .f32) (x1 : Vec Ideal S1024x1024 .f32) (p : Fin 512) (d : Fin 1024) :
    Gen.k2_pay1 x0 x1 (ix2 p d) = ∑ e : Fin 1024, x0 (ix2 p e) * x1 (ix2 d e) := by
  unfold Gen.k2_pay1
  rw [shapeCast_self]
  exact matmul_zero_apply _ _ p d

/-- The body of the fourth projection kernel at (p, d). -/
theorem k4_pay1_apply (x0 : Vec Ideal S512x1024 .f32) (x1 : Vec Ideal S1024x1024 .f32) (p : Fin 512) (d : Fin 1024) :
    Gen.k4_pay1 x0 x1 (ix2 p d) = ∑ e : Fin 1024, x0 (ix2 p e) * x1 (ix2 d e) := by
  unfold Gen.k4_pay1
  rw [shapeCast_self]
  exact matmul_zero_apply _ _ p d

end Cert.KernelIdeal.LinPay

end
-- ==== Proof.Lin0.lean ====
/-
  A linear-projection kernel as one array: the [2048, 1024] result is x · wᵀ of the [2048, 1024] array x and the
  [1024, 1024] weight w the kernel finds in its two input arrays,

      result (s, d) = ∑ e < 1024, x (s, e) · w (d, e).

  The kernel walks 4 grid points.  At point t it holds rows 512 t … 512 t + 511 of x (all 1024 columns), the WHOLE of
  w, and writes rows 512 t … 512 t + 511 of the result: the body's product of the two blocks.  Entry (p, d) of that
  product is the inner product of row p of the x-block with row d of w; row p of the x-block is row 512 t + p of x,
  which is also the row of the result that entry (p, d) of the output block lands on, and row d of the whole-array
  block of w is row d of w.  So what point t writes back is block t of the function above, and since row s lies in
  the block of point s / 512 the four blocks cover the result.
-/
import proofs.«147855_j51891794870426_2_alg».proof.Proof.Gen.KernelIdeal.Frame
import proofs.«147855_j51891794870426_2_alg».proof.Proof.Spec
import proofs.«147855_j51891794870426_2_alg».proof.Proof.LinPay
import Idealize.ShloMosaic.Lib.Pipeline.Value

noncomputable section

open scoped BigOperators

namespace Cert.KernelIdeal.Lin0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body reads and writes its staging buffers from their origin. -/
theorem origin : (![0, 0] : Fin 2 → Nat) = fun _ => 0 := funext fun a => by fin_cases a <;> rfl

/-- The three index maps over the 4 points: the x-window and the result window are at block row t, block column 0;
    the weight window stays at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's product at an entry of the output block is x · wᵀ at the array index the entry lands on, as soon as the
    x-block's row is that row of x and the w-block's row is that row of w. -/
theorem block_entry (x0 : Vec Ideal S512x1024 .f32) (x1 : Vec Ideal S1024x1024 .f32)
    (X : Cert.Attn.S2.Idx → EReal) (W : Cert.Attn.SW.Idx → EReal) (j : S512x1024.Idx) (i : S2048x1024.Idx)
    (h0 : ∀ e : Fin 1024, x0 (ix2 (j 0) e) = X (ix2 (i 0) e))
    (h1 : ∀ e : Fin 1024, x1 (ix2 (j 1) e) = W (ix2 (i 1) e)) :
    Gen.k0_pay1 x0 x1 j = Cert.Attn.lin X W i := by
  obtain ⟨p, d, rfl⟩ : ∃ (p : Fin 512) (d : Fin 1024), j = ix2 p d := ⟨j 0, j 1, eq_ix2 j⟩
  rw [LinPay.k0_pay1_apply]
  exact Finset.sum_congr rfl fun e _ => congrArg₂ (· * ·) (h0 e) (h1 e)

/-- WHAT POINT t WRITES BACK is block t of x · wᵀ of the two input arrays as the kernel finds them. -/
theorem flushed_eq (c : Dev nD) (t : Fin cfg0.N) :
    (Gen.dat0 (F := Ideal) V c).flushed 2 t
      = ((cfg0.win 2).blk t).view.read (Elt Ideal) (Cert.Attn.lin (V c main_v0) (V c main_arg4)) := by
  show (cfg0.win 2).cut (grid0.coords t) ((Gen.dat0 V c).after 2 t) = _
  rw [Gen.after0_2]
  unfold Gen.out0_2
  rw [View.canon_unit_zero origin]
  simp only [View.ld_unit_zero (S := S512x1024) origin, View.ld_unit_zero (S := S1024x1024) origin]
  obtain ⟨e0, e1, e2, e3, e4, e5⟩ := idx_facts t
  funext j
  refine block_entry (Gen.iblk0 V c 0 t) (Gen.iblk0 V c 1 t) (V c main_v0) (V c main_arg4) j
    (((cfg0.win 2).blk t).view.emb j) ?_ ?_
  · intro e
    show V c main_v0 (((cfg0.win 0).blk t).view.emb (ix2 (j 0) e)) = V c main_v0 (ix2 (((cfg0.win 2).blk t).view.emb j 0) e)
    refine congrArg (V c main_v0) (funext fun a => Fin.ext ?_)
    match a with
    | ⟨0, _⟩ => show win0_0.index t (0 : Fin 2) * 512 + 1 * (j 0).val = win0_2.index t (0 : Fin 2) * 512 + 1 * (j 0).val; omega
    | ⟨1, _⟩ => show win0_0.index t (1 : Fin 2) * 1024 + 1 * e.val = e.val; omega
  · intro e
    show V c main_arg4 (((cfg0.win 1).blk t).view.emb (ix2 (j 1) e)) = V c main_arg4 (ix2 (((cfg0.win 2).blk t).view.emb j 1) e)
    refine congrArg (V c main_arg4) (funext fun a => Fin.ext ?_)
    match a with
    | ⟨0, _⟩ => show win0_1.index t (0 : Fin 2) * 1024 + 1 * (j 1).val = win0_2.index t (1 : Fin 2) * 1024 + 1 * (j 1).val; omega
    | ⟨1, _⟩ => show win0_1.index t (1 : Fin 2) * 1024 + 1 * e.val = e.val; omega

/-- An index of the result is in point t's block iff each coordinate is in the block's range on its axis. -/
theorem mem_blk (t : Fin cfg0.N) (i : S2048x1024.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v4).slice (win0_2.rect t)).set ↔ _
  rw [View.set_slice_whole, Rect.mem_set_unit]
  exact Iff.rfl

/-- Row s of the result lies in the block of point s / 512: the four blocks cover the array. -/
theorem cover (i : S2048x1024.Idx) :
    ∃ t : Fin cfg0.N, (cfg0.win 2).flush t = true ∧ i ∈ ((cfg0.win 2).blk t).view.set := by
  have hi0 : (i 0).val < 2048 := (i 0).isLt
  have hi1 : (i 1).val < 1024 := (i 1).isLt
  have hN : cfg0.N = 4 := N_0
  have ht : (i 0).val / 512 < cfg0.N := by rw [hN]; omega
  obtain ⟨-, -, -, -, e4, e5⟩ := idx_facts ⟨(i 0).val / 512, ht⟩
  refine ⟨⟨(i 0).val / 512, ht⟩, flush0_2 _, ?_⟩
  rw [mem_blk]
  intro a
  match a with
  | ⟨0, _⟩ =>
    show win0_2.index ⟨(i 0).val / 512, ht⟩ (0 : Fin 2) * 512 ≤ (i 0).val
      ∧ (i 0).val < win0_2.index ⟨(i 0).val / 512, ht⟩ (0 : Fin 2) * 512 + 512
    rw [e4]; show (i 0).val / 512 * 512 ≤ (i 0).val ∧ (i 0).val < (i 0).val / 512 * 512 + 512; omega
  | ⟨1, _⟩ =>
    show win0_2.index ⟨(i 0).val / 512, ht⟩ (1 : Fin 2) * 1024 ≤ (i 1).val
      ∧ (i 1).val < win0_2.index ⟨(i 0).val / 512, ht⟩ (1 : Fin 2) * 1024 + 1024
    rw [e5]; omega

/-- THE RESULT ARRAY after the kernel: x · wᵀ of the two input arrays as the kernel finds them. -/
theorem final (c : Dev nD) :
    (Gen.dat0 (F := Ideal) V c).arrAt 2 cfg0.N = Cert.Attn.lin (V c main_v0) (V c main_arg4) :=
  (Gen.dat0 V c).arrAt_eq_of_cover 2 (Cert.Attn.lin (V c main_v0) (V c main_arg4)) (fun t _ => flushed_eq V c t) cover

end Cert.KernelIdeal.Lin0

end
-- ==== Proof.Lin1.lean ====
/-
  A linear-projection kernel as one array: the [2048, 1024] result is x · wᵀ of the [2048, 1024] array x and the
  [1024, 1024] weight w the kernel finds in its two input arrays,

      result (s, d) = ∑ e < 1024, x (s, e) · w (d, e).

  The kernel walks 4 grid points.  At point t it holds rows 512 t … 512 t + 511 of x (all 1024 columns), the WHOLE of
  w, and writes rows 512 t … 512 t + 511 of the result: the body's product of the two blocks.  Entry (p, d) of that
  product is the inner product of row p of the x-block with row d of w; row p of the x-block is row 512 t + p of x,
  which is also the row of the result that entry (p, d) of the output block lands on, and row d of the whole-array
  block of w is row d of w.  So what point t writes back is block t of the function above, and since row s lies in
  the block of point s / 512 the four blocks cover the result.
-/
import proofs.«147855_j51891794870426_2_alg».proof.Proof.Gen.KernelIdeal.Frame
import proofs.«147855_j51891794870426_2_alg».proof.Proof.Spec
import proofs.«147855_j51891794870426_2_alg».proof.Proof.LinPay
import Idealize.ShloMosaic.Lib.Pipeline.Value

noncomputable section

open scoped BigOperators

namespace Cert.KernelIdeal.Lin1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body reads and writes its staging buffers from their origin. -/
theorem origin : (![0, 0] : Fin 2 → Nat) = fun _ => 0 := funext fun a => by fin_cases a <;> rfl

/-- The three index maps over the 4 points: the x-window and the result window are at block row t, block column 0;
    the weight window stays at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The body's product at an entry of the output block is x · wᵀ at the array index the entry lands on, as soon as the
    x-block's row is that row of x and the w-block's row is that row of w. -/
theorem block_entry (x0 : Vec Ideal S512x1024 .f32) (x1 : Vec Ideal S1024x1024 .f32)
    (X : Cert.Attn.S2.Idx → EReal) (W : Cert.Attn.SW.Idx → EReal) (j : S512x1024.Idx) (i : S2048x1024.Idx)
    (h0 : ∀ e : Fin 1024, x0 (ix2 (j 0) e) = X (ix2 (i 0) e))
    (h1 : ∀ e : Fin 1024, x1 (ix2 (j 1) e) = W (ix2 (i 1) e)) :
    Gen.k1_pay1 x0 x1 j = Cert.Attn.lin X W i := by
  obtain ⟨p, d, rfl⟩ : ∃ (p : Fin 512) (d : Fin 1024), j = ix2 p d := ⟨j 0, j 1, eq_ix2 j⟩
  rw [LinPay.k1_pay1_apply]
  exact Finset.sum_congr rfl fun e _ => congrArg₂ (· * ·) (h0 e) (h1 e)

/-- WHAT POINT t WRITES BACK is block t of x · wᵀ of the two input arrays as the kernel finds them. -/
theorem flushed_eq (c : Dev nD) (t : Fin cfg1.N) :
    (Gen.dat1 (F := Ideal) V c).flushed 2 t
      = ((cfg1.win 2).blk t).view.read (Elt Ideal) (Cert.Attn.lin (V c main_v1) (V c main_arg5)) := by
  show (cfg1.win 2).cut (grid1.coords t) ((Gen.dat1 V c).after 2 t) = _
  rw [Gen.after1_2]
  unfold Gen.out1_2
  rw [View.canon_unit_zero origin]
  simp only [View.ld_unit_zero (S := S512x1024) origin, View.ld_unit_zero (S := S1024x1024) origin]
  obtain ⟨e0, e1, e2, e3, e4, e5⟩ := idx_facts t
  funext j
  refine block_entry (Gen.iblk1 V c 0 t) (Gen.iblk1 V c 1 t) (V c main_v1) (V c main_arg5) j
    (((cfg1.win 2).blk t).view.emb j) ?_ ?_
  · intro e
    show V c main_v1 (((cfg1.win 0).blk t).view.emb (ix2 (j 0) e)) = V c main_v1 (ix2 (((cfg1.win 2).blk t).view.emb j 0) e)
    refine congrArg (V c main_v1) (funext fun a => Fin.ext ?_)
    match a with
    | ⟨0, _⟩ => show win1_0.index t (0 : Fin 2) * 512 + 1 * (j 0).val = win1_2.index t (0 : Fin 2) * 512 + 1 * (j 0).val; omega
    | ⟨1, _⟩ => show win1_0.index t (1 : Fin 2) * 1024 + 1 * e.val = e.val; omega
  · intro e
    show V c main_arg5 (((cfg1.win 1).blk t).view.emb (ix2 (j 1) e)) = V c main_arg5 (ix2 (((cfg1.win 2).blk t).view.emb j 1) e)
    refine congrArg (V c main_arg5) (funext fun a => Fin.ext ?_)
    match a with
    | ⟨0, _⟩ => show win1_1.index t (0 : Fin 2) * 1024 + 1 * (j 1).val = win1_2.index t (1 : Fin 2) * 1024 + 1 * (j 1).val; omega
    | ⟨1, _⟩ => show win1_1.index t (1 : Fin 2) * 1024 + 1 * e.val = e.val; omega

/-- An index of the result is in point t's block iff each coordinate is in the block's range on its axis. -/
theorem mem_blk (t : Fin cfg1.N) (i : S2048x1024.Idx) :
    i ∈ ((cfg1.win 2).blk t).view.set ↔ ∀ a : Fin 2, win1_2.index t a * S512x1024.size a ≤ (i a).val
      ∧ (i a).val < win1_2.index t a * S512x1024.size a + S512x1024.size a := by
  show i ∈ ((View.whole main_v5).slice (win1_2.rect t)).set ↔ _
  rw [View.set_slice_whole, Rect.mem_set_unit]
  exact Iff.rfl

/-- Row s of the result lies in the block of point s / 512: the four blocks cover the array. -/
theorem cover (i : S2048x1024.Idx) :
    ∃ t : Fin cfg1.N, (cfg1.win 2).flush t = true ∧ i ∈ ((cfg1.win 2).blk t).view.set := by
  have hi0 : (i 0).val < 2048 := (i 0).isLt
  have hi1 : (i 1).val < 1024 := (i 1).isLt
  have hN : cfg1.N = 4 := N_1
  have ht : (i 0).val / 512 < cfg1.N := by rw [hN]; omega
  obtain ⟨-, -, -, -, e4, e5⟩ := idx_facts ⟨(i 0).val / 512, ht⟩
  refine ⟨⟨(i 0).val / 512, ht⟩, flush1_2 _, ?_⟩
  rw [mem_blk]
  intro a
  match a with
  | ⟨0, _⟩ =>
    show win1_2.index ⟨(i 0).val / 512, ht⟩ (0 : Fin 2) * 512 ≤ (i 0).val
      ∧ (i 0).val < win1_2.index ⟨(i 0).val / 512, ht⟩ (0 : Fin 2) * 512 + 512
    rw [e4]; show (i 0).val / 512 * 512 ≤ (i 0).val ∧ (i 0).val < (i 0).val / 512 * 512 + 512; omega
  | ⟨1, _⟩ =>
    show win1_2.index ⟨(i 0).val / 512, ht⟩ (1 : Fin 2) * 1024 ≤ (i 1).val
      ∧ (i 1).val < win1_2.index ⟨(i 0).val / 512, ht⟩ (1 : Fin 2) * 1024 + 1024
    rw [e5]; omega

/-- THE RESULT ARRAY after the kernel: x · wᵀ of the two input arrays as the kernel finds them. -/
theorem final (c : Dev nD) :
    (Gen.dat1 (F := Ideal) V c).arrAt 2 cfg1.N = Cert.Attn.lin (V c main_v1) (V c main_arg5) :=
  (Gen.dat1 V c).arrAt_eq_of_cover 2 (Cert.Attn.lin (V c main_v1) (V c main_arg5)) (fun t _ => flushed_eq V c t) cover

end Cert.KernelIdeal.Lin1

end
-- ==== Proof.Lin2.lean ====
/-
  A linear-projection kernel as one array: the [2048, 1024] result is x · wᵀ of the [2048, 1024] array x and the
  [1024, 1024] weight w the kernel finds in its two input arrays,

      result (s, d) = ∑ e < 1024, x (s, e) · w (d, e).

  The kernel walks 4 grid points.  At point t it holds rows 512 t … 512 t + 511 of x (all 1024 columns), the WHOLE of
  w, and writes rows 512 t … 512 t + 511 of the result: the body's product of the two blocks.  Entry (p, d) of that
  product is the inner product of row p of the x-block with row d of w; row p of the x-block is row 512 t + p of x,
  which is also the row of the result that entry (p, d) of the output block lands on, and row d of the whole-array
  block of w is row d of w.  So what point t writes back is block t of the function above, and since row s lies in
  the block of point s / 512 the four blocks cover the result.
-/
import proofs.«147855_j51891794870426_2_alg».proof.Proof.Gen.KernelIdeal.Frame
import proofs.«147855_j51891794870426_2_alg».proof.Proof.Spec
import proofs.«147855_j51891794870426_2_alg».proof.Proof.LinPay
import Idealize.ShloMosaic.Lib.Pipeline.Value

noncomputable section

open scoped BigOperators

namespace Cert.KernelIdeal.Lin2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body reads and writes its staging buffers from their origin. -/
theorem origin : (![0, 0] : Fin 2 → Nat) = fun _ => 0 := funext fun a => by fin_cases a <;> rfl

/-- The three index maps over the 4 points: the x-window and the result window are at block row t, block column 0;
    the weight window stays at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body's product at an entry of the output block is x · wᵀ at the array index the entry lands on, as soon as the
    x-block's row is that row of x and the w-block's row is that row of w. -/
theorem block_entry (x0 : Vec Ideal S512x1024 .f32) (x1 : Vec Ideal S1024x1024 .f32)
    (X : Cert.Attn.S2.Idx → EReal) (W : Cert.Attn.SW.Idx → EReal) (j : S512x1024.Idx) (i : S2048x1024.Idx)
    (h0 : ∀ e : Fin 1024, x0 (ix2 (j 0) e) = X (ix2 (i 0) e))
    (h1 : ∀ e : Fin 1024, x1 (ix2 (j 1) e) = W (ix2 (i 1) e)) :
    Gen.k2_pay1 x0 x1 j = Cert.Attn.lin X W i := by
  obtain ⟨p, d, rfl⟩ : ∃ (p : Fin 512) (d : Fin 1024), j = ix2 p d := ⟨j 0, j 1, eq_ix2 j⟩
  rw [LinPay.k2_pay1_apply]
  exact Finset.sum_congr rfl fun e _ => congrArg₂ (· * ·) (h0 e) (h1 e)

/-- WHAT POINT t WRITES BACK is block t of x · wᵀ of the two input arrays as the kernel finds them. -/
theorem flushed_eq (c : Dev nD) (t : Fin cfg2.N) :
    (Gen.dat2 (F := Ideal) V c).flushed 2 t
      = ((cfg2.win 2).blk t).view.read (Elt Ideal) (Cert.Attn.lin (V c main_v2) (V c main_arg6)) := by
  show (cfg2.win 2).cut (grid2.coords t) ((Gen.dat2 V c).after 2 t) = _
  rw [Gen.after2_2]
  unfold Gen.out2_2
  rw [View.canon_unit_zero origin]
  simp only [View.ld_unit_zero (S := S512x1024) origin, View.ld_unit_zero (S := S1024x1024) origin]
  obtain ⟨e0, e1, e2, e3, e4, e5⟩ := idx_facts t
  funext j
  refine block_entry (Gen.iblk2 V c 0 t) (Gen.iblk2 V c 1 t) (V c main_v2) (V c main_arg6) j
    (((cfg2.win 2).blk t).view.emb j) ?_ ?_
  · intro e
    show V c main_v2 (((cfg2.win 0).blk t).view.emb (ix2 (j 0) e)) = V c main_v2 (ix2 (((cfg2.win 2).blk t).view.emb j 0) e)
    refine congrArg (V c main_v2) (funext fun a => Fin.ext ?_)
    match a with
    | ⟨0, _⟩ => show win2_0.index t (0 : Fin 2) * 512 + 1 * (j 0).val = win2_2.index t (0 : Fin 2) * 512 + 1 * (j 0).val; omega
    | ⟨1, _⟩ => show win2_0.index t (1 : Fin 2) * 1024 + 1 * e.val = e.val; omega
  · intro e
    show V c main_arg6 (((cfg2.win 1).blk t).view.emb (ix2 (j 1) e)) = V c main_arg6 (ix2 (((cfg2.win 2).blk t).view.emb j 1) e)
    refine congrArg (V c main_arg6) (funext fun a => Fin.ext ?_)
    match a with
    | ⟨0, _⟩ => show win2_1.index t (0 : Fin 2) * 1024 + 1 * (j 1).val = win2_2.index t (1 : Fin 2) * 1024 + 1 * (j 1).val; omega
    | ⟨1, _⟩ => show win2_1.index t (1 : Fin 2) * 1024 + 1 * e.val = e.val; omega

/-- An index of the result is in point t's block iff each coordinate is in the block's range on its axis. -/
theorem mem_blk (t : Fin cfg2.N) (i : S2048x1024.Idx) :
    i ∈ ((cfg2.win 2).blk t).view.set ↔ ∀ a : Fin 2, win2_2.index t a * S512x1024.size a ≤ (i a).val
      ∧ (i a).val < win2_2.index t a * S512x1024.size a + S512x1024.size a := by
  show i ∈ ((View.whole main_v6).slice (win2_2.rect t)).set ↔ _
  rw [View.set_slice_whole, Rect.mem_set_unit]
  exact Iff.rfl

/-- Row s of the result lies in the block of point s / 512: the four blocks cover the array. -/
theorem cover (i : S2048x1024.Idx) :
    ∃ t : Fin cfg2.N, (cfg2.win 2).flush t = true ∧ i ∈ ((cfg2.win 2).blk t).view.set := by
  have hi0 : (i 0).val < 2048 := (i 0).isLt
  have hi1 : (i 1).val < 1024 := (i 1).isLt
  have hN : cfg2.N = 4 := N_2
  have ht : (i 0).val / 512 < cfg2.N := by rw [hN]; omega
  obtain ⟨-, -, -, -, e4, e5⟩ := idx_facts ⟨(i 0).val / 512, ht⟩
  refine ⟨⟨(i 0).val / 512, ht⟩, flush2_2 _, ?_⟩
  rw [mem_blk]
  intro a
  match a with
  | ⟨0, _⟩ =>
    show win2_2.index ⟨(i 0).val / 512, ht⟩ (0 : Fin 2) * 512 ≤ (i 0).val
      ∧ (i 0).val < win2_2.index ⟨(i 0).val / 512, ht⟩ (0 : Fin 2) * 512 + 512
    rw [e4]; show (i 0).val / 512 * 512 ≤ (i 0).val ∧ (i 0).val < (i 0).val / 512 * 512 + 512; omega
  | ⟨1, _⟩ =>
    show win2_2.index ⟨(i 0).val / 512, ht⟩ (1 : Fin 2) * 1024 ≤ (i 1).val
      ∧ (i 1).val < win2_2.index ⟨(i 0).val / 512, ht⟩ (1 : Fin 2) * 1024 + 1024
    rw [e5]; omega

/-- THE RESULT ARRAY after the kernel: x · wᵀ of the two input arrays as the kernel finds them. -/
theorem final (c : Dev nD) :
    (Gen.dat2 (F := Ideal) V c).arrAt 2 cfg2.N = Cert.Attn.lin (V c main_v2) (V c main_arg6) :=
  (Gen.dat2 V c).arrAt_eq_of_cover 2 (Cert.Attn.lin (V c main_v2) (V c main_arg6)) (fun t _ => flushed_eq V c t) cover

end Cert.KernelIdeal.Lin2

end
-- ==== Proof.Lin4.lean ====
/-
  A linear-projection kernel as one array: the [2048, 1024] result is x · wᵀ of the [2048, 1024] array x and the
  [1024, 1024] weight w the kernel finds in its two input arrays,

      result (s, d) = ∑ e < 1024, x (s, e) · w (d, e).

  The kernel walks 4 grid points.  At point t it holds rows 512 t … 512 t + 511 of x (all 1024 columns), the WHOLE of
  w, and writes rows 512 t … 512 t + 511 of the result: the body's product of the two blocks.  Entry (p, d) of that
  product is the inner product of row p of the x-block with row d of w; row p of the x-block is row 512 t + p of x,
  which is also the row of the result that entry (p, d) of the output block lands on, and row d of the whole-array
  block of w is row d of w.  So what point t writes back is block t of the function above, and since row s lies in
  the block of point s / 512 the four blocks cover the result.
-/
import proofs.«147855_j51891794870426_2_alg».proof.Proof.Gen.KernelIdeal.Frame
import proofs.«147855_j51891794870426_2_alg».proof.Proof.Spec
import proofs.«147855_j51891794870426_2_alg».proof.Proof.LinPay
import Idealize.ShloMosaic.Lib.Pipeline.Value

noncomputable section

open scoped BigOperators

namespace Cert.KernelIdeal.Lin4

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body reads and writes its staging buffers from their origin. -/
theorem origin : (![0, 0] : Fin 2 → Nat) = fun _ => 0 := funext fun a => by fin_cases a <;> rfl

/-- The three index maps over the 4 points: the x-window and the result window are at block row t, block column 0;
    the weight window stays at block (0, 0). -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The body's product at an entry of the output block is x · wᵀ at the array index the entry lands on, as soon as the
    x-block's row is that row of x and the w-block's row is that row of w. -/
theorem block_entry (x0 : Vec Ideal S512x1024 .f32) (x1 : Vec Ideal S1024x1024 .f32)
    (X : Cert.Attn.S2.Idx → EReal) (W : Cert.Attn.SW.Idx → EReal) (j : S512x1024.Idx) (i : S2048x1024.Idx)
    (h0 : ∀ e : Fin 1024, x0 (ix2 (j 0) e) = X (ix2 (i 0) e))
    (h1 : ∀ e : Fin 1024, x1 (ix2 (j 1) e) = W (ix2 (i 1) e)) :
    Gen.k4_pay1 x0 x1 j = Cert.Attn.lin X W i := by
  obtain ⟨p, d, rfl⟩ : ∃ (p : Fin 512) (d : Fin 1024), j = ix2 p d := ⟨j 0, j 1, eq_ix2 j⟩
  rw [LinPay.k4_pay1_apply]
  exact Finset.sum_congr rfl fun e _ => congrArg₂ (· * ·) (h0 e) (h1 e)

/-- WHAT POINT t WRITES BACK is block t of x · wᵀ of the two input arrays as the kernel finds them. -/
theorem flushed_eq (c : Dev nD) (t : Fin cfg4.N) :
    (Gen.dat4 (F := Ideal) V c).flushed 2 t
      = ((cfg4.win 2).blk t).view.read (Elt Ideal) (Cert.Attn.lin (V c main_v7_1) (V c main_arg7)) := by
  show (cfg4.win 2).cut (grid4.coords t) ((Gen.dat4 V c).after 2 t) = _
  rw [Gen.after4_2]
  unfold Gen.out4_2
  rw [View.canon_unit_zero origin]
  simp only [View.ld_unit_zero (S := S512x1024) origin, View.ld_unit_zero (S := S1024x1024) origin]
  obtain ⟨e0, e1, e2, e3, e4, e5⟩ := idx_facts t
  funext j
  refine block_entry (Gen.iblk4 V c 0 t) (Gen.iblk4 V c 1 t) (V c main_v7_1) (V c main_arg7) j
    (((cfg4.win 2).blk t).view.emb j) ?_ ?_
  · intro e
    show V c main_v7_1 (((cfg4.win 0).blk t).view.emb (ix2 (j 0) e)) = V c main_v7_1 (ix2 (((cfg4.win 2).blk t).view.emb j 0) e)
    refine congrArg (V c main_v7_1) (funext fun a => Fin.ext ?_)
    match a with
    | ⟨0, _⟩ => show win4_0.index t (0 : Fin 2) * 512 + 1 * (j 0).val = win4_2.index t (0 : Fin 2) * 512 + 1 * (j 0).val; omega
    | ⟨1, _⟩ => show win4_0.index t (1 : Fin 2) * 1024 + 1 * e.val = e.val; omega
  · intro e
    show V c main_arg7 (((cfg4.win 1).blk t).view.emb (ix2 (j 1) e)) = V c main_arg7 (ix2 (((cfg4.win 2).blk t).view.emb j 1) e)
    refine congrArg (V c main_arg7) (funext fun a => Fin.ext ?_)
    match a with
    | ⟨0, _⟩ => show win4_1.index t (0 : Fin 2) * 1024 + 1 * (j 1).val = win4_2.index t (1 : Fin 2) * 1024 + 1 * (j 1).val; omega
    | ⟨1, _⟩ => show win4_1.index t (1 : Fin 2) * 1024 + 1 * e.val = e.val; omega

/-- An index of the result is in point t's block iff each coordinate is in the block's range on its axis. -/
theorem mem_blk (t : Fin cfg4.N) (i : S2048x1024.Idx) :
    i ∈ ((cfg4.win 2).blk t).view.set ↔ ∀ a : Fin 2, win4_2.index t a * S512x1024.size a ≤ (i a).val
      ∧ (i a).val < win4_2.index t a * S512x1024.size a + S512x1024.size a := by
  show i ∈ ((View.whole main_v8).slice (win4_2.rect t)).set ↔ _
  rw [View.set_slice_whole, Rect.mem_set_unit]
  exact Iff.rfl

/-- Row s of the result lies in the block of point s / 512: the four blocks cover the array. -/
theorem cover (i : S2048x1024.Idx) :
    ∃ t : Fin cfg4.N, (cfg4.win 2).flush t = true ∧ i ∈ ((cfg4.win 2).blk t).view.set := by
  have hi0 : (i 0).val < 2048 := (i 0).isLt
  have hi1 : (i 1).val < 1024 := (i 1).isLt
  have hN : cfg4.N = 4 := N_4
  have ht : (i 0).val / 512 < cfg4.N := by rw [hN]; omega
  obtain ⟨-, -, -, -, e4, e5⟩ := idx_facts ⟨(i 0).val / 512, ht⟩
  refine ⟨⟨(i 0).val / 512, ht⟩, flush4_2 _, ?_⟩
  rw [mem_blk]
  intro a
  match a with
  | ⟨0, _⟩ =>
    show win4_2.index ⟨(i 0).val / 512, ht⟩ (0 : Fin 2) * 512 ≤ (i 0).val
      ∧ (i 0).val < win4_2.index ⟨(i 0).val / 512, ht⟩ (0 : Fin 2) * 512 + 512
    rw [e4]; show (i 0).val / 512 * 512 ≤ (i 0).val ∧ (i 0).val < (i 0).val / 512 * 512 + 512; omega
  | ⟨1, _⟩ =>
    show win4_2.index ⟨(i 0).val / 512, ht⟩ (1 : Fin 2) * 1024 ≤ (i 1).val
      ∧ (i 1).val < win4_2.index ⟨(i 0).val / 512, ht⟩ (1 : Fin 2) * 1024 + 1024
    rw [e5]; omega

/-- THE RESULT ARRAY after the kernel: x · wᵀ of the two input arrays as the kernel finds them. -/
theorem final (c : Dev nD) :
    (Gen.dat4 (F := Ideal) V c).arrAt 2 cfg4.N = Cert.Attn.lin (V c main_v7_1) (V c main_arg7) :=
  (Gen.dat4 V c).arrAt_eq_of_cover 2 (Cert.Attn.lin (V c main_v7_1) (V c main_arg7)) (fun t _ => flushed_eq V c t) cover

end Cert.KernelIdeal.Lin4

end
-- ==== Proof.RefProj.lean ====
/-
  The three projections of the reference program, read at an index.  Each activation is multiplied by the transpose of
  its weight matrix, the 1024 columns are regrouped as 16 heads of 64 coordinates (column e is coordinate e % 64 of head
  e / 64) and the head axis is moved in front of the row axis.  So the regrouped array at (0, h, s, d) is the plain
  product at row s, column 64 h + d.
-/
import proofs.«147855_j51891794870426_2_alg».proof.Proof.Gen.ReferenceIdeal.Read
import proofs.«147855_j51891794870426_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx Cert.Attn

/-- Regrouping the columns: the flat position of (0, s, h, d) in [1, 2048, 16, 64] is row s, column 64 h + d. -/
theorem idx_regroup (s : Fin 2048) (h : Fin 16) (d : Fin 64) :
    idx_main_v1 (ix4 (0 : Fin 1) s h d) = ix3 (0 : Fin 1) s (col h d) := by
  funext a
  match a with
  | ⟨0, _⟩ => rfl
  | ⟨1, _⟩ =>
    refine Fin.ext ?_
    show (((0 * 2048 + s.val) * 16 + h.val) * 64 + d.val) / 1024 % 2048 = s.val
    omega
  | ⟨2, _⟩ =>
    refine Fin.ext ?_
    show (((0 * 2048 + s.val) * 16 + h.val) * 64 + d.val) % 1024 = 64 * h.val + d.val
    omega

/-- Moving the head axis in front of the row axis reads (0, h, s, d) at (0, s, h, d). -/
theorem idx_swap (h : Fin 16) (s : Fin 2048) (d : Fin 64) :
    idx_main_v2 (ix4 (0 : Fin 1) h s d) = ix4 (0 : Fin 1) s h d := by
  funext a
  match a with
  | ⟨0, _⟩ => rfl
  | ⟨1, _⟩ => rfl
  | ⟨2, _⟩ => rfl
  | ⟨3, _⟩ => rfl

/-- The query product x · Wᵀ at row `s`, column `e` is the specification's projection. -/
theorem v0_at (x0 : (⟨S1x2048x1024, .f32⟩ : BufTy).Contents (Elt Ideal)) (x4 : (⟨S1024x1024, .f32⟩ : BufTy).Contents (Elt Ideal))
    (s : Fin 2048) (e : Fin 1024) :
    val_main_v0 (F := Ideal) x0 x4 (ix3 (0 : Fin 1) s e) = proj x0 x4 s e := by
  refine (val_main_v0_apply x0 x4 _).trans ?_
  refine Finset.sum_congr rfl fun k _ => ?_
  have hl : lidx_main_v0 (ix3 (0 : Fin 1) s e) k = ix3 (0 : Fin 1) s k := by
    funext a
    match a with
    | ⟨0, _⟩ => rfl
    | ⟨1, _⟩ => rfl
    | ⟨2, _⟩ => rfl
  have hr : ridx_main_v0 (ix3 (0 : Fin 1) s e) k = ix2 e k := by
    funext a
    match a with
    | ⟨0, _⟩ => rfl
    | ⟨1, _⟩ => rfl
  rw [hl, hr]

/-- The query product regrouped by heads, at (0, s, h, d): row s, column 64 h + d of the projection. -/
theorem v1_at (x0 : (⟨S1x2048x1024, .f32⟩ : BufTy).Contents (Elt Ideal)) (x4 : (⟨S1024x1024, .f32⟩ : BufTy).Contents (Elt Ideal))
    (s : Fin 2048) (h : Fin 16) (d : Fin 64) :
    val_main_v1 (F := Ideal) x0 x4 (ix4 (0 : Fin 1) s h d) = proj x0 x4 s (col h d) :=
  (val_main_v1_apply x0 x4 _).trans
    ((congrArg (val_main_v0 (F := Ideal) x0 x4) (idx_regroup s h d)).trans (v0_at x0 x4 s (col h d)))

/-- The query product with the head axis in front, at (0, h, s, d): row s, column 64 h + d of the projection. -/
theorem v2_at (x0 : (⟨S1x2048x1024, .f32⟩ : BufTy).Contents (Elt Ideal)) (x4 : (⟨S1024x1024, .f32⟩ : BufTy).Contents (Elt Ideal))
    (h : Fin 16) (s : Fin 2048) (d : Fin 64) :
    val_main_v2 (F := Ideal) x0 x4 (ix4 (0 : Fin 1) h s d) = proj x0 x4 s (col h d) :=
  (val_main_v2_apply x0 x4 _).trans
    ((congrArg (val_main_v1 (F := Ideal) x0 x4) (idx_swap h s d)).trans (v1_at x0 x4 s h d))

/-- The key product x · Wᵀ at row `s`, column `e` is the specification's projection. -/
theorem v3_at (x1 : (⟨S1x2048x1024, .f32⟩ : BufTy).Contents (Elt Ideal)) (x5 : (⟨S1024x1024, .f32⟩ : BufTy).Contents (Elt Ideal))
    (s : Fin 2048) (e : Fin 1024) :
    val_main_v3 (F := Ideal) x1 x5 (ix3 (0 : Fin 1) s e) = proj x1 x5 s e := by
  refine (val_main_v3_apply x1 x5 _).trans ?_
  refine Finset.sum_congr rfl fun k _ => ?_
  have hl : lidx_main_v3 (ix3 (0 : Fin 1) s e) k = ix3 (0 : Fin 1) s k := by
    funext a
    match a with
    | ⟨0, _⟩ => rfl
    | ⟨1, _⟩ => rfl
    | ⟨2, _⟩ => rfl
  have hr : ridx_main_v3 (ix3 (0 : Fin 1) s e) k = ix2 e k := by
    funext a
    match a with
    | ⟨0, _⟩ => rfl
    | ⟨1, _⟩ => rfl
  rw [hl, hr]

/-- The key product regrouped by heads, at (0, s, h, d): row s, column 64 h + d of the projection. -/
theorem v4_at (x1 : (⟨S1x2048x1024, .f32⟩ : BufTy).Contents (Elt Ideal)) (x5 : (⟨S1024x1024, .f32⟩ : BufTy).Contents (Elt Ideal))
    (s : Fin 2048) (h : Fin 16) (d : Fin 64) :
    val_main_v4 (F := Ideal) x1 x5 (ix4 (0 : Fin 1) s h d) = proj x1 x5 s (col h d) :=
  (val_main_v4_apply x1 x5 _).trans
    ((congrArg (val_main_v3 (F := Ideal) x1 x5) (idx_regroup s h d)).trans (v3_at x1 x5 s (col h d)))

/-- The key product with the head axis in front, at (0, h, s, d): row s, column 64 h + d of the projection. -/
theorem v5_at (x1 : (⟨S1x2048x1024, .f32⟩ : BufTy).Contents (Elt Ideal)) (x5 : (⟨S1024x1024, .f32⟩ : BufTy).Contents (Elt Ideal))
    (h : Fin 16) (s : Fin 2048) (d : Fin 64) :
    val_main_v5 (F := Ideal) x1 x5 (ix4 (0 : Fin 1) h s d) = proj x1 x5 s (col h d) :=
  (val_main_v5_apply x1 x5 _).trans
    ((congrArg (val_main_v4 (F := Ideal) x1 x5) (idx_swap h s d)).trans (v4_at x1 x5 s h d))

/-- The value product x · Wᵀ at row `s`, column `e` is the specification's projection. -/
theorem v6_at (x2 : (⟨S1x2048x1024, .f32⟩ : BufTy).Contents (Elt Ideal)) (x6 : (⟨S1024x1024, .f32⟩ : BufTy).Contents (Elt Ideal))
    (s : Fin 2048) (e : Fin 1024) :
    val_main_v6 (F := Ideal) x2 x6 (ix3 (0 : Fin 1) s e) = proj x2 x6 s e := by
  refine (val_main_v6_apply x2 x6 _).trans ?_
  refine Finset.sum_congr rfl fun k _ => ?_
  have hl : lidx_main_v6 (ix3 (0 : Fin 1) s e) k = ix3 (0 : Fin 1) s k := by
    funext a
    match a with
    | ⟨0, _⟩ => rfl
    | ⟨1, _⟩ => rfl
    | ⟨2, _⟩ => rfl
  have hr : ridx_main_v6 (ix3 (0 : Fin 1) s e) k = ix2 e k := by
    funext a
    match a with
    | ⟨0, _⟩ => rfl
    | ⟨1, _⟩ => rfl
  rw [hl, hr]

/-- The value product regrouped by heads, at (0, s, h, d): row s, column 64 h + d of the projection. -/
theorem v7_at (x2 : (⟨S1x2048x1024, .f32⟩ : BufTy).Contents (Elt Ideal)) (x6 : (⟨S1024x1024, .f32⟩ : BufTy).Contents (Elt Ideal))
    (s : Fin 2048) (h : Fin 16) (d : Fin 64) :
    val_main_v7 (F := Ideal) x2 x6 (ix4 (0 : Fin 1) s h d) = proj x2 x6 s (col h d) :=
  (val_main_v7_apply x2 x6 _).trans
    ((congrArg (val_main_v6 (F := Ideal) x2 x6) (idx_regroup s h d)).trans (v6_at x2 x6 s (col h d)))

/-- The value product with the head axis in front, at (0, h, s, d): row s, column 64 h + d of the projection. -/
theorem v8_at (x2 : (⟨S1x2048x1024, .f32⟩ : BufTy).Contents (Elt Ideal)) (x6 : (⟨S1024x1024, .f32⟩ : BufTy).Contents (Elt Ideal))
    (h : Fin 16) (s : Fin 2048) (d : Fin 64) :
    val_main_v8 (F := Ideal) x2 x6 (ix4 (0 : Fin 1) h s d) = proj x2 x6 s (col h d) :=
  (val_main_v8_apply x2 x6 _).trans
    ((congrArg (val_main_v7 (F := Ideal) x2 x6) (idx_swap h s d)).trans (v7_at x2 x6 s h d))

end Cert.ReferenceIdeal.RefValue

end
-- ==== Proof.RefConsts.lean ====
/-
  The float words the reference program spells, as the extended reals they denote: the divisor 8, its reciprocal 1/8
  (the scale of the specification), the zero that starts a sum and the negative infinity that starts a maximum.
-/
import Idealize.ShloMosaic.PureOps.Ideal

noncomputable section

namespace Cert.ReferenceIdeal.RefValue

open Idealize.ShloMosaic

/-- The word of `8.0` denotes the real 8. -/
theorem ofBits_eight : Ideal.ofBits .f32 0x41000000#32 = ((8 : ℝ) : EReal) := by
  simp [Ideal.ofBits, Ideal.ieee, -EReal.coe_mul]; norm_num

/-- The word of `0.125` denotes the real 1/8. -/
theorem ofBits_eighth : Ideal.ofBits .f32 0x3E000000#32 = ((1 / 8 : ℝ) : EReal) := by
  simp [Ideal.ofBits, Ideal.ieee, -EReal.coe_mul]; norm_num

/-- The word of `+0.0` denotes 0. -/
theorem ofBits_zero : Ideal.ofBits .f32 0x00000000#32 = 0 := by
  simp [Ideal.ofBits, Ideal.ieee]

/-- The word of negative infinity denotes the bottom element. -/
theorem ofBits_neg_inf : Ideal.ofBits .f32 0xFF800000#32 = (⊥ : EReal) := by
  simp [Ideal.ofBits, Ideal.ieee]

/-- Dividing by the word of 8 is multiplying by the word of 1/8. -/
theorem div_eight (x : EReal) :
    Ideal.div x (Ideal.ofBits .f32 0x41000000#32) = x * Ideal.ofBits .f32 0x3E000000#32 := by
  rw [ofBits_eight, ofBits_eighth]
  exact Ideal.div_coe (by norm_num) x

end Cert.ReferenceIdeal.RefValue

end
-- ==== Proof.RefScore.lean ====
/-
  The masked, scaled scores of the reference program, read at an index.  The score array at (0, h, s, t) is the fill
  constant where the mask at (0, s, t) is non-zero, and otherwise the inner product over the 64 coordinates of head h of
  row s of the projected queries with row t of the projected keys, divided by 8, which is the product with 1/8.
-/
import proofs.«147855_j51891794870426_2_alg».proof.Proof.RefProj
import proofs.«147855_j51891794870426_2_alg».proof.Proof.RefConsts

noncomputable section

open scoped BigOperators

namespace Cert.ReferenceIdeal.RefValue

open Cert.ReferenceIdeal Cert.ReferenceIdeal.Gen Cert.ReferenceIdeal.Read Idealize.ShloMosaic Idealize.ShloMosaic.ValueIdx Cert.Attn

/-- The query–key product of head `h` at (s, t): the sum over the head's 64 columns. -/
theorem v9_at (x0 x1 : (⟨S1x2048x1024, .f32⟩ : BufTy).Contents (Elt Ideal)) (x4 x5 : (⟨S1024x1024, .f32⟩ : BufTy).Contents (Elt Ideal))
    (h : Fin 16) (s t : Fin 2048) :
    val_main_v9 (F := Ideal) x0 x1 x4 x5 (ix4 (0 : Fin 1) h s t)
      = ∑ d : Fin 64, proj x0 x4 s (col h d) * proj x1 x5 t (col h d) := by
  refine (val_main_v9_apply x0 x1 x4 x5 _).trans ?_
  refine Finset.sum_congr rfl fun k _ => ?_
  have hl : lidx_main_v9 (ix4 (0 : Fin 1) h s t) k = ix4 (0 : Fin 1) h s k := by
    funext a
    match a with
    | ⟨0, _⟩ => rfl
    | ⟨1, _⟩ => rfl
    | ⟨2, _⟩ => rfl
    | ⟨3, _⟩ => rfl
  have hr : ridx_main_v9 (ix4 (0 : Fin 1) h s t) k = ix4 (0 : Fin 1) h t k := by
    funext a
    match a with
    | ⟨0, _⟩ => rfl
    | ⟨1, _⟩ => rfl
    | ⟨2, _⟩ => rfl
    | ⟨3, _⟩ => rfl
  rw [hl, hr, v2_at, v5_at]

/-- The quotient by the constant 8 at (0, h, s, t) is the product with the scale 1/8. -/
theorem v11_at (x0 x1 : (⟨S1x2048x1024, .f32⟩ : BufTy).Contents (Elt Ideal)) (x4 x5 : (⟨S1024x1024, .f32⟩ : BufTy).Contents (Elt Ideal))
    (h : Fin 16) (s t : Fin 2048) :
    val_main_v11 (F := Ideal) x0 x1 x4 x5 (ix4 (0 : Fin 1) h s t)
      = (∑ d : Fin 64, proj x0 x4 s (col h d) * proj x1 x5 t (col h d)) * scale := by
  refine (val_main_v11_apply x0 x1 x4 x5 _).trans ?_
  rw [v9_at, val_main_v10_apply]
  exact div_eight _

/-- The broadcast mask condition at (0, h, s, t) compares the mask word at (0, s, t) with zero. -/
theorem mask_at (x3 : (⟨S1x2048x2048, .i32⟩ : BufTy).Contents (Elt Ideal)) (h : Fin 16) (s t : Fin 2048) :
    val_main_call0_v0 (F := Ideal) x3 (ix4 (0 : Fin 1) h s t) = IntOp.cmpi .ne (x3 (ix3 (0 : Fin 1) s t)) 0#32 := by
  refine (val_main_call0_v0_apply x3 _).trans ?_
  refine (val_main_v14_apply x3 _).trans ?_
  refine (val_main_v13_apply x3 _).trans ?_
  have hi : idx_main_v14 (idx_main_call0_v0 (ix4 (0 : Fin 1) h s t)) = ix3 (0 : Fin 1) s t := by
    funext a
    match a with
    | ⟨0, _⟩ => rfl
    | ⟨1, _⟩ => rfl
    | ⟨2, _⟩ => rfl
  rw [hi, val_main_v12_apply]
  rfl

/-- The broadcast fill constant reads the specification's fill everywhere. -/
theorem fill_at (i : S1x16x2048x2048.Idx) : val_main_call0_v1 (F := Ideal) i = fill := by
  rw [val_main_call0_v1_apply]
  rfl

/-- THE SCORES: the reference's masked, scaled score array at (0, h, s, t) is the specification's score. -/
theorem score_at (x0 x1 : (⟨S1x2048x1024, .f32⟩ : BufTy).Contents (Elt Ideal)) (x3 : (⟨S1x2048x2048, .i32⟩ : BufTy).Contents (Elt Ideal)) (x4 x5 : (⟨S1024x1024, .f32⟩ : BufTy).Contents (Elt Ideal))
    (h : Fin 16) (s t : Fin 2048) :
    val_main_v15 (F := Ideal) x0 x1 x3 x4 x5 (ix4 (0 : Fin 1) h s t)
      = score (proj x0 x4) (proj x1 x5) (fun s t => x3 (ix3 (0 : Fin 1) s t)) h s t := by
  refine (val_main_v15_apply x0 x1 x3 x4 x5 _).trans ?_
  rw [mask_at, fill_at, v11_at]
  rfl

end Cert.ReferenceIdeal.RefValue

end
-- ==== Proof.RefOut.lean ====
/-
  The first result of the reference program is the specification's output array.

  Per head, the scores (not the softmax weights) are multiplied with the projected values: at (0, h, s, d) this is the sum
  over the key rows t of the score of head h at (s, t) times the projected value at row t, column 64 h + d.  Moving the head
  axis back behind the row axis and flattening (head, coordinate) to one column e = 64 (e / 64) + e % 64 gives the context
  at (s, e), whose head is e / 64; the last product with the transposed output weights is the output.
-/
import proofs.«147855_j51891794870426_2_alg».proof.Proof.RefScore

noncomputable section

open scoped BigOperators

namespace Cert.ReferenceIdeal.RefValue

open Cert.ReferenceIdeal Cert.ReferenceIdeal.Gen Cert.ReferenceIdeal.Read Idealize.ShloMosaic Idealize.ShloMosaic.ValueIdx Cert.Attn

/-- The scores times the values, per head, at (0, h, s, d). -/
theorem v27_at (x0 x1 x2 : (⟨S1x2048x1024, .f32⟩ : BufTy).Contents (Elt Ideal)) (x3 : (⟨S1x2048x2048, .i32⟩ : BufTy).Contents (Elt Ideal)) (x4 x5 x6 : (⟨S1024x1024, .f32⟩ : BufTy).Contents (Elt Ideal))
    (h : Fin 16) (s : Fin 2048) (d : Fin 64) :
    val_main_v27 (F := Ideal) x0 x1 x2 x3 x4 x5 x6 (ix4 (0 : Fin 1) h s d)
      = ∑ t : Fin 2048, score (proj x0 x4) (proj x1 x5) (fun s t => x3 (ix3 (0 : Fin 1) s t)) h s t * proj x2 x6 t (col h d) := by
  refine (val_main_v27_apply x0 x1 x2 x3 x4 x5 x6 _).trans ?_
  refine Finset.sum_congr rfl fun k _ => ?_
  have hl : lidx_main_v27 (ix4 (0 : Fin 1) h s d) k = ix4 (0 : Fin 1) h s k := by
    funext a
    match a with
    | ⟨0, _⟩ => rfl
    | ⟨1, _⟩ => rfl
    | ⟨2, _⟩ => rfl
    | ⟨3, _⟩ => rfl
  have hr : ridx_main_v27 (ix4 (0 : Fin 1) h s d) k = ix4 (0 : Fin 1) h k d := by
    funext a
    match a with
    | ⟨0, _⟩ => rfl
    | ⟨1, _⟩ => rfl
    | ⟨2, _⟩ => rfl
    | ⟨3, _⟩ => rfl
  rw [hl, hr, score_at, v8_at]

/-- The same with the head axis moved behind the row axis, at (0, s, h, d). -/
theorem v28_at (x0 x1 x2 : (⟨S1x2048x1024, .f32⟩ : BufTy).Contents (Elt Ideal)) (x3 : (⟨S1x2048x2048, .i32⟩ : BufTy).Contents (Elt Ideal)) (x4 x5 x6 : (⟨S1024x1024, .f32⟩ : BufTy).Contents (Elt Ideal))
    (s : Fin 2048) (h : Fin 16) (d : Fin 64) :
    val_main_v28 (F := Ideal) x0 x1 x2 x3 x4 x5 x6 (ix4 (0 : Fin 1) s h d)
      = ∑ t : Fin 2048, score (proj x0 x4) (proj x1 x5) (fun s t => x3 (ix3 (0 : Fin 1) s t)) h s t * proj x2 x6 t (col h d) := by
  refine (val_main_v28_apply x0 x1 x2 x3 x4 x5 x6 _).trans ?_
  have hi : idx_main_v28 (ix4 (0 : Fin 1) s h d) = ix4 (0 : Fin 1) h s d := by
    funext a
    match a with
    | ⟨0, _⟩ => rfl
    | ⟨1, _⟩ => rfl
    | ⟨2, _⟩ => rfl
    | ⟨3, _⟩ => rfl
  rw [hi]
  exact v27_at x0 x1 x2 x3 x4 x5 x6 h s d

/-- The coordinate of column `e` inside its head. -/
def lane (e : Fin 1024) : Fin 64 := ⟨e.val % 64, Nat.mod_lt _ (by norm_num)⟩

/-- Column `e` is coordinate `e % 64` of head `e / 64`. -/
theorem col_hd_lane (e : Fin 1024) : col (hd e) (lane e) = e := by
  refine Fin.ext ?_
  show 64 * (e.val / 64) + e.val % 64 = e.val
  omega

/-- Flattening (head, coordinate) to one column reads column `e` at head `e / 64`, coordinate `e % 64`. -/
theorem idx_flatten (s : Fin 2048) (e : Fin 1024) :
    idx_main_v29 (ix3 (0 : Fin 1) s e) = ix4 (0 : Fin 1) s (hd e) (lane e) := by
  funext a
  match a with
  | ⟨0, _⟩ => rfl
  | ⟨1, _⟩ =>
    refine Fin.ext ?_
    show ((0 * 2048 + s.val) * 1024 + e.val) / 1024 % 2048 = s.val
    omega
  | ⟨2, _⟩ =>
    refine Fin.ext ?_
    show ((0 * 2048 + s.val) * 1024 + e.val) / 64 % 16 = e.val / 64
    omega
  | ⟨3, _⟩ =>
    refine Fin.ext ?_
    show ((0 * 2048 + s.val) * 1024 + e.val) % 64 = e.val % 64
    omega

/-- THE CONTEXT: the flattened array at (0, s, e) is the specification's context at (s, e). -/
theorem v29_at (x0 x1 x2 : (⟨S1x2048x1024, .f32⟩ : BufTy).Contents (Elt Ideal)) (x3 : (⟨S1x2048x2048, .i32⟩ : BufTy).Contents (Elt Ideal)) (x4 x5 x6 : (⟨S1024x1024, .f32⟩ : BufTy).Contents (Elt Ideal))
    (s : Fin 2048) (e : Fin 1024) :
    val_main_v29 (F := Ideal) x0 x1 x2 x3 x4 x5 x6 (ix3 (0 : Fin 1) s e)
      = ctx (proj x0 x4) (proj x1 x5) (proj x2 x6) (fun s t => x3 (ix3 (0 : Fin 1) s t)) s e := by
  refine (val_main_v29_apply x0 x1 x2 x3 x4 x5 x6 _).trans ?_
  rw [idx_flatten, v28_at, col_hd_lane]
  rfl

/-- THE OUTPUT at (0, s, d): the context of row s against row d of the output weights. -/
theorem out_at (x0 x1 x2 : (⟨S1x2048x1024, .f32⟩ : BufTy).Contents (Elt Ideal)) (x3 : (⟨S1x2048x2048, .i32⟩ : BufTy).Contents (Elt Ideal)) (x4 x5 x6 x7 : (⟨S1024x1024, .f32⟩ : BufTy).Contents (Elt Ideal))
    (s : Fin 2048) (d : Fin 1024) :
    val_main_v30 (F := Ideal) x0 x1 x2 x3 x4 x5 x6 x7 (ix3 (0 : Fin 1) s d)
      = out (proj x0 x4) (proj x1 x5) (proj x2 x6) (fun s t => x3 (ix3 (0 : Fin 1) s t)) x7 s d := by
  refine (val_main_v30_apply x0 x1 x2 x3 x4 x5 x6 x7 _).trans ?_
  refine Finset.sum_congr rfl fun k _ => ?_
  have hl : lidx_main_v30 (ix3 (0 : Fin 1) s d) k = ix3 (0 : Fin 1) s k := by
    funext a
    match a with
    | ⟨0, _⟩ => rfl
    | ⟨1, _⟩ => rfl
    | ⟨2, _⟩ => rfl
  have hr : ridx_main_v30 (ix3 (0 : Fin 1) s d) k = ix2 d k := by
    funext a
    match a with
    | ⟨0, _⟩ => rfl
    | ⟨1, _⟩ => rfl
  rw [hl, hr, v29_at]

/-- The first result of the reference program is the specification's output array. -/
theorem out_eq (x0 x1 x2 : (⟨S1x2048x1024, .f32⟩ : BufTy).Contents (Elt Ideal)) (x3 : (⟨S1x2048x2048, .i32⟩ : BufTy).Contents (Elt Ideal)) (x4 x5 x6 x7 : (⟨S1024x1024, .f32⟩ : BufTy).Contents (Elt Ideal)) :
    val_main_v30 (F := Ideal) x0 x1 x2 x3 x4 x5 x6 x7 = outArr x0 x1 x2 x3 x4 x5 x6 x7 := by
  funext i
  obtain ⟨a, s, d, rfl⟩ : ∃ (a : Fin 1) (s : Fin 2048) (d : Fin 1024), i = ix3 a s d := ⟨i 0, i 1, i 2, eq_ix3 i⟩
  obtain rfl : a = 0 := Subsingleton.elim _ _
  exact out_at x0 x1 x2 x3 x4 x5 x6 x7 s d

end Cert.ReferenceIdeal.RefValue

end
-- ==== Proof.LibTripleSum.lean ====
/-
  Associativity of a triple product of finite families.

  For real families a(k), b(k, j), c(j) over any finite index types,
      ∑ k, a(k) · (∑ j, b(k, j) · c(j)) = ∑ j, (∑ k, a(k) · b(k, j)) · c(j):
  distribute both products over the inner sums, exchange the two sums, reassociate each term. This is the
  entrywise content of (A · B) · C = A · (B · C) for matrices. The coercion of the reals into the extended reals is
  additive and multiplicative, so it commutes with finite sums, and the same identity holds for extended reals that
  are coercions of reals — the form a proof about finite inputs meets. (With an infinite entry the two sides can
  differ, for instance through a product 0 · ∞ present on one side only.)
-/
import Mathlib.Data.EReal.Basic
import Mathlib.Algebra.BigOperators.Ring.Finset
import Mathlib.Algebra.BigOperators.Group.Finset.Sigma

noncomputable section

open scoped BigOperators

namespace Idealize.ShloMosaic.TripleSum

/-- The coercion of the reals into the extended reals commutes with finite sums. -/
theorem coe_finsetSum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Associativity of the triple product over the reals, for arbitrary finite index types. -/
theorem real_sum_assoc {κ ι : Type*} [Fintype κ] [Fintype ι] (a : κ → ℝ) (b : κ → ι → ℝ) (c : ι → ℝ) :
    ∑ k, a k * ∑ j, b k j * c j = ∑ j, (∑ k, a k * b k j) * c j := by
  simp only [Finset.mul_sum, Finset.sum_mul]
  rw [Finset.sum_comm]
  exact Finset.sum_congr rfl fun j _ => Finset.sum_congr rfl fun k _ => (mul_assoc _ _ _).symm

/-- Associativity of the triple product over extended reals that are coercions of reals. -/
theorem ereal_sum_assoc {κ ι : Type*} [Fintype κ] [Fintype ι] (a : κ → ℝ) (b : κ → ι → ℝ) (c : ι → ℝ) :
    ∑ k, (a k : EReal) * ∑ j, (b k j : EReal) * (c j : EReal)
      = ∑ j, (∑ k, (a k : EReal) * (b k j : EReal)) * (c j : EReal) := by
  simp only [← EReal.coe_mul, ← coe_finsetSum]
  exact congrArg _ (real_sum_assoc a b c)

end Idealize.ShloMosaic.TripleSum

end
-- ==== Proof.LibSoftmaxShift.lean ====
/-
  The softmax is invariant under a real shift, and a maximum of reals started from negative infinity is a real.

  For reals x(0), …, x(n−1) and a real M,
      exp (x(i) − M) / ∑ j, exp (x(j) − M) = exp x(i) / ∑ j, exp x(j),
  because exp (x − M) = exp x / exp M and the common factor 1 / exp M cancels between numerator and denominator.  Stated
  for the extended reals that are coercions of these reals, with the division and the exponential of the ideal
  arithmetic: every term is then the coercion of a real, both denominators are positive reals, and the identity is the
  real one.  This is what joins a softmax computed after subtracting the row's maximum to one computed without: the
  maximum, folded from the bottom element over a nonempty finite family of reals, is one of the reals.
-/
import Idealize.ShloMosaic.PureOps.Ideal
import Mathlib.Data.Finset.Fold
import proofs.«147855_j51891794870426_2_alg».proof.Proof.LibTripleSum

noncomputable section

open scoped BigOperators

namespace Idealize.ShloMosaic.SoftmaxShift

open Idealize.ShloMosaic

/-- The real identity: subtracting a common `M` from every exponent does not change the normalised exponential. -/
theorem real_softmax_shift {n : Nat} (x : Fin n → ℝ) (M : ℝ) (i : Fin n) :
    Real.exp (x i - M) * (1 / ∑ j, Real.exp (x j - M)) = Real.exp (x i) * (1 / ∑ j, Real.exp (x j)) := by
  have hpos : 0 < ∑ j, Real.exp (x j) :=
    Finset.sum_pos (fun j _ => Real.exp_pos _) ⟨i, Finset.mem_univ i⟩
  have hM : Real.exp M ≠ 0 := Real.exp_ne_zero M
  have hs : ∑ j, Real.exp (x j - M) = (∑ j, Real.exp (x j)) / Real.exp M := by
    rw [Finset.sum_div]
    exact Finset.sum_congr rfl fun j _ => Real.exp_sub _ _
  rw [hs, Real.exp_sub]
  field_simp

/-- The same identity in the ideal arithmetic, for extended reals that are reals. -/
theorem softmax_shift {n : Nat} (x : Fin n → ℝ) (M : ℝ) (i : Fin n) :
    Ideal.div (Ideal.exp ((x i : EReal) - (M : EReal))) (∑ j, Ideal.exp ((x j : EReal) - (M : EReal)))
      = Ideal.div (Ideal.exp (x i : EReal)) (∑ j, Ideal.exp (x j : EReal)) := by
  have hL : ∀ j, Ideal.exp ((x j : EReal) - (M : EReal)) = ((Real.exp (x j - M) : ℝ) : EReal) := fun j => by
    rw [← EReal.coe_sub]; rfl
  have hR : ∀ j, Ideal.exp (x j : EReal) = ((Real.exp (x j) : ℝ) : EReal) := fun j => rfl
  have hposL : 0 < ∑ j, Real.exp (x j - M) :=
    Finset.sum_pos (fun j _ => Real.exp_pos _) ⟨i, Finset.mem_univ i⟩
  have hposR : 0 < ∑ j, Real.exp (x j) :=
    Finset.sum_pos (fun j _ => Real.exp_pos _) ⟨i, Finset.mem_univ i⟩
  have sL : (∑ j, Ideal.exp ((x j : EReal) - (M : EReal))) = ((∑ j, Real.exp (x j - M) : ℝ) : EReal) := by
    rw [TripleSum.coe_finsetSum]
    exact Finset.sum_congr rfl fun j _ => hL j
  have sR : (∑ j, Ideal.exp (x j : EReal)) = ((∑ j, Real.exp (x j) : ℝ) : EReal) := by
    rw [TripleSum.coe_finsetSum]
    exact Finset.sum_congr rfl fun j _ => hR j
  rw [sL, sR, hL i, hR i, Ideal.div_coe (ne_of_gt hposL), Ideal.div_coe (ne_of_gt hposR), ← EReal.coe_mul, ← EReal.coe_mul]
  exact congrArg _ (real_softmax_shift x M i)

/-- The maximum from −∞ of a nonempty finite family of reals is (the coercion of) a real. -/
theorem fold_max_real {ι : Type*} (x : ι → ℝ) (s : Finset ι) (hs : s.Nonempty) :
    ∃ r : ℝ, s.fold max (⊥ : EReal) (fun k => (x k : EReal)) = (r : EReal) := by
  refine Finset.Nonempty.cons_induction
    (motive := fun s _ => ∃ r : ℝ, s.fold max (⊥ : EReal) (fun k => (x k : EReal)) = (r : EReal)) ?_ ?_ hs
  · intro a
    exact ⟨x a, by rw [Finset.fold_singleton]; exact max_bot_right _⟩
  · intro a s ha _ ih
    obtain ⟨r, hr⟩ := ih
    exact ⟨max (x a) r, by
      rw [Finset.fold_cons, hr]
      exact (EReal.coe_strictMono.monotone.map_max).symm⟩

end Idealize.ShloMosaic.SoftmaxShift

end
-- ==== Proof.RefWeight.lean ====
/-
  The second result of the reference program is the specification's array of attention weights, when every score is a real.

  The reference computes the softmax of a row of scores with a shift: with M the maximum of the row (taken from negative
  infinity, and once more against negative infinity), the weight at t is exp (score t − M) over the sum of exp (score u − M)
  over the row, the sum started from zero.  The specification has no shift.  When every score of the row is a real, M is a
  real, and the shift cancels between numerator and denominator.
-/
import proofs.«147855_j51891794870426_2_alg».proof.Proof.RefScore
import proofs.«147855_j51891794870426_2_alg».proof.Proof.LibSoftmaxShift

noncomputable section

open scoped BigOperators

namespace Cert.ReferenceIdeal.RefValue

open Cert.ReferenceIdeal Cert.ReferenceIdeal.Gen Cert.ReferenceIdeal.Read Idealize.ShloMosaic Idealize.ShloMosaic.ValueIdx Cert.Attn

/-- The reduced index (0, h, s) with the key coordinate `k` put back on the last axis is (0, h, s, k). -/
theorem lift_row (hR : S1x16x2048x2048.Reduces [3] S1x16x2048) (h : Fin 16) (s : Fin 2048)
    (k : Fin (S1x16x2048x2048.size 3)) :
    hR.lift (ix3 (0 : Fin 1) h s) k = ix4 (0 : Fin 1) h s (⟨k.val, k.isLt⟩ : Fin 2048) := by
  funext c; apply Fin.ext
  fin_cases c <;> rfl

/-- A maximum over the last axis, from negative infinity, at (0, h, s): the maximum of the row's entries. -/
theorem rowmax_fold (y : FVec Ideal S1x16x2048x2048 .f32) (h : Fin 16) (s : Fin 2048) :
    Host.reduce FloatOps.maximumf y (constant (F := Ideal) S_ .f32 0xFF800000#32)
        reducesTo_S1x16x2048x2048_S1x16x2048_d3 h_S_ (ix3 (0 : Fin 1) h s)
      = (Finset.univ : Finset (Fin 2048)).fold max (⊥ : EReal) (fun k => y (ix4 (0 : Fin 1) h s k)) := by
  have hR : S1x16x2048x2048.Reduces [3] S1x16x2048 := by decide
  refine (Host.reduce_eq_fold_single FloatOps.maximumf y _ reducesTo_S1x16x2048x2048_S1x16x2048_d3 hR h_S_ _).trans ?_
  have hf : (y ∘ hR.lift (ix3 (0 : Fin 1) h s)) = fun k : Fin 2048 => y (ix4 (0 : Fin 1) h s k) :=
    funext fun k => congrArg y (lift_row hR h s k)
  have hinit : (constant (F := Ideal) S_ .f32 0xFF800000#32) (Shape.Idx.first h_S_) = (⊥ : EReal) := ofBits_neg_inf
  rw [hf, hinit]
  rfl

/-- The row maximum of the reference at (0, h, s): the maximum, from negative infinity, of the row's scores. -/
theorem v16_at (x0 x1 : (⟨S1x2048x1024, .f32⟩ : BufTy).Contents (Elt Ideal)) (x3 : (⟨S1x2048x2048, .i32⟩ : BufTy).Contents (Elt Ideal)) (x4 x5 : (⟨S1024x1024, .f32⟩ : BufTy).Contents (Elt Ideal))
    (h : Fin 16) (s : Fin 2048) :
    val_main_v16 (F := Ideal) x0 x1 x3 x4 x5 (ix3 (0 : Fin 1) h s)
      = (Finset.univ : Finset (Fin 2048)).fold max (⊥ : EReal) (fun k => score (proj x0 x4) (proj x1 x5) (fun s t => x3 (ix3 (0 : Fin 1) s t)) h s k) := by
  unfold val_main_v16 val_main_cst_1
  generalize hy : val_main_v15 (F := Ideal) x0 x1 x3 x4 x5 = y
  refine (rowmax_fold y h s).trans ?_
  refine congrArg (fun f => Finset.fold max (⊥ : EReal) f (Finset.univ : Finset (Fin 2048))) (funext fun k => ?_)
  rw [← hy]
  exact score_at x0 x1 x3 x4 x5 h s k

/-- The maximum once more against negative infinity changes nothing. -/
theorem v18_at (x0 x1 : (⟨S1x2048x1024, .f32⟩ : BufTy).Contents (Elt Ideal)) (x3 : (⟨S1x2048x2048, .i32⟩ : BufTy).Contents (Elt Ideal)) (x4 x5 : (⟨S1024x1024, .f32⟩ : BufTy).Contents (Elt Ideal))
    (h : Fin 16) (s : Fin 2048) :
    val_main_v18 (F := Ideal) x0 x1 x3 x4 x5 (ix3 (0 : Fin 1) h s)
      = (Finset.univ : Finset (Fin 2048)).fold max (⊥ : EReal) (fun k => score (proj x0 x4) (proj x1 x5) (fun s t => x3 (ix3 (0 : Fin 1) s t)) h s k) := by
  refine (val_main_v18_apply x0 x1 x3 x4 x5 _).trans ?_
  rw [val_main_v17_apply, v16_at]
  have hinit : (val_main_cst_2 (F := Ideal)) (idx_main_v17 (ix3 (0 : Fin 1) h s)) = (⊥ : EReal) := ofBits_neg_inf
  rw [hinit]
  exact max_bot_left _

/-- The row maximum broadcast along the key axis. -/
theorem v20_at (x0 x1 : (⟨S1x2048x1024, .f32⟩ : BufTy).Contents (Elt Ideal)) (x3 : (⟨S1x2048x2048, .i32⟩ : BufTy).Contents (Elt Ideal)) (x4 x5 : (⟨S1024x1024, .f32⟩ : BufTy).Contents (Elt Ideal))
    (h : Fin 16) (s t : Fin 2048) :
    val_main_v20 (F := Ideal) x0 x1 x3 x4 x5 (ix4 (0 : Fin 1) h s t)
      = val_main_v18 (F := Ideal) x0 x1 x3 x4 x5 (ix3 (0 : Fin 1) h s) := by
  refine (val_main_v20_apply x0 x1 x3 x4 x5 _).trans ?_
  refine (val_main_v19_apply x0 x1 x3 x4 x5 _).trans ?_
  have hi : idx_main_v19 (idx_main_v20 (ix4 (0 : Fin 1) h s t)) = ix3 (0 : Fin 1) h s := by
    funext a
    match a with
    | ⟨0, _⟩ => rfl
    | ⟨1, _⟩ => rfl
    | ⟨2, _⟩ => rfl
  rw [hi]

/-- The shifted exponential at (0, h, s, t). -/
theorem v22_at (x0 x1 : (⟨S1x2048x1024, .f32⟩ : BufTy).Contents (Elt Ideal)) (x3 : (⟨S1x2048x2048, .i32⟩ : BufTy).Contents (Elt Ideal)) (x4 x5 : (⟨S1024x1024, .f32⟩ : BufTy).Contents (Elt Ideal))
    (h : Fin 16) (s t : Fin 2048) :
    val_main_v22 (F := Ideal) x0 x1 x3 x4 x5 (ix4 (0 : Fin 1) h s t)
      = Ideal.exp (score (proj x0 x4) (proj x1 x5) (fun s t => x3 (ix3 (0 : Fin 1) s t)) h s t
          - (Finset.univ : Finset (Fin 2048)).fold max (⊥ : EReal) (fun k => score (proj x0 x4) (proj x1 x5) (fun s t => x3 (ix3 (0 : Fin 1) s t)) h s k)) := by
  refine (val_main_v22_apply x0 x1 x3 x4 x5 _).trans ?_
  rw [val_main_v21_apply, score_at, v20_at, v18_at]
  rfl

/-- The row sum of the shifted exponentials, broadcast along the key axis. -/
theorem v25_at (x0 x1 : (⟨S1x2048x1024, .f32⟩ : BufTy).Contents (Elt Ideal)) (x3 : (⟨S1x2048x2048, .i32⟩ : BufTy).Contents (Elt Ideal)) (x4 x5 : (⟨S1024x1024, .f32⟩ : BufTy).Contents (Elt Ideal))
    (h : Fin 16) (s t : Fin 2048) :
    val_main_v25 (F := Ideal) x0 x1 x3 x4 x5 (ix4 (0 : Fin 1) h s t)
      = ∑ k : Fin 2048, val_main_v22 (F := Ideal) x0 x1 x3 x4 x5 (ix4 (0 : Fin 1) h s k) := by
  refine (val_main_v25_apply x0 x1 x3 x4 x5 _).trans ?_
  refine (val_main_v24_apply x0 x1 x3 x4 x5 _).trans ?_
  have hi : idx_main_v24 (idx_main_v25 (ix4 (0 : Fin 1) h s t)) = ix3 (0 : Fin 1) h s := by
    funext a
    match a with
    | ⟨0, _⟩ => rfl
    | ⟨1, _⟩ => rfl
    | ⟨2, _⟩ => rfl
  rw [hi, val_main_v23_apply]
  have hinit : (val_main_cst_3 (F := Ideal)) (Shape.Idx.first h_S_) = (0 : EReal) := ofBits_zero
  rw [hinit, zero_add]
  refine Finset.sum_congr rfl fun k _ => ?_
  have hk : idx_main_v23 (ix3 (0 : Fin 1) h s) k = ix4 (0 : Fin 1) h s k := by
    funext a
    match a with
    | ⟨0, _⟩ => rfl
    | ⟨1, _⟩ => rfl
    | ⟨2, _⟩ => rfl
    | ⟨3, _⟩ => rfl
  rw [hk]

/-- THE WEIGHTS at (0, h, s, t), when every score of the row is a real. -/
theorem weight_at (x0 x1 : (⟨S1x2048x1024, .f32⟩ : BufTy).Contents (Elt Ideal)) (x3 : (⟨S1x2048x2048, .i32⟩ : BufTy).Contents (Elt Ideal)) (x4 x5 : (⟨S1024x1024, .f32⟩ : BufTy).Contents (Elt Ideal))
    (h : Fin 16) (s : Fin 2048)
    (hreal : ∀ t : Fin 2048, ∃ r : ℝ, score (proj x0 x4) (proj x1 x5) (fun s t => x3 (ix3 (0 : Fin 1) s t)) h s t = (r : EReal))
    (t : Fin 2048) :
    val_main_v26 (F := Ideal) x0 x1 x3 x4 x5 (ix4 (0 : Fin 1) h s t)
      = weight (proj x0 x4) (proj x1 x5) (fun s t => x3 (ix3 (0 : Fin 1) s t)) h s t := by
  choose x hx using hreal
  obtain ⟨M, hM⟩ := SoftmaxShift.fold_max_real x (Finset.univ : Finset (Fin 2048)) ⟨t, Finset.mem_univ t⟩
  have hfold : (Finset.univ : Finset (Fin 2048)).fold max (⊥ : EReal) (fun k => score (proj x0 x4) (proj x1 x5) (fun s t => x3 (ix3 (0 : Fin 1) s t)) h s k) = (M : EReal) := by
    rw [← hM]
    exact congrArg (fun f => Finset.fold max (⊥ : EReal) f (Finset.univ : Finset (Fin 2048))) (funext hx)
  refine (val_main_v26_apply x0 x1 x3 x4 x5 _).trans ?_
  rw [v25_at]
  simp only [v22_at, hfold]
  unfold weight
  simp only [hx]
  exact SoftmaxShift.softmax_shift x M t

/-- The second result of the reference program is the specification's weight array, when every score is a real. -/
theorem weight_eq (x0 x1 : (⟨S1x2048x1024, .f32⟩ : BufTy).Contents (Elt Ideal)) (x3 : (⟨S1x2048x2048, .i32⟩ : BufTy).Contents (Elt Ideal)) (x4 x5 : (⟨S1024x1024, .f32⟩ : BufTy).Contents (Elt Ideal))
    (hreal : ∀ (h : Fin 16) (s t : Fin 2048), ∃ r : ℝ,
      Cert.Attn.score (Cert.Attn.proj x0 x4) (Cert.Attn.proj x1 x5) (fun s t => x3 (ix3 (0 : Fin 1) s t)) h s t = (r : EReal)) :
    val_main_v26 (F := Ideal) x0 x1 x3 x4 x5 = weightArr x0 x1 x3 x4 x5 := by
  funext i
  obtain ⟨a, h, s, t, rfl⟩ : ∃ (a : Fin 1) (h : Fin 16) (s t : Fin 2048), i = ix4 a h s t :=
    ⟨i 0, i 1, i 2, i 3, eq_ix4 i⟩
  obtain rfl : a = 0 := Subsingleton.elim _ _
  exact weight_at x0 x1 x3 x4 x5 h s (hreal h s) t

end Cert.ReferenceIdeal.RefValue

end
-- ==== Proof.Finite.lean ====
/-
  Finiteness of the inputs, read out of the precondition.

  The precondition is a conjunction, one conjunct per float argument: every entry x of the argument has |x| below the
  float word +∞, where |x| is max x (−x) on the extended reals.  An extended real with max x (−x) < ⊤ is neither ⊤ nor ⊥,
  so it is a real number.  Read for the two arguments and the two weights the attention scores depend on.
-/
import proofs.«147855_j51891794870426_2_alg».proof.Pre_finite_inputs
import Idealize.ShloMosaic.Lib.ReduceAll
import Idealize.ShloMosaic.Lib.ValueIdx
import Idealize.ShloMosaic.PureOps.Ideal

set_option maxRecDepth 16384

noncomputable section

namespace Cert.Finite

open Idealize.ShloMosaic Cert.Pre_finite_inputs

instance : Subsingleton S_.Idx := ⟨fun a b => funext fun d => d.elim0⟩

/-- The float word of +∞ denotes ⊤. -/
theorem ofBits_inf : Ideal.ofBits .f32 0x7F800000#32 = (⊤ : EReal) := by
  simp [Ideal.ofBits, Ideal.ieee]

/-- An extended real whose absolute value is below +∞ is a real number. -/
theorem real_of_abs_lt (x : EReal) (h : Ideal.cmp .olt (max x (-x)) (Ideal.ofBits .f32 0x7F800000#32) = 1#1) :
    ∃ r : ℝ, x = (r : EReal) := by
  rw [ofBits_inf] at h
  induction x using EReal.rec with
  | bot => exact absurd h (by simp [Ideal.cmp])
  | coe r => exact ⟨r, rfl⟩
  | top => exact absurd h (by simp [Ideal.cmp])

variable [Cert.Pre_finite_inputs.Facts]

/-- Under the precondition the queries, the keys and their two weights hold real numbers. -/
theorem real_of_pre (a0 a1 a2 : FVec Ideal S1x2048x1024 .f32) (a3 : IVec S1x2048x2048 32) (a4 a5 a6 a7 : FVec Ideal S1024x1024 .f32)
    (h : Cert.Pre_finite_inputs.fn (F := Ideal) a0 a1 a2 a3 a4 a5 a6 a7 = fun _ => 1#1) :
    (∀ i, ∃ r : ℝ, a0 i = (r : EReal)) ∧ (∀ i, ∃ r : ℝ, a1 i = (r : EReal))
      ∧ (∀ i, ∃ r : ℝ, a4 i = (r : EReal)) ∧ (∀ i, ∃ r : ℝ, a5 i = (r : EReal)) := by
  have h0 := congrFun h ValueIdx.ix0
  dsimp only [Cert.Pre_finite_inputs.fn, Cert.Pre_finite_inputs.fn_part1] at h0
  obtain ⟨h0, -⟩ := IntOp.andi_eq_one.1 h0
  obtain ⟨h0, -⟩ := IntOp.andi_eq_one.1 h0
  obtain ⟨h0, e5⟩ := IntOp.andi_eq_one.1 h0
  obtain ⟨h0, e4⟩ := IntOp.andi_eq_one.1 h0
  obtain ⟨h0, -⟩ := IntOp.andi_eq_one.1 h0
  obtain ⟨e0, e1⟩ := IntOp.andi_eq_one.1 h0
  exact ⟨fun i => real_of_abs_lt _ (Host.reduce_andi_all _ _ _ _ _ e0 i),
    fun i => real_of_abs_lt _ (Host.reduce_andi_all _ _ _ _ _ e1 i),
    fun i => real_of_abs_lt _ (Host.reduce_andi_all _ _ _ _ _ e4 i),
    fun i => real_of_abs_lt _ (Host.reduce_andi_all _ _ _ _ _ e5 i)⟩

end Cert.Finite

end
-- ==== Proof.ScoreReal.lean ====
/-
  The scores are real numbers when the inputs are.

  A projection of real entries is a finite sum of products of reals, hence real; an inner product of two real rows times
  the real scale is real; the fill value is the value of a finite float word; so every masked, scaled score is a real.
-/
import proofs.«147855_j51891794870426_2_alg».proof.Proof.Spec
import proofs.«147855_j51891794870426_2_alg».proof.Proof.LibTripleSum

noncomputable section

open scoped BigOperators

namespace Cert.Attn

open Idealize.ShloMosaic Idealize.ShloMosaic.ValueIdx

/-- A finite sum of reals, as an extended real, is a real. -/
theorem sum_real {ι : Type*} [Fintype ι] (f : ι → EReal) (h : ∀ i, ∃ r : ℝ, f i = (r : EReal)) : ∃ r : ℝ, ∑ i, f i = (r : EReal) := by
  choose g hg using h
  exact ⟨∑ i, g i, by rw [TripleSum.coe_finsetSum]; exact Finset.sum_congr rfl fun i _ => hg i⟩

/-- A product of two reals is a real. -/
theorem mul_real {x y : EReal} (hx : ∃ r : ℝ, x = (r : EReal)) (hy : ∃ r : ℝ, y = (r : EReal)) : ∃ r : ℝ, x * y = (r : EReal) := by
  obtain ⟨a, rfl⟩ := hx
  obtain ⟨b, rfl⟩ := hy
  exact ⟨a * b, (EReal.coe_mul a b).symm⟩

/-- The two float words of the specification denote reals. -/
theorem fill_real : ∃ r : ℝ, fill = (r : EReal) :=
  ⟨fill.toReal, (EReal.coe_toReal (by simp [fill, Ideal.ofBits, Ideal.ieee, -EReal.coe_mul]) (by simp [fill, Ideal.ofBits, Ideal.ieee, -EReal.coe_mul])).symm⟩
theorem scale_real : ∃ r : ℝ, scale = (r : EReal) :=
  ⟨scale.toReal, (EReal.coe_toReal (by simp [scale, Ideal.ofBits, Ideal.ieee, -EReal.coe_mul]) (by simp [scale, Ideal.ofBits, Ideal.ieee, -EReal.coe_mul])).symm⟩

/-- A projection of real entries is real. -/
theorem proj_real (x : SX.Idx → EReal) (w : SW.Idx → EReal) (hx : ∀ i, ∃ r : ℝ, x i = (r : EReal)) (hw : ∀ i, ∃ r : ℝ, w i = (r : EReal))
    (s : Fin 2048) (d : Fin 1024) : ∃ r : ℝ, proj x w s d = (r : EReal) :=
  sum_real _ fun e => mul_real (hx _) (hw _)

/-- A score of real projections is real. -/
theorem score_real (q k : Fin 2048 → Fin 1024 → EReal) (msk : Fin 2048 → Fin 2048 → BitVec 32)
    (hq : ∀ s d, ∃ r : ℝ, q s d = (r : EReal)) (hk : ∀ s d, ∃ r : ℝ, k s d = (r : EReal)) (h : Fin 16) (s t : Fin 2048) :
    ∃ r : ℝ, score q k msk h s t = (r : EReal) := by
  unfold score Scalar.select
  split
  · exact fill_real
  · exact mul_real (sum_real _ fun d => mul_real (hq _ _) (hk _ _)) scale_real

end Cert.Attn

end
-- ==== Proof.Claims.lean ====
/-
  The claims of the certificate, from the two programs' values.

  The idealized kernel's run ends with its two results at the specification's output and attention weights of the eight
  arguments: the walk through its regions, given what each region leaves in its output arrays.  The reference's run ends
  with its results at the composed term of its operations, which is the specification's output outright, and the
  specification's weights once every score is a real number — which the precondition gives: the softmax the reference
  computes after subtracting the row's maximum is the plain quotient of exponentials only on reals.  The arguments agree,
  so the results are equal.  The frames are the generated ones, the reference's being its run with the results dropped;
  the idealization rewrote nothing.
-/
import proofs.«147855_j51891794870426_2_alg».proof.Defs
import proofs.«147855_j51891794870426_2_alg».proof.Proof.Gen.Kernel.Frame
import proofs.«147855_j51891794870426_2_alg».proof.Proof.Gen.KernelIdeal.Frame
import proofs.«147855_j51891794870426_2_alg».proof.Proof.Gen.ReferenceIdeal.Run
import proofs.«147855_j51891794870426_2_alg».proof.Proof.Gen.ReferenceIdeal.Read
import proofs.«147855_j51891794870426_2_alg».proof.Proof.Gen.Pre_finite_inputs
import proofs.«147855_j51891794870426_2_alg».proof.Proof.KRun
import proofs.«147855_j51891794870426_2_alg».proof.Proof.KOut
import proofs.«147855_j51891794870426_2_alg».proof.Proof.Lin0
import proofs.«147855_j51891794870426_2_alg».proof.Proof.Lin1
import proofs.«147855_j51891794870426_2_alg».proof.Proof.Lin2
import proofs.«147855_j51891794870426_2_alg».proof.Proof.Lin4
import proofs.«147855_j51891794870426_2_alg».proof.Proof.RefOut
import proofs.«147855_j51891794870426_2_alg».proof.Proof.RefWeight
import proofs.«147855_j51891794870426_2_alg».proof.Proof.Finite
import proofs.«147855_j51891794870426_2_alg».proof.Proof.ScoreReal

set_option maxRecDepth 16384

noncomputable section

namespace Cert.Proof.Claims

open Idealize.ShloMosaic Idealize.ShloMosaic.TcCoe Idealize.SL.Sem Idealize.ShloMosaic.ValueIdx

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the specification's output and attention weights of the arguments they agree on. -/
theorem algebraic_of
    (hA4 : ∀ (V : Cert.KernelIdeal.KWalk.VT) (c : Dev Cert.KernelIdeal.nD), (Cert.KernelIdeal.Gen.dat3 (F := Ideal) V c).arrAt 4 Cert.KernelIdeal.cfg3.N = fun i => Cert.Attn.weight
        (fun s d => V c Cert.KernelIdeal.main_v4 (ix2 s d)) (fun t d => V c Cert.KernelIdeal.main_v5 (ix2 t d)) (fun s t => V c Cert.KernelIdeal.main_v3 (ix2 s t)) (i 0) (i 1) (i 2))
    (hA5 : ∀ (V : Cert.KernelIdeal.KWalk.VT) (c : Dev Cert.KernelIdeal.nD), (Cert.KernelIdeal.Gen.dat3 (F := Ideal) V c).arrAt 5 Cert.KernelIdeal.cfg3.N = fun i => Cert.Attn.ctx
        (fun s d => V c Cert.KernelIdeal.main_v4 (ix2 s d)) (fun t d => V c Cert.KernelIdeal.main_v5 (ix2 t d)) (fun t e => V c Cert.KernelIdeal.main_v6 (ix2 t e)) (fun s t => V c Cert.KernelIdeal.main_v3 (ix2 s t)) (i 0) (i 1)) :
    Cert.algebraic_KernelIdeal_ReferenceIdeal := by
  intro m ρ m' ρ' hpre hagree
  refine ⟨_, _, Cert.KernelIdeal.KRun.run_values (F := Ideal) m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · rw [Cert.ReferenceIdeal.Read.val_main_v30_eq, Cert.ReferenceIdeal.RefValue.out_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2]
    exact (Cert.KernelIdeal.KOut.out_value m ρ Cert.KernelIdeal.Lin0.final Cert.KernelIdeal.Lin1.final Cert.KernelIdeal.Lin2.final
      Cert.KernelIdeal.Lin4.final hA5 c).symm
  · obtain ⟨r0, r1, r4, r5⟩ := Cert.Finite.real_of_pre _ _ _ _ _ _ _ _ (hpre c)
    rw [Cert.ReferenceIdeal.Read.val_main_v26_eq,
      (hagree c).1, (hagree c).2.1, (hagree c).2.2.2.1, (hagree c).2.2.2.2.1, (hagree c).2.2.2.2.2.1,
      Cert.ReferenceIdeal.RefValue.weight_eq _ _ _ _ _ (fun h s t => Cert.Attn.score_real _ _ _
        (fun s d => Cert.Attn.proj_real _ _ r0 r4 s d) (fun s d => Cert.Attn.proj_real _ _ r1 r5 s d) h s t)]
    exact (Cert.KernelIdeal.KOut.weight_value m ρ Cert.KernelIdeal.Lin0.final Cert.KernelIdeal.Lin1.final hA4 c).symm

end Cert.Proof.Claims

end
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.LibRowSum.lean ====
/-
  A sum along the rows of a matrix, read at an index on the extended reals: a lane reduction of an [n, k] matrix
  over its columns, into the zero accumulator, is at row r the sum over the k columns of the row's entries.
-/
import Idealize.ShloMosaic.PureOps.Ideal.Laws
import Idealize.ShloMosaic.Lib.ValueIdx

namespace Idealize.ShloMosaic.ValueIdx

open Idealize.ShloMosaic

/-- The reduced index `r` with the column `d` put back is the matrix index `(r, d)`. -/
theorem lift_rows {n k : ℕ} (h : (⟨2, ![n, k]⟩ : Shape).Reduces [1] ⟨1, ![n]⟩) (r : Fin n) (d : Fin k) :
    h.lift (ix1 r) d = ix2 r d :=
  funext fun a => Fin.ext (by match a with | ⟨0, _⟩ => rfl | ⟨1, _⟩ => rfl)

/-- A float lane sum over the columns of an `[n, k]` matrix, at row `r`, is the sum of the row's `k` entries. -/
theorem multiReduction_add_rows_apply {n k : ℕ} (src : FVec Ideal ⟨2, ![n, k]⟩ .f32)
    (h : (⟨2, ![n, k]⟩ : Shape).Reduces [1] ⟨1, ![n]⟩) (hφ : FKind.Formats .f32)
    (hacc : (0x00000000#32 : BitVec 32) = FKind.add.neutral .f32 hφ) (r : Fin n) :
    multiReduction .add [1] ⟨1, ![n]⟩ src 0x00000000#32 h hφ hacc (ix1 r) = ∑ d : Fin k, src (ix2 r d) :=
  (Ideal.multiReduction_add_single src 0x00000000#32 h hφ hacc (ix1 r)).trans
    (Finset.sum_congr rfl fun d _ => congrArg src (lift_rows h r d))

end Idealize.ShloMosaic.ValueIdx
-- ==== Proof.LibColumn.lean ====
/-
  A column kept as a unit trailing axis (what `jnp.sum(…, keepdims=True)` over the last axis produces), read at an
  index: a vector of length a viewed as an [a, 1] column, and an [a, 1] column broadcast along the rows of an
  [a, b] matrix. (The library has the leading-unit-axis forms and the row broadcast [1, b] → [a, b]; these are the
  trailing-unit-axis counterparts, for any extents.)
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibJoinCols.lean ====
/-
  Matrices joined along their columns, read at an entry.

  When two or three matrices with the same number of rows are laid side by side, the entry (e, q) of the result is
  the entry of the piece whose column range holds q: for widths w1, w2, w3 the first piece at column q when
  q < w1, the second at q − w1 when w1 ≤ q < w1 + w2, the third at q − w1 − w2 beyond. The result's width is
  kept as a number W of its own, so that a printed shape whose width is written as one literal is met directly.
-/
import Idealize.ShloMosaic.Lib.ValueIdx
import Idealize.ShloMosaic.Lib.Pipeline.Value

noncomputable section

namespace Idealize.ShloMosaic.JoinCols

open Idealize.ShloMosaic Idealize.ShloMosaic.ValueIdx

variable {α : Type}

/-- Two matrices side by side, at a column of the first. -/
theorem pair_left {n w1 w2 W : ℕ} (A : (⟨2, ![n, w1]⟩ : Shape).Idx → α) (B : (⟨2, ![n, w2]⟩ : Shape).Idx → α)
    (h : Shape.Concatenates [(⟨2, ![n, w1]⟩ : Shape), (⟨2, ![n, w2]⟩ : Shape)] (⟨2, ![n, W]⟩ : Shape) 1)
    (e : Fin n) (a : Fin w1) (q : Fin W) (hq : q.val = a.val) :
    concatenate (⟨2, ![n, W]⟩ : Shape) 1 [⟨(⟨2, ![n, w1]⟩ : Shape), A⟩, ⟨(⟨2, ![n, w2]⟩ : Shape), B⟩] h (ix2 e q) = A (ix2 e a) :=
  concatenate_pair_apply_left 1 A B h (ix2 e q) rfl (ix2 e a)
    (fun b => match b with | ⟨0, _⟩ => rfl | ⟨1, _⟩ => hq.symm)

/-- Two matrices side by side, at a column of the second. -/
theorem pair_right {n w1 w2 W : ℕ} (A : (⟨2, ![n, w1]⟩ : Shape).Idx → α) (B : (⟨2, ![n, w2]⟩ : Shape).Idx → α)
    (h : Shape.Concatenates [(⟨2, ![n, w1]⟩ : Shape), (⟨2, ![n, w2]⟩ : Shape)] (⟨2, ![n, W]⟩ : Shape) 1)
    (e : Fin n) (a : Fin w2) (q : Fin W) (hq : q.val = w1 + a.val) :
    concatenate (⟨2, ![n, W]⟩ : Shape) 1 [⟨(⟨2, ![n, w1]⟩ : Shape), A⟩, ⟨(⟨2, ![n, w2]⟩ : Shape), B⟩] h (ix2 e q) = B (ix2 e a) :=
  concatenate_pair_apply_right 1 A B h (ix2 e q) rfl rfl (ix2 e a)
    (fun b hb => match b with | ⟨0, _⟩ => rfl | ⟨1, _⟩ => absurd rfl hb)
    (by show a.val + w1 = q.val; omega)

/-- Three matrices side by side, at a column of the first. -/
theorem triple_left {n w1 w2 w3 W : ℕ} (A : (⟨2, ![n, w1]⟩ : Shape).Idx → α) (B : (⟨2, ![n, w2]⟩ : Shape).Idx → α)
    (C : (⟨2, ![n, w3]⟩ : Shape).Idx → α)
    (h : Shape.Concatenates [(⟨2, ![n, w1]⟩ : Shape), (⟨2, ![n, w2]⟩ : Shape), (⟨2, ![n, w3]⟩ : Shape)] (⟨2, ![n, W]⟩ : Shape) 1)
    (e : Fin n) (a : Fin w1) (q : Fin W) (hq : q.val = a.val) :
    concatenate (⟨2, ![n, W]⟩ : Shape) 1
      [⟨(⟨2, ![n, w1]⟩ : Shape), A⟩, ⟨(⟨2, ![n, w2]⟩ : Shape), B⟩, ⟨(⟨2, ![n, w3]⟩ : Shape), C⟩] h (ix2 e q) = A (ix2 e a) :=
  concatenate_apply_piece 1 [⟨(⟨2, ![n, w1]⟩ : Shape), A⟩, ⟨(⟨2, ![n, w2]⟩ : Shape), B⟩, ⟨(⟨2, ![n, w3]⟩ : Shape), C⟩] h (ix2 e q) 0 (by simp) _ A rfl rfl 0 rfl (ix2 e a)
    (fun b hb => match b with | ⟨0, _⟩ => rfl | ⟨1, _⟩ => absurd rfl hb)
    (by show 0 + a.val = q.val; omega)

/-- Three matrices side by side, at a column of the second. -/
theorem triple_mid {n w1 w2 w3 W : ℕ} (A : (⟨2, ![n, w1]⟩ : Shape).Idx → α) (B : (⟨2, ![n, w2]⟩ : Shape).Idx → α)
    (C : (⟨2, ![n, w3]⟩ : Shape).Idx → α)
    (h : Shape.Concatenates [(⟨2, ![n, w1]⟩ : Shape), (⟨2, ![n, w2]⟩ : Shape), (⟨2, ![n, w3]⟩ : Shape)] (⟨2, ![n, W]⟩ : Shape) 1)
    (e : Fin n) (a : Fin w2) (q : Fin W) (hq : q.val = w1 + a.val) :
    concatenate (⟨2, ![n, W]⟩ : Shape) 1
      [⟨(⟨2, ![n, w1]⟩ : Shape), A⟩, ⟨(⟨2, ![n, w2]⟩ : Shape), B⟩, ⟨(⟨2, ![n, w3]⟩ : Shape), C⟩] h (ix2 e q) = B (ix2 e a) :=
  concatenate_apply_piece 1 [⟨(⟨2, ![n, w1]⟩ : Shape), A⟩, ⟨(⟨2, ![n, w2]⟩ : Shape), B⟩, ⟨(⟨2, ![n, w3]⟩ : Shape), C⟩] h (ix2 e q) 1 (by simp) _ B rfl rfl w1 (by simp) (ix2 e a)
    (fun b hb => match b with | ⟨0, _⟩ => rfl | ⟨1, _⟩ => absurd rfl hb)
    (by show w1 + a.val = q.val; omega)

/-- Three matrices side by side, at a column of the third. -/
theorem triple_right {n w1 w2 w3 W : ℕ} (A : (⟨2, ![n, w1]⟩ : Shape).Idx → α) (B : (⟨2, ![n, w2]⟩ : Shape).Idx → α)
    (C : (⟨2, ![n, w3]⟩ : Shape).Idx → α)
    (h : Shape.Concatenates [(⟨2, ![n, w1]⟩ : Shape), (⟨2, ![n, w2]⟩ : Shape), (⟨2, ![n, w3]⟩ : Shape)] (⟨2, ![n, W]⟩ : Shape) 1)
    (e : Fin n) (a : Fin w3) (q : Fin W) (hq : q.val = w1 + w2 + a.val) :
    concatenate (⟨2, ![n, W]⟩ : Shape) 1
      [⟨(⟨2, ![n, w1]⟩ : Shape), A⟩, ⟨(⟨2, ![n, w2]⟩ : Shape), B⟩, ⟨(⟨2, ![n, w3]⟩ : Shape), C⟩] h (ix2 e q) = C (ix2 e a) :=
  concatenate_apply_piece 1 [⟨(⟨2, ![n, w1]⟩ : Shape), A⟩, ⟨(⟨2, ![n, w2]⟩ : Shape), B⟩, ⟨(⟨2, ![n, w3]⟩ : Shape), C⟩] h (ix2 e q) 2 (by simp) _ C rfl rfl (w1 + w2) (by simp) (ix2 e a)
    (fun b hb => match b with | ⟨0, _⟩ => rfl | ⟨1, _⟩ => absurd rfl hb)
    (by show w1 + w2 + a.val = q.val; omega)

end Idealize.ShloMosaic.JoinCols

end
-- ==== Proof.AttPay.lean ====
/-
  The attention kernel's payloads read at an index, on the extended reals.

  The kernel works on a block of 256 query rows and a pair of heads, that is a block of 128 columns of the projected
  queries, keys and values: the first head of the pair owns the block's columns 0 … 63, the second 64 … 127. Over
  variables x0 (the query block, [256,128]), x1 and x2 (the key and value blocks, [2048,128]) and x3 (the mask block,
  [256,2048]):

  * the masked, scaled score of either head at (p, t) is the fill constant where the mask is non-zero and otherwise
    the inner product over the head's 64 columns of row p of x0 with row t of x1, times 1/8 (`sc0`, `sc1`;
    `pay8_apply`, `pay1_apply`);
  * the stored attention weights are the exponential of a score over the sum of the exponentials of its row
    (`pay9_apply`, `pay2_apply`);
  * the stored context at (p, c) is the sum over the 2048 key rows of the score of the head owning column c times
    column c of x2 (`pay3_lo`, `pay3_hi`, `pay3_apply`).

  Roundings to bf16 are the identity on the extended reals; a matrix product into the zero accumulator is the plain sum
  over the contracted axis.
-/
import proofs.«147855_j51891794870426_2_alg».proof.Proof.Gen.KernelIdeal.Skeleton
import proofs.«147855_j51891794870426_2_alg».proof.Proof.Spec
import proofs.«147855_j51891794870426_2_alg».proof.Proof.LibGram
import proofs.«147855_j51891794870426_2_alg».proof.Proof.LibContract
import proofs.«147855_j51891794870426_2_alg».proof.Proof.LibRowSum
import proofs.«147855_j51891794870426_2_alg».proof.Proof.LibColumn
import proofs.«147855_j51891794870426_2_alg».proof.Proof.LibJoinCols
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Att

open Cert.KernelIdeal Cert.KernelIdeal.Gen Idealize.ShloMosaic Idealize.ShloMosaic.TcCoe Idealize.SL.Sem Idealize.ShloMosaic.ValueIdx

/-- The left operand of the x · yᵀ product is read at the result's row. -/
theorem gram_l0 (j : S256x2048.Idx) (q : dot_S256x64_S2048x64_S256x2048_1_1_0_0_n_n.contr.Idx) :
    (dot_S256x64_S2048x64_S256x2048_1_1_0_0_n_n.lhsIdx j q 0).val = (j 0).val := by
  unfold DotDims.lhsIdx
  rw [dif_neg (show ¬(0 : Fin S256x64.rank) ∈ dot_S256x64_S2048x64_S256x2048_1_1_0_0_n_n.lhsBatch by decide), dif_pos (show (0 : Fin S256x64.rank) ∈ dot_S256x64_S2048x64_S256x2048_1_1_0_0_n_n.lhsNonContracting by decide)]
  rfl

/-- The right operand of the x · yᵀ product is read at the result's column. -/
theorem gram_r0 (j : S256x2048.Idx) (q : dot_S256x64_S2048x64_S256x2048_1_1_0_0_n_n.contr.Idx) :
    (dot_S256x64_S2048x64_S256x2048_1_1_0_0_n_n.rhsIdx j q 0).val = (j 1).val := by
  unfold DotDims.rhsIdx
  rw [dif_neg (show ¬(0 : Fin S2048x64.rank) ∈ dot_S256x64_S2048x64_S256x2048_1_1_0_0_n_n.rhsBatch by decide), dif_pos (show (0 : Fin S2048x64.rank) ∈ dot_S256x64_S2048x64_S256x2048_1_1_0_0_n_n.rhsNonContracting by decide)]
  rfl

/-- A [256,64] · [2048,64]ᵀ product into the zero accumulator at (p, t): the sum over the 64 shared columns. -/
theorem gram_apply (l : FVec Ideal S256x64 .bf16) (r : FVec Ideal S2048x64 .bf16) (p : Fin 256) (t : Fin 2048) :
    matmul dot_S256x64_S2048x64_S256x2048_1_1_0_0_n_n none l r (constant (F := Ideal) S256x2048 .f32 0x00000000#32) (ix2 p t)
      = ∑ k : Fin 64, l (ix2 p k) * r (ix2 t k) := by
  simp only [matmul]
  rw [Ideal.matmul_constant_zero_apply]
  exact Gram.sum_contr_last dot_S256x64_S2048x64_S256x2048_1_1_0_0_n_n rfl rfl rfl rfl gram_l0 gram_r0 l r (ix2 p t)

/-- Column `d` of the first head of a pair, and of the second, inside a block of 128 columns. -/
abbrev lo (d : Fin 64) : Fin 128 := ⟨d.val, by omega⟩
abbrev hi (d : Fin 64) : Fin 128 := ⟨64 + d.val, by omega⟩

/-- An integer comparison of two arrays is elementwise. -/
theorem cmpi_apply' {s : Shape} {w : Nat} (pr : CmpIPredicate) (x y : IVec s w) (i : s.Idx) :
    cmpi pr x y i = IntOp.cmpi pr (x i) (y i) := rfl

/-- The exponential of an array is elementwise. -/
theorem exp_apply' {s : Shape} {φ : FTy} (x : FVec Ideal s φ) (i : s.Idx) : exp x i = Ideal.exp (x i) := rfl

/-- The four column slices: columns 0 … 63 or 64 … 127 of a query block or of a key / value block. -/
theorem sliceQ_lo (x : FVec Ideal S256x128 .f32) (p : Fin 256) (d : Fin 64) :
    extractStridedSlice S256x64 ![0, 0] x slices_S256x128_o0_0_S256x64 (ix2 p d) = x (ix2 p (lo d)) :=
  extractStridedSlice_apply _ x _ (ix2 p d) (ix2 p (lo d)) fun a => by
    match a with
    | ⟨0, _⟩ => exact (Nat.zero_add _).symm
    | ⟨1, _⟩ => exact (Nat.zero_add _).symm

theorem sliceQ_hi (x : FVec Ideal S256x128 .f32) (p : Fin 256) (d : Fin 64) :
    extractStridedSlice S256x64 ![0, 64] x slices_S256x128_o0_64_S256x64 (ix2 p d) = x (ix2 p (hi d)) :=
  extractStridedSlice_apply _ x _ (ix2 p d) (ix2 p (hi d)) fun a => by
    match a with
    | ⟨0, _⟩ => exact (Nat.zero_add _).symm
    | ⟨1, _⟩ => rfl

theorem sliceK_lo (x : FVec Ideal S2048x128 .f32) (t : Fin 2048) (d : Fin 64) :
    extractStridedSlice S2048x64 ![0, 0] x slices_S2048x128_o0_0_S2048x64 (ix2 t d) = x (ix2 t (lo d)) :=
  extractStridedSlice_apply _ x _ (ix2 t d) (ix2 t (lo d)) fun a => by
    match a with
    | ⟨0, _⟩ => exact (Nat.zero_add _).symm
    | ⟨1, _⟩ => exact (Nat.zero_add _).symm

theorem sliceK_hi (x : FVec Ideal S2048x128 .f32) (t : Fin 2048) (d : Fin 64) :
    extractStridedSlice S2048x64 ![0, 64] x slices_S2048x128_o0_64_S2048x64 (ix2 t d) = x (ix2 t (hi d)) :=
  extractStridedSlice_apply _ x _ (ix2 t d) (ix2 t (hi d)) fun a => by
    match a with
    | ⟨0, _⟩ => exact (Nat.zero_add _).symm
    | ⟨1, _⟩ => rfl

/-- The masked, scaled score of the first head of the pair at query row `p` of the block and key row `t`. -/
def sc0 (x0 : Vec Ideal S256x128 .f32) (x1 : Vec Ideal S2048x128 .f32) (x3 : Vec Ideal S256x2048 .i32) (p : Fin 256) (t : Fin 2048) : EReal :=
  Scalar.select (IntOp.cmpi .ne (x3 (ix2 p t)) 0#32) Cert.Attn.fill
    ((∑ d : Fin 64, x0 (ix2 p (lo d)) * x1 (ix2 t (lo d))) * Cert.Attn.scale)

/-- The same for the second head of the pair. -/
def sc1 (x0 : Vec Ideal S256x128 .f32) (x1 : Vec Ideal S2048x128 .f32) (x3 : Vec Ideal S256x2048 .i32) (p : Fin 256) (t : Fin 2048) : EReal :=
  Scalar.select (IntOp.cmpi .ne (x3 (ix2 p t)) 0#32) Cert.Attn.fill
    ((∑ d : Fin 64, x0 (ix2 p (hi d)) * x1 (ix2 t (hi d))) * Cert.Attn.scale)

/-- The first head's masked score payload at (p, t). -/
theorem pay8_apply (x0 : Vec Ideal S256x128 .f32) (x1 : Vec Ideal S2048x128 .f32) (x3 : Vec Ideal S256x2048 .i32) (p : Fin 256) (t : Fin 2048) :
    Gen.k3_pay8 (F := Ideal) x0 x1 x3 (ix2 p t) = sc0 x0 x1 x3 p t := by
  unfold Gen.k3_pay8 Gen.k3_pay7 Gen.k3_pay4 Gen.k3_pay5 sc0
  simp only [shapeCast_self]
  rw [select_apply, mulf_apply, cmpi_apply', broadcast_apply, broadcast_apply, broadcast_apply, gram_apply]
  simp only [truncf_apply, sliceQ_lo, sliceK_lo]
  rfl

/-- The second head's masked score payload at (p, t). -/
theorem pay1_apply (x0 : Vec Ideal S256x128 .f32) (x1 : Vec Ideal S2048x128 .f32) (x3 : Vec Ideal S256x2048 .i32) (p : Fin 256) (t : Fin 2048) :
    Gen.k3_pay1 (F := Ideal) (Gen.k3_pay7 x3) (Gen.k3_pay12 x0 x1) (Scalar.ofBits .f32 0x3E000000#32) (ix2 p t) = sc1 x0 x1 x3 p t := by
  unfold Gen.k3_pay1 Gen.k3_pay12 Gen.k3_pay7 Gen.k3_pay4 Gen.k3_pay5 sc1
  simp only [shapeCast_self]
  rw [select_apply, mulf_apply, cmpi_apply', broadcast_apply, broadcast_apply, broadcast_apply, gram_apply]
  simp only [truncf_apply, sliceQ_hi, sliceK_hi]
  rfl

/-- A row softmax without a subtracted maximum, read at an index: the exponential over the row's sum of exponentials. -/
theorem softmax_apply (y : FVec Ideal S256x2048 .f32) (p : Fin 256) (t : Fin 2048) :
    shapeCast S1x256x2048
        (divf (exp y)
          (broadcastTo S256x2048
            (shapeCast S256x1 (multiReduction .add [1] S256 (exp y) 0x00000000#32 reduces_S256x2048_S256 (.inl rfl) rfl)
              shapeCasts_S256_S256x1)
            broadcasts_S256x1_S256x2048))
        shapeCasts_S256x2048_S1x256x2048 (ix3 (0 : Fin 1) p t)
      = Ideal.div (Ideal.exp (y (ix2 p t))) (∑ u : Fin 2048, Ideal.exp (y (ix2 p u))) := by
  refine (shapeCast_ab_1ab_apply _ shapeCasts_S256x2048_S1x256x2048 (0 : Fin 1) p t).trans ?_
  rw [divf_apply]
  refine congrArg₂ Ideal.div rfl ?_
  refine (broadcastTo_a1_ab_apply _ broadcasts_S256x1_S256x2048 p t).trans ?_
  refine (shapeCast_a_a1_apply _ shapeCasts_S256_S256x1 p (0 : Fin 1)).trans ?_
  exact multiReduction_add_rows_apply (exp y) reduces_S256x2048_S256 (.inl rfl) rfl p

/-- The first head's stored attention weights at (0, p, t). -/
theorem pay9_apply (x0 : Vec Ideal S256x128 .f32) (x1 : Vec Ideal S2048x128 .f32) (x3 : Vec Ideal S256x2048 .i32) (p : Fin 256) (t : Fin 2048) :
    Gen.k3_pay9 (F := Ideal) x0 x1 x3 (ix3 (0 : Fin 1) p t)
      = Ideal.div (Ideal.exp (sc0 x0 x1 x3 p t)) (∑ u : Fin 2048, Ideal.exp (sc0 x0 x1 x3 p u)) := by
  unfold Gen.k3_pay9
  refine (softmax_apply (Gen.k3_pay8 (F := Ideal) x0 x1 x3) p t).trans ?_
  simp only [pay8_apply]

/-- The second head's stored attention weights at (0, p, t). -/
theorem pay2_apply (x0 : Vec Ideal S256x128 .f32) (x1 : Vec Ideal S2048x128 .f32) (x3 : Vec Ideal S256x2048 .i32) (p : Fin 256) (t : Fin 2048) :
    Gen.k3_pay2 (F := Ideal) (Gen.k3_pay7 x3) (Gen.k3_pay12 x0 x1) (Scalar.ofBits .f32 0x3E000000#32) (ix3 (0 : Fin 1) p t)
      = Ideal.div (Ideal.exp (sc1 x0 x1 x3 p t)) (∑ u : Fin 2048, Ideal.exp (sc1 x0 x1 x3 p u)) := by
  unfold Gen.k3_pay2
  refine (softmax_apply (Gen.k3_pay1 (F := Ideal) (Gen.k3_pay7 x3) (Gen.k3_pay12 x0 x1) (Scalar.ofBits .f32 0x3E000000#32)) p t).trans ?_
  simp only [pay1_apply]

/-- The left operand of the score · value product is read at the result's row. -/
theorem ctr_l0 (j : S256x64.Idx) (q : dot_S256x2048_S2048x64_S256x64_1_0_0_1_n_n.contr.Idx) :
    (dot_S256x2048_S2048x64_S256x64_1_0_0_1_n_n.lhsIdx j q 0).val = (j 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl

/-- The right operand of the score · value product is read at the result's column. -/
theorem ctr_r1 (j : S256x64.Idx) (q : dot_S256x2048_S2048x64_S256x64_1_0_0_1_n_n.contr.Idx) :
    (dot_S256x2048_S2048x64_S256x64_1_0_0_1_n_n.rhsIdx j q 1).val = (j 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl

/-- A [256,2048] · [2048,64] product into the zero accumulator at (p, d): the sum over the 2048 shared rows. -/
theorem ctr_apply (l : FVec Ideal S256x2048 .bf16) (r : FVec Ideal S2048x64 .bf16) (p : Fin 256) (d : Fin 64) :
    matmul dot_S256x2048_S2048x64_S256x64_1_0_0_1_n_n none l r (constant (F := Ideal) S256x64 .f32 0x00000000#32) (ix2 p d)
      = ∑ t : Fin 2048, l (ix2 p t) * r (ix2 t d) := by
  simp only [matmul]
  rw [Ideal.matmul_constant_zero_apply]
  exact Contract2.sum_contr_eq_sum_fin dot_S256x2048_S2048x64_S256x64_1_0_0_1_n_n rfl rfl rfl rfl ctr_l0 ctr_r1 l r (ix2 p d)

/-- The first head's score · value product at (p, d). -/
theorem pay10_apply (x0 : Vec Ideal S256x128 .f32) (x1 x2 : Vec Ideal S2048x128 .f32) (x3 : Vec Ideal S256x2048 .i32) (p : Fin 256) (d : Fin 64) :
    Gen.k3_pay10 (F := Ideal) x0 x1 x2 x3 (ix2 p d) = ∑ t : Fin 2048, sc0 x0 x1 x3 p t * x2 (ix2 t (lo d)) := by
  unfold Gen.k3_pay10 Gen.k3_pay6
  simp only [shapeCast_self]
  rw [ctr_apply]
  simp only [truncf_apply, sliceK_lo, pay8_apply]

/-- The second head's score · value product at (p, d). -/
theorem pay51_apply (x0 : Vec Ideal S256x128 .f32) (x1 x2 : Vec Ideal S2048x128 .f32) (x3 : Vec Ideal S256x2048 .i32) (p : Fin 256) (d : Fin 64) :
    matmul dot_S256x2048_S2048x64_S256x64_1_0_0_1_n_n none
        (truncf .bf16 (Gen.k3_pay1 (F := Ideal) (Gen.k3_pay7 x3) (Gen.k3_pay12 x0 x1) (Scalar.ofBits .f32 0x3E000000#32)) bitsLt_bf16_f32)
        (Gen.k3_pay11 (F := Ideal) x2) (constant (F := Ideal) S256x64 .f32 0x00000000#32) (ix2 p d)
      = ∑ t : Fin 2048, sc1 x0 x1 x3 p t * x2 (ix2 t (hi d)) := by
  rw [ctr_apply]
  unfold Gen.k3_pay11 Gen.k3_pay6
  simp only [shapeCast_self, truncf_apply, sliceK_hi, pay1_apply]

/-- The context payload at a column of the first head. -/
theorem pay3_lo (x0 : Vec Ideal S256x128 .f32) (x1 x2 : Vec Ideal S2048x128 .f32) (x3 : Vec Ideal S256x2048 .i32) (p : Fin 256) (d : Fin 64) :
    Gen.k3_pay3 (F := Ideal) (Gen.k3_pay7 x3) (Gen.k3_pay10 x0 x1 x2 x3) (Gen.k3_pay11 x2) (Gen.k3_pay12 x0 x1) (Scalar.ofBits .f32 0x3E000000#32) (ix2 p (lo d))
      = ∑ t : Fin 2048, sc0 x0 x1 x3 p t * x2 (ix2 t (lo d)) := by
  unfold Gen.k3_pay3
  refine (JoinCols.pair_left _ _ concatenates_S256x64_S256x64_S256x128_d1 p d (lo d) rfl).trans ?_
  exact pay10_apply x0 x1 x2 x3 p d

/-- The context payload at a column of the second head. -/
theorem pay3_hi (x0 : Vec Ideal S256x128 .f32) (x1 x2 : Vec Ideal S2048x128 .f32) (x3 : Vec Ideal S256x2048 .i32) (p : Fin 256) (d : Fin 64) :
    Gen.k3_pay3 (F := Ideal) (Gen.k3_pay7 x3) (Gen.k3_pay10 x0 x1 x2 x3) (Gen.k3_pay11 x2) (Gen.k3_pay12 x0 x1) (Scalar.ofBits .f32 0x3E000000#32) (ix2 p (hi d))
      = ∑ t : Fin 2048, sc1 x0 x1 x3 p t * x2 (ix2 t (hi d)) := by
  unfold Gen.k3_pay3
  refine (JoinCols.pair_right _ _ concatenates_S256x64_S256x64_S256x128_d1 p d (hi d) rfl).trans ?_
  exact pay51_apply x0 x1 x2 x3 p d

/-- The context payload at any column `c` of the block: the scores of the head that owns `c` against column `c` of the values. -/
theorem pay3_apply (x0 : Vec Ideal S256x128 .f32) (x1 x2 : Vec Ideal S2048x128 .f32) (x3 : Vec Ideal S256x2048 .i32) (p : Fin 256) (c : Fin 128) :
    Gen.k3_pay3 (F := Ideal) (Gen.k3_pay7 x3) (Gen.k3_pay10 x0 x1 x2 x3) (Gen.k3_pay11 x2) (Gen.k3_pay12 x0 x1) (Scalar.ofBits .f32 0x3E000000#32) (ix2 p c)
      = ∑ t : Fin 2048, (if c.val < 64 then sc0 x0 x1 x3 p t else sc1 x0 x1 x3 p t) * x2 (ix2 t c) := by
  by_cases hc : c.val < 64
  · have h := pay3_lo x0 x1 x2 x3 p ⟨c.val, hc⟩
    rw [show lo ⟨c.val, hc⟩ = c from Fin.ext rfl] at h
    simp only [if_pos hc]
    exact h
  · have hc' : c.val - 64 < 64 := by omega
    have h := pay3_hi x0 x1 x2 x3 p ⟨c.val - 64, hc'⟩
    rw [show hi ⟨c.val - 64, hc'⟩ = c from Fin.ext (by show 64 + (c.val - 64) = c.val; omega)] at h
    simp only [if_neg hc]
    exact h

end Cert.KernelIdeal.Att

end
-- ==== Proof.AttBlocks.lean ====
/-
  The attention region's blocks as restrictions of the arrays it finds.

  The region runs over an 8 × 8 grid: the point's first coordinate qi is the block of 256 query rows, its second hp the
  pair of heads (a block of 128 columns). The printed index maps give, decided over the 64 points: the query block at
  block index (qi, hp), the key and value blocks at (0, hp), the mask block at (qi, 0), the weights' block at (hp, qi, 0)
  and the context's block at (qi, hp). An entry of a block sits in its array, on each axis, at block index × block size +
  the coordinate inside the block.
-/
import proofs.«147855_j51891794870426_2_alg».proof.Proof.Gen.KernelIdeal.Frame
import proofs.«147855_j51891794870426_2_alg».proof.Proof.AttPay
import Idealize.ShloMosaic.Lib.Pipeline.Value
import Idealize.ShloMosaic.Lib.Tactic

set_option maxRecDepth 16384

noncomputable section

open scoped BigOperators

namespace Cert.KernelIdeal.Att

open Cert.KernelIdeal Cert.KernelIdeal.Gen Idealize.ShloMosaic Idealize.ShloMosaic.TcCoe Idealize.SL.Sem Idealize.ShloMosaic.ValueIdx
open Idealize.ShloMosaic.Pipeline (Dat)

/-- The block indices of the six windows at a grid point, decided over the 64 points: the query block index `qi` and the
    head-pair index `hp` are the two coordinates of the context window's block. -/
theorem idx_facts : ∀ t : Fin cfg3.N,
      win3_0.index t (0 : Fin 2) = win3_5.index t (0 : Fin 2) ∧ win3_0.index t (1 : Fin 2) = win3_5.index t (1 : Fin 2)
    ∧ win3_1.index t (0 : Fin 2) = 0 ∧ win3_1.index t (1 : Fin 2) = win3_5.index t (1 : Fin 2)
    ∧ win3_2.index t (0 : Fin 2) = 0 ∧ win3_2.index t (1 : Fin 2) = win3_5.index t (1 : Fin 2)
    ∧ win3_3.index t (0 : Fin 2) = win3_5.index t (0 : Fin 2) ∧ win3_3.index t (1 : Fin 2) = 0
    ∧ win3_4.index t (0 : Fin 3) = win3_5.index t (1 : Fin 2) ∧ win3_4.index t (1 : Fin 3) = win3_5.index t (0 : Fin 2)
    ∧ win3_4.index t (2 : Fin 3) = 0
    ∧ win3_5.index t (0 : Fin 2) ≤ 7 ∧ win3_5.index t (1 : Fin 2) ≤ 7 :=
  (by decide +kernel : ∀ t : Fin grid3.N, _)

/-- Every (query block, head pair) is some point's. -/
theorem idx_onto : ∀ (q0 : Fin 8) (q1 : Fin 8), ∃ t : Fin cfg3.N, win3_5.index t (0 : Fin 2) = q0.val ∧ win3_5.index t (1 : Fin 2) = q1.val :=
  (by decide +kernel : ∀ (q0 : Fin 8) (q1 : Fin 8), ∃ t : Fin grid3.N, win3_5.index t (0 : Fin 2) = q0.val ∧ win3_5.index t (1 : Fin 2) = q1.val)

variable (V : (c : Dev nD) → (b : Ref sig .tc) → Buf (Elt Ideal) ((c : Thread nD τ).loc b))

/-- The projected queries, keys and values and the mask as the region finds them, as functions of row and column. -/
abbrev Q (c : Dev nD) : Fin 2048 → Fin 1024 → EReal := fun s d => V c main_v4 (ix2 s d)
abbrev K (c : Dev nD) : Fin 2048 → Fin 1024 → EReal := fun s d => V c main_v5 (ix2 s d)
abbrev Vv (c : Dev nD) : Fin 2048 → Fin 1024 → EReal := fun s d => V c main_v6 (ix2 s d)
abbrev M (c : Dev nD) : Fin 2048 → Fin 2048 → BitVec 32 := fun s t => V c main_v3 (ix2 s t)

/-- The query block at a point: entry (p, cc) is the array's entry at block index × block size + the coordinate inside. -/
theorem iblk0_apply (c : Dev nD) (t : Fin cfg3.N) (p : Fin 256) (cc : Fin 128) (s : Fin 2048) (e : Fin 1024)
    (hs : s.val = win3_0.index t (0 : Fin 2) * 256 + p.val) (he : e.val = win3_0.index t (1 : Fin 2) * 128 + cc.val) :
    (Gen.iblk3 (F := Ideal) V c 0 t : Vec Ideal S256x128 .f32) (ix2 p cc) = V c main_v4 (ix2 s e) := by
  unfold Gen.iblk3
  rw [View.read_apply]
  show V c main_v4 _ = V c main_v4 _
  congr 1
  funext a
  apply Fin.ext
  match a with
  | ⟨0, _⟩ => show win3_0.index t (0 : Fin 2) * 256 + 1 * p.val = s.val; omega
  | ⟨1, _⟩ => show win3_0.index t (1 : Fin 2) * 128 + 1 * cc.val = e.val; omega

/-- The key block at a point. -/
theorem iblk1_apply (c : Dev nD) (t : Fin cfg3.N) (r : Fin 2048) (cc : Fin 128) (s : Fin 2048) (e : Fin 1024)
    (hs : s.val = win3_1.index t (0 : Fin 2) * 2048 + r.val) (he : e.val = win3_1.index t (1 : Fin 2) * 128 + cc.val) :
    (Gen.iblk3 (F := Ideal) V c 1 t : Vec Ideal S2048x128 .f32) (ix2 r cc) = V c main_v5 (ix2 s e) := by
  unfold Gen.iblk3
  rw [View.read_apply]
  show V c main_v5 _ = V c main_v5 _
  congr 1
  funext a
  apply Fin.ext
  match a with
  | ⟨0, _⟩ => show win3_1.index t (0 : Fin 2) * 2048 + 1 * r.val = s.val; omega
  | ⟨1, _⟩ => show win3_1.index t (1 : Fin 2) * 128 + 1 * cc.val = e.val; omega

/-- The value block at a point. -/
theorem iblk2_apply (c : Dev nD) (t : Fin cfg3.N) (r : Fin 2048) (cc : Fin 128) (s : Fin 2048) (e : Fin 1024)
    (hs : s.val = win3_2.index t (0 : Fin 2) * 2048 + r.val) (he : e.val = win3_2.index t (1 : Fin 2) * 128 + cc.val) :
    (Gen.iblk3 (F := Ideal) V c 2 t : Vec Ideal S2048x128 .f32) (ix2 r cc) = V c main_v6 (ix2 s e) := by
  unfold Gen.iblk3
  rw [View.read_apply]
  show V c main_v6 _ = V c main_v6 _
  congr 1
  funext a
  apply Fin.ext
  match a with
  | ⟨0, _⟩ => show win3_2.index t (0 : Fin 2) * 2048 + 1 * r.val = s.val; omega
  | ⟨1, _⟩ => show win3_2.index t (1 : Fin 2) * 128 + 1 * cc.val = e.val; omega

/-- The mask block at a point. -/
theorem iblk3_apply (c : Dev nD) (t : Fin cfg3.N) (p : Fin 256) (u : Fin 2048) (s : Fin 2048) (u' : Fin 2048)
    (hs : s.val = win3_3.index t (0 : Fin 2) * 256 + p.val) (hu : u'.val = win3_3.index t (1 : Fin 2) * 2048 + u.val) :
    (Gen.iblk3 (F := Ideal) V c 3 t : Vec Ideal S256x2048 .i32) (ix2 p u) = V c main_v3 (ix2 s u') := by
  unfold Gen.iblk3
  rw [View.read_apply]
  show V c main_v3 _ = V c main_v3 _
  congr 1
  funext a
  apply Fin.ext
  match a with
  | ⟨0, _⟩ => show win3_3.index t (0 : Fin 2) * 256 + 1 * p.val = s.val; omega
  | ⟨1, _⟩ => show win3_3.index t (1 : Fin 2) * 2048 + 1 * u.val = u'.val; omega

end Cert.KernelIdeal.Att

end
-- ==== Proof.AttSpec.lean ====
/-
  A block's payloads against the specification.

  Block (qi, hp) of the attention kernel holds the query rows 256 qi … 256 qi + 255 and the head pair hp, that is the
  columns 128 hp … 128 hp + 127 of the model axis: local column c of the block is column 128 hp + c, the first head
  of the pair is head 2 hp and the second head 2 hp + 1, and the head owning column 128 hp + c is 2 hp + c / 64. When
  the four loaded blocks x0 … x3 are those restrictions of the projected queries, keys, values and of the mask, the
  block's scores are the specification's scores of heads 2 hp and 2 hp + 1 at the block's rows, its stored weights the
  specification's weights, and its stored context the specification's context at the block's rows and columns.
-/
import proofs.«147855_j51891794870426_2_alg».proof.Proof.AttPay

noncomputable section

open scoped BigOperators

namespace Cert.KernelIdeal.Att

open Cert.KernelIdeal Cert.KernelIdeal.Gen Idealize.ShloMosaic Idealize.ShloMosaic.TcCoe Idealize.SL.Sem Idealize.ShloMosaic.ValueIdx

/-- Row `p` of query block `qi`, as a row of the whole array. -/
abbrev row (qi : ℕ) (hqi : qi ≤ 7) (p : Fin 256) : Fin 2048 := ⟨qi * 256 + p.val, by omega⟩

/-- Column `c` of head pair `hp`, as a column of the model axis. -/
abbrev colm (hp : ℕ) (hhp : hp ≤ 7) (c : Fin 128) : Fin 1024 := ⟨hp * 128 + c.val, by omega⟩

/-- The first and the second head of pair `hp`. -/
abbrev hd0 (hp : ℕ) (hhp : hp ≤ 7) : Fin 16 := ⟨2 * hp, by omega⟩
abbrev hd1 (hp : ℕ) (hhp : hp ≤ 7) : Fin 16 := ⟨2 * hp + 1, by omega⟩

section Block

variable (q k v : Fin 2048 → Fin 1024 → EReal) (msk : Fin 2048 → Fin 2048 → BitVec 32)
  (x0 : Vec Ideal S256x128 .f32) (x1 x2 : Vec Ideal S2048x128 .f32) (x3 : Vec Ideal S256x2048 .i32)
  (qi hp : ℕ) (hqi : qi ≤ 7) (hhp : hp ≤ 7)

/-- The first head's score of the block is the specification's score of head 2 hp. -/
theorem sc0_eq (h0 : ∀ (p : Fin 256) (c : Fin 128), x0 (ix2 p c) = q (row qi hqi p) (colm hp hhp c))
    (h1 : ∀ (t : Fin 2048) (c : Fin 128), x1 (ix2 t c) = k t (colm hp hhp c))
    (h3 : ∀ (p : Fin 256) (t : Fin 2048), x3 (ix2 p t) = msk (row qi hqi p) t) (p : Fin 256) (t : Fin 2048) :
    sc0 x0 x1 x3 p t = Cert.Attn.score q k msk (hd0 hp hhp) (row qi hqi p) t := by
  unfold sc0 Cert.Attn.score
  have e : ∀ d : Fin 64, colm hp hhp (lo d) = Cert.Attn.col (hd0 hp hhp) d := fun d =>
    Fin.ext (by show hp * 128 + d.val = 64 * (2 * hp) + d.val; omega)
  simp only [h0, h1, h3, e]

/-- The second head's score of the block is the specification's score of head 2 hp + 1. -/
theorem sc1_eq (h0 : ∀ (p : Fin 256) (c : Fin 128), x0 (ix2 p c) = q (row qi hqi p) (colm hp hhp c))
    (h1 : ∀ (t : Fin 2048) (c : Fin 128), x1 (ix2 t c) = k t (colm hp hhp c))
    (h3 : ∀ (p : Fin 256) (t : Fin 2048), x3 (ix2 p t) = msk (row qi hqi p) t) (p : Fin 256) (t : Fin 2048) :
    sc1 x0 x1 x3 p t = Cert.Attn.score q k msk (hd1 hp hhp) (row qi hqi p) t := by
  unfold sc1 Cert.Attn.score
  have e : ∀ d : Fin 64, colm hp hhp (hi d) = Cert.Attn.col (hd1 hp hhp) d := fun d =>
    Fin.ext (by show hp * 128 + (64 + d.val) = 64 * (2 * hp + 1) + d.val; omega)
  simp only [h0, h1, h3, e]

/-- The first head's stored weights are the specification's weights of head 2 hp. -/
theorem weight0_eq (h0 : ∀ (p : Fin 256) (c : Fin 128), x0 (ix2 p c) = q (row qi hqi p) (colm hp hhp c))
    (h1 : ∀ (t : Fin 2048) (c : Fin 128), x1 (ix2 t c) = k t (colm hp hhp c))
    (h3 : ∀ (p : Fin 256) (t : Fin 2048), x3 (ix2 p t) = msk (row qi hqi p) t) (p : Fin 256) (t : Fin 2048) :
    Gen.k3_pay9 (F := Ideal) x0 x1 x3 (ix3 (0 : Fin 1) p t) = Cert.Attn.weight q k msk (hd0 hp hhp) (row qi hqi p) t := by
  rw [pay9_apply]
  unfold Cert.Attn.weight
  simp only [sc0_eq q k msk x0 x1 x3 qi hp hqi hhp h0 h1 h3]

/-- The second head's stored weights are the specification's weights of head 2 hp + 1. -/
theorem weight1_eq (h0 : ∀ (p : Fin 256) (c : Fin 128), x0 (ix2 p c) = q (row qi hqi p) (colm hp hhp c))
    (h1 : ∀ (t : Fin 2048) (c : Fin 128), x1 (ix2 t c) = k t (colm hp hhp c))
    (h3 : ∀ (p : Fin 256) (t : Fin 2048), x3 (ix2 p t) = msk (row qi hqi p) t) (p : Fin 256) (t : Fin 2048) :
    Gen.k3_pay2 (F := Ideal) (Gen.k3_pay7 x3) (Gen.k3_pay12 x0 x1) (Scalar.ofBits .f32 0x3E000000#32) (ix3 (0 : Fin 1) p t)
      = Cert.Attn.weight q k msk (hd1 hp hhp) (row qi hqi p) t := by
  rw [pay2_apply]
  unfold Cert.Attn.weight
  simp only [sc1_eq q k msk x0 x1 x3 qi hp hqi hhp h0 h1 h3]

/-- The stored context is the specification's context at the block's row and column. -/
theorem ctx_eq (h0 : ∀ (p : Fin 256) (c : Fin 128), x0 (ix2 p c) = q (row qi hqi p) (colm hp hhp c))
    (h1 : ∀ (t : Fin 2048) (c : Fin 128), x1 (ix2 t c) = k t (colm hp hhp c))
    (h2 : ∀ (t : Fin 2048) (c : Fin 128), x2 (ix2 t c) = v t (colm hp hhp c))
    (h3 : ∀ (p : Fin 256) (t : Fin 2048), x3 (ix2 p t) = msk (row qi hqi p) t) (p : Fin 256) (c : Fin 128) :
    Gen.k3_pay3 (F := Ideal) (Gen.k3_pay7 x3) (Gen.k3_pay10 x0 x1 x2 x3) (Gen.k3_pay11 x2) (Gen.k3_pay12 x0 x1) (Scalar.ofBits .f32 0x3E000000#32) (ix2 p c)
      = Cert.Attn.ctx q k v msk (row qi hqi p) (colm hp hhp c) := by
  rw [pay3_apply]
  unfold Cert.Attn.ctx
  refine Finset.sum_congr rfl fun t _ => ?_
  rw [h2]
  refine congrArg (· * v t (colm hp hhp c)) ?_
  by_cases hc : c.val < 64
  · rw [if_pos hc, sc0_eq q k msk x0 x1 x3 qi hp hqi hhp h0 h1 h3]
    refine congrArg (fun h => Cert.Attn.score q k msk h (row qi hqi p) t) (Fin.ext ?_)
    show 2 * hp = (hp * 128 + c.val) / 64
    omega
  · rw [if_neg hc, sc1_eq q k msk x0 x1 x3 qi hp hqi hhp h0 h1 h3]
    refine congrArg (fun h => Cert.Attn.score q k msk h (row qi hqi p) t) (Fin.ext ?_)
    show 2 * hp + 1 = (hp * 128 + c.val) / 64
    have := c.isLt
    omega

end Block

end Cert.KernelIdeal.Att

end
-- ==== Proof.AttCtx.lean ====
/-
  The context array after the attention region.

  At every grid point (qi, hp) the region writes back, into block (qi, hp) of the [2048,1024] context array, the body's one
  store: the two heads' score · value products side by side. Read against the specification that block is the restriction
  of one function of the arrays the region finds — the context at (s, e) sums over the key rows the scores of the head
  owning column e against column e of the values —, the 64 blocks tile the array, so the array ends holding that function.
-/
import proofs.«147855_j51891794870426_2_alg».proof.Proof.AttBlocks
import proofs.«147855_j51891794870426_2_alg».proof.Proof.AttSpec

set_option maxRecDepth 16384

noncomputable section

open scoped BigOperators

namespace Cert.KernelIdeal.Att

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The specification's context of the arrays the region finds, as an array. -/
def G5 (c : Dev nD) : S2048x1024.Idx → EReal :=
  fun i => Cert.Attn.ctx (Q V c) (K V c) (Vv V c) (M V c) (i 0) (i 1)

theorem hz2 : (![0, 0] : Fin 2 → Nat) = fun _ => 0 := funext fun a => by fin_cases a <;> rfl

/-- What a point writes back into the context array is its block of `G5`. -/
theorem flushed5_eq (c : Dev nD) (t : Fin cfg3.N) :
    (Gen.dat3 (F := Ideal) V c).flushed 5 t = ((cfg3.win 5).blk t).view.read (Elt Ideal) (G5 V c) := by
  show (cfg3.win 5).cut (grid3.coords t) ((Gen.dat3 (F := Ideal) V c).after 5 t) = _
  rw [Gen.after3_5]
  unfold Gen.out3_5
  rw [View.canon_unit_zero hz2]
  simp only [View.ld_unit_zero (S := S256x128) hz2, View.ld_unit_zero (S := S2048x128) hz2, View.ld_unit_zero (S := S256x2048) hz2]
  obtain ⟨e00, e01, e10, e11, e20, e21, e30, e31, e40, e41, e42, b0, b1⟩ := idx_facts t
  funext j
  obtain ⟨p, cc, rfl⟩ : ∃ (p : Fin 256) (cc : Fin 128), j = ix2 p cc := ⟨j 0, j 1, eq_ix2 j⟩
  show Gen.k3_pay3 (F := Ideal) (Gen.k3_pay7 (Gen.iblk3 V c 3 t)) (Gen.k3_pay10 (Gen.iblk3 V c 0 t) (Gen.iblk3 V c 1 t) (Gen.iblk3 V c 2 t) (Gen.iblk3 V c 3 t))
      (Gen.k3_pay11 (Gen.iblk3 V c 2 t)) (Gen.k3_pay12 (Gen.iblk3 V c 0 t) (Gen.iblk3 V c 1 t)) (Scalar.ofBits .f32 0x3E000000#32) (ix2 p cc)
    = G5 V c (((cfg3.win 5).blk t).view.emb (ix2 p cc))
  refine (ctx_eq (Q V c) (K V c) (Vv V c) (M V c) _ _ _ _ (win3_5.index t (0 : Fin 2)) (win3_5.index t (1 : Fin 2)) b0 b1
    (fun p' c' => iblk0_apply V c t p' c' _ _ (by rw [e00]) (by rw [e01]))
    (fun r c' => iblk1_apply V c t r c' _ _ (by rw [e10]; show r.val = 0 * 2048 + r.val; omega) (by rw [e11]))
    (fun r c' => iblk2_apply V c t r c' _ _ (by rw [e20]; show r.val = 0 * 2048 + r.val; omega) (by rw [e21]))
    (fun p' u => iblk3_apply V c t p' u _ _ (by rw [e30]) (by rw [e31]; show u.val = 0 * 2048 + u.val; omega))
    p cc).trans ?_
  unfold G5
  refine congrArg₂ (Cert.Attn.ctx (Q V c) (K V c) (Vv V c) (M V c)) (Fin.ext ?_) (Fin.ext ?_)
  · show win3_5.index t (0 : Fin 2) * 256 + p.val = win3_5.index t (0 : Fin 2) * 256 + 1 * p.val; omega
  · show win3_5.index t (1 : Fin 2) * 128 + cc.val = win3_5.index t (1 : Fin 2) * 128 + 1 * cc.val; omega

/-- An index of the context array is in a point's block iff each coordinate is in the block's range on its axis. -/
theorem mem_blk5 (t : Fin cfg3.N) (i : S2048x1024.Idx) :
    i ∈ ((cfg3.win 5).blk t).view.set ↔ ∀ a : Fin 2, win3_5.index t a * S256x128.size a ≤ (i a).val ∧ (i a).val < win3_5.index t a * S256x128.size a + S256x128.size a := by
  show i ∈ ((View.whole main_v7_1).slice (win3_5.rect t)).set ↔ _
  rw [View.set_slice_whole, Rect.mem_set_unit]
  exact Iff.rfl

/-- The 64 blocks cover the context array: row s, column e is in the block of point (s / 256, e / 128). -/
theorem cover5 (i : S2048x1024.Idx) :
    ∃ t : Fin cfg3.N, (cfg3.win 5).flush t = true ∧ i ∈ ((cfg3.win 5).blk t).view.set := by
  have hi0 : (i 0).val < 2048 := (i 0).isLt
  have hi1 : (i 1).val < 1024 := (i 1).isLt
  obtain ⟨t, q0, q1⟩ := idx_onto ⟨(i 0).val / 256, by omega⟩ ⟨(i 1).val / 128, by omega⟩
  have q0' : win3_5.index t (0 : Fin 2) = (i 0).val / 256 := q0
  have q1' : win3_5.index t (1 : Fin 2) = (i 1).val / 128 := q1
  refine ⟨t, Gen.flush3_5 t, ?_⟩
  rw [mem_blk5]
  intro a
  match a with
  | ⟨0, _⟩ =>
    show win3_5.index t (0 : Fin 2) * 256 ≤ (i 0).val ∧ (i 0).val < win3_5.index t (0 : Fin 2) * 256 + 256
    omega
  | ⟨1, _⟩ =>
    show win3_5.index t (1 : Fin 2) * 128 ≤ (i 1).val ∧ (i 1).val < win3_5.index t (1 : Fin 2) * 128 + 128
    omega

/-- The context array after the region: the specification's context of the projected queries, keys, values and the mask
    the region finds. -/
theorem final5 (c : Dev nD) :
    (Gen.dat3 (F := Ideal) V c).arrAt 5 cfg3.N = fun i => Cert.Attn.ctx (Q V c) (K V c) (Vv V c) (M V c) (i 0) (i 1) :=
  (Gen.dat3 (F := Ideal) V c).arrAt_eq_of_cover 5 (G5 V c) (fun t _ => flushed5_eq V c t) cover5

end Cert.KernelIdeal.Att

end
-- ==== Proof.AttW4.lean ====
/-
  The attention weights the attention kernel leaves, as one array.

  The kernel walks an 8 × 8 grid: point (qi, hp) holds rows 256 qi … 256 qi + 255 and columns 128 hp … 128 hp + 127
  of the projected queries, all 2048 rows and the same 128 columns of the projected keys, rows 256 qi … of the mask,
  and writes the block [2, 256, 2048] of the [16, 2048, 2048] weights at heads 2 hp, 2 hp + 1 and rows 256 qi … .
  The 128 columns are the columns of the two heads 2 hp and 2 hp + 1: column d of head 2 hp + hh is column
  128 hp + 64 hh + d of the model axis, that is column d (hh = 0) or 64 + d (hh = 1) of the block.

  The block is written by two stores, one per plane.  Plane hh at (p, u) holds the exponential of the masked scaled
  score of the block's head hh at (p, u) over the sum of the exponentials along the row; with the blocks read where
  they sit in their arrays the score is the score of head 2 hp + hh at query row 256 qi + p and key row u, so the
  plane holds the attention weight of that head at (256 qi + p, u) — the entry of the weights the plane's element
  lands on.  Index (h, s, u) of the weights lies in the block of the point qi = s / 256, hp = h / 2, so the 64 blocks
  cover the array.
-/
import proofs.«147855_j51891794870426_2_alg».proof.Proof.Gen.KernelIdeal.Frame
import proofs.«147855_j51891794870426_2_alg».proof.Proof.Spec
import proofs.«147855_j51891794870426_2_alg».proof.Proof.AttPay
import Idealize.ShloMosaic.Lib.Pipeline.Value

noncomputable section

open scoped BigOperators

namespace Cert.KernelIdeal.Att4

open Cert.KernelIdeal Cert.KernelIdeal.Gen Cert.KernelIdeal.Att Idealize.ShloMosaic Idealize.ShloMosaic.TcCoe Idealize.SL.Sem
open Idealize.ShloMosaic.ValueIdx
open Idealize.ShloMosaic.Pipeline (Dat)

/-! ## Scores and weights of a block, over variables -/

section Blocks

variable (x0 : Vec Ideal S256x128 .f32) (x1 : Vec Ideal S2048x128 .f32) (x3 : Vec Ideal S256x2048 .i32)
  (Q K : Fin 2048 → Fin 1024 → EReal) (M : Fin 2048 → Fin 2048 → BitVec 32) (h : Fin 16) (s : Fin 2048) (p : Fin 256)

/-- The block's first head is head `h` at row `s`, once the block's columns 0 … 63 are the head's columns and the
    block's mask row is row `s` of the mask. -/
theorem sc0_eq (hq : ∀ d : Fin 64, x0 (ix2 p (lo d)) = Q s (Cert.Attn.col h d))
    (hk : ∀ (u : Fin 2048) (d : Fin 64), x1 (ix2 u (lo d)) = K u (Cert.Attn.col h d))
    (hm : ∀ u : Fin 2048, x3 (ix2 p u) = M s u) (u : Fin 2048) :
    sc0 x0 x1 x3 p u = Cert.Attn.score Q K M h s u := by
  unfold sc0 Cert.Attn.score
  rw [hm u]
  simp only [hq, hk]

/-- The same for the block's second head and its columns 64 … 127. -/
theorem sc1_eq (hq : ∀ d : Fin 64, x0 (ix2 p (hi d)) = Q s (Cert.Attn.col h d))
    (hk : ∀ (u : Fin 2048) (d : Fin 64), x1 (ix2 u (hi d)) = K u (Cert.Attn.col h d))
    (hm : ∀ u : Fin 2048, x3 (ix2 p u) = M s u) (u : Fin 2048) :
    sc1 x0 x1 x3 p u = Cert.Attn.score Q K M h s u := by
  unfold sc1 Cert.Attn.score
  rw [hm u]
  simp only [hq, hk]

/-- So the first plane's entry is the attention weight of head `h` at row `s`; -/
theorem plane0_eq (hq : ∀ d : Fin 64, x0 (ix2 p (lo d)) = Q s (Cert.Attn.col h d))
    (hk : ∀ (u : Fin 2048) (d : Fin 64), x1 (ix2 u (lo d)) = K u (Cert.Attn.col h d))
    (hm : ∀ u : Fin 2048, x3 (ix2 p u) = M s u) (u : Fin 2048) :
    Ideal.div (Ideal.exp (sc0 x0 x1 x3 p u)) (∑ v : Fin 2048, Ideal.exp (sc0 x0 x1 x3 p v))
      = Cert.Attn.weight Q K M h s u := by
  unfold Cert.Attn.weight
  simp only [sc0_eq x0 x1 x3 Q K M h s p hq hk hm]

/-- and the second plane's likewise. -/
theorem plane1_eq (hq : ∀ d : Fin 64, x0 (ix2 p (hi d)) = Q s (Cert.Attn.col h d))
    (hk : ∀ (u : Fin 2048) (d : Fin 64), x1 (ix2 u (hi d)) = K u (Cert.Attn.col h d))
    (hm : ∀ u : Fin 2048, x3 (ix2 p u) = M s u) (u : Fin 2048) :
    Ideal.div (Ideal.exp (sc1 x0 x1 x3 p u)) (∑ v : Fin 2048, Ideal.exp (sc1 x0 x1 x3 p v))
      = Cert.Attn.weight Q K M h s u := by
  unfold Cert.Attn.weight
  simp only [sc1_eq x0 x1 x3 Q K M h s p hq hk hm]

/-- The two stores fill the block plane by plane: if plane 0 is `Gb` at (0, p, u) and plane 1 is `Gb` at (1, p, u),
    the buffer the two stores leave is `Gb`. -/
theorem canon_planes (Gb : S2x256x2048.Idx → EReal)
    (h0 : ∀ (p : Fin 256) (u : Fin 2048),
      Ideal.div (Ideal.exp (sc0 x0 x1 x3 p u)) (∑ v : Fin 2048, Ideal.exp (sc0 x0 x1 x3 p v)) = Gb (ix3 (0 : Fin 2) p u))
    (h1 : ∀ (p : Fin 256) (u : Fin 2048),
      Ideal.div (Ideal.exp (sc1 x0 x1 x3 p u)) (∑ v : Fin 2048, Ideal.exp (sc1 x0 x1 x3 p v)) = Gb (ix3 (1 : Fin 2) p u))
    (y : S2x256x2048.Idx) :
    View.canon [(⟨Gen.r3_4, Gen.k3_pay2 (F := Ideal) (Gen.k3_pay7 x3) (Gen.k3_pay12 x0 x1) (Scalar.ofBits .f32 0x3E000000#32)⟩ : View.Piece (Elt Ideal) S2x256x2048 .f32),
        ⟨Gen.r3_3, Gen.k3_pay9 (F := Ideal) x0 x1 x3⟩] y = Gb y := by
  have hp1 : ∀ x : S1x256x2048.Idx,
      Gen.k3_pay2 (F := Ideal) (Gen.k3_pay7 x3) (Gen.k3_pay12 x0 x1) (Scalar.ofBits .f32 0x3E000000#32) x = Gb (Gen.r3_4.emb x) := by
    intro x
    obtain ⟨z, p, u, rfl⟩ : ∃ (z : Fin 1) (p : Fin 256) (u : Fin 2048), x = ix3 z p u := ⟨x 0, x 1, x 2, eq_ix3 x⟩
    obtain rfl : z = 0 := Subsingleton.elim _ _
    rw [pay2_apply, h1]
    refine congrArg Gb (funext fun a => Fin.ext ?_)
    match a with
    | ⟨0, _⟩ => rfl
    | ⟨1, _⟩ => show p.val = 0 + 1 * p.val; omega
    | ⟨2, _⟩ => show u.val = 0 + 1 * u.val; omega
  have hp0 : ∀ x : S1x256x2048.Idx, Gen.k3_pay9 (F := Ideal) x0 x1 x3 x = Gb (Gen.r3_3.emb x) := by
    intro x
    obtain ⟨z, p, u, rfl⟩ : ∃ (z : Fin 1) (p : Fin 256) (u : Fin 2048), x = ix3 z p u := ⟨x 0, x 1, x 2, eq_ix3 x⟩
    obtain rfl : z = 0 := Subsingleton.elim _ _
    rw [pay9_apply, h0]
    refine congrArg Gb (funext fun a => Fin.ext ?_)
    match a with
    | ⟨0, _⟩ => rfl
    | ⟨1, _⟩ => show p.val = 0 + 1 * p.val; omega
    | ⟨2, _⟩ => show u.val = 0 + 1 * u.val; omega
  refine View.canon_apply_of_pieces (Val := Elt Ideal) (e := .f32) Gb _ ?_ y (Gen.cover3_4 _ _ y)
  intro pc hpc x
  rcases List.mem_cons.mp hpc with rfl | hpc
  · exact hp1 x
  · obtain rfl := List.mem_singleton.mp hpc
    exact hp0 x

end Blocks

/-! ## The blocks in their arrays -/

variable (V : (c : Dev nD) → (b : Ref sig .tc) → Buf (Elt Ideal) ((c : Thread nD τ).loc b))

/-- The attention weights as a function of the projected queries, the projected keys and the mask the kernel finds. -/
abbrev W4 (c : Dev nD) : S16x2048x2048.Idx → EReal := fun i =>
  Cert.Attn.weight (fun s d => V c main_v4 (ix2 s d)) (fun t d => V c main_v5 (ix2 t d)) (fun s t => V c main_v3 (ix2 s t)) (i 0) (i 1) (i 2)

/-- The body reads its staging buffers from their origin. -/
theorem origin : (![0, 0] : Fin 2 → Nat) = fun _ => 0 := funext fun a => by fin_cases a <;> rfl

/-- A grid point is below 64. -/
theorem point_lt (t : Fin cfg3.N) : t.val < 64 := t.isLt.trans_eq N_3

/-- The index maps over the 64 points, with qi = t / 8 and hp = t % 8: queries at (qi, hp), keys at (0, hp), the mask at
    (qi, 0), the weights at (hp, qi, 0). -/
theorem idx_facts : ∀ t : Fin cfg3.N, win3_0.index t (0 : Fin 2) = t.val / 8 ∧ win3_0.index t (1 : Fin 2) = t.val % 8
    ∧ win3_1.index t (0 : Fin 2) = 0 ∧ win3_1.index t (1 : Fin 2) = t.val % 8
    ∧ win3_3.index t (0 : Fin 2) = t.val / 8 ∧ win3_3.index t (1 : Fin 2) = 0
    ∧ win3_4.index t (0 : Fin 3) = t.val % 8 ∧ win3_4.index t (1 : Fin 3) = t.val / 8 ∧ win3_4.index t (2 : Fin 3) = 0 :=
  (by decide +kernel : ∀ t : Fin grid3.N, _)

/-- The query block at point t: entry (p, e) is the projected queries at row 256 qi + p, column 128 hp + e. -/
theorem q_block (c : Dev nD) (t : Fin cfg3.N) (p : Fin 256) (e : Fin 128) (s : Fin 2048) (d : Fin 1024)
    (hs : s.val = 256 * (t.val / 8) + p.val) (hd : d.val = 128 * (t.val % 8) + e.val) :
    Gen.iblk3 V c 0 t (ix2 p e) = V c main_v4 (ix2 s d) := by
  obtain ⟨e00, e01, -⟩ := idx_facts t
  show V c main_v4 (((cfg3.win 0).blk t).view.emb (ix2 p e)) = V c main_v4 (ix2 s d)
  refine congrArg (V c main_v4) (funext fun a => Fin.ext ?_)
  match a with
  | ⟨0, _⟩ => show win3_0.index t (0 : Fin 2) * 256 + 1 * p.val = s.val; omega
  | ⟨1, _⟩ => show win3_0.index t (1 : Fin 2) * 128 + 1 * e.val = d.val; omega

/-- The key block at point t: entry (u, e) is the projected keys at row u, column 128 hp + e. -/
theorem k_block (c : Dev nD) (t : Fin cfg3.N) (u : Fin 2048) (e : Fin 128) (d : Fin 1024)
    (hd : d.val = 128 * (t.val % 8) + e.val) :
    Gen.iblk3 V c 1 t (ix2 u e) = V c main_v5 (ix2 u d) := by
  obtain ⟨-, -, e10, e11, -⟩ := idx_facts t
  show V c main_v5 (((cfg3.win 1).blk t).view.emb (ix2 u e)) = V c main_v5 (ix2 u d)
  refine congrArg (V c main_v5) (funext fun a => Fin.ext ?_)
  match a with
  | ⟨0, _⟩ => show win3_1.index t (0 : Fin 2) * 2048 + 1 * u.val = u.val; omega
  | ⟨1, _⟩ => show win3_1.index t (1 : Fin 2) * 128 + 1 * e.val = d.val; omega

/-- The mask block at point t: entry (p, u) is the mask at row 256 qi + p, column u. -/
theorem m_block (c : Dev nD) (t : Fin cfg3.N) (p : Fin 256) (u : Fin 2048) (s : Fin 2048)
    (hs : s.val = 256 * (t.val / 8) + p.val) :
    Gen.iblk3 V c 3 t (ix2 p u) = V c main_v3 (ix2 s u) := by
  obtain ⟨-, -, -, -, e30, e31, -⟩ := idx_facts t
  show V c main_v3 (((cfg3.win 3).blk t).view.emb (ix2 p u)) = V c main_v3 (ix2 s u)
  refine congrArg (V c main_v3) (funext fun a => Fin.ext ?_)
  match a with
  | ⟨0, _⟩ => show win3_3.index t (0 : Fin 2) * 256 + 1 * p.val = s.val; omega
  | ⟨1, _⟩ => show win3_3.index t (1 : Fin 2) * 2048 + 1 * u.val = u.val; omega

/-- Where an element of the output block at point t lands: plane hh, row p, column u at head 2 hp + hh, row 256 qi + p,
    column u. -/
theorem o_block (t : Fin cfg3.N) (hh : Fin 2) (p : Fin 256) (u : Fin 2048) (h : Fin 16) (s : Fin 2048)
    (hh' : h.val = 2 * (t.val % 8) + hh.val) (hs : s.val = 256 * (t.val / 8) + p.val) :
    ((cfg3.win 4).blk t).view.emb (ix3 hh p u) = ix3 h s u := by
  obtain ⟨-, -, -, -, -, -, e40, e41, e42⟩ := idx_facts t
  refine funext fun a => Fin.ext ?_
  match a with
  | ⟨0, _⟩ => show win3_4.index t (0 : Fin 3) * 2 + 1 * hh.val = h.val; omega
  | ⟨1, _⟩ => show win3_4.index t (1 : Fin 3) * 256 + 1 * p.val = s.val; omega
  | ⟨2, _⟩ => show win3_4.index t (2 : Fin 3) * 2048 + 1 * u.val = u.val; omega

/-- WHAT POINT t WRITES BACK is block t of the attention weights. -/
theorem flushed_eq (c : Dev nD) (t : Fin cfg3.N) :
    (Gen.dat3 (F := Ideal) V c).flushed 4 t = ((cfg3.win 4).blk t).view.read (Elt Ideal) (W4 V c) := by
  show (cfg3.win 4).cut (grid3.coords t) ((Gen.dat3 V c).after 4 t) = _
  rw [Gen.after3_4]
  unfold Gen.out3_4
  simp only [View.ld_unit_zero (S := S256x128) origin, View.ld_unit_zero (S := S2048x128) origin,
    View.ld_unit_zero (S := S256x2048) origin]
  have ht := point_lt t
  funext j
  refine canon_planes (Gen.iblk3 V c 0 t) (Gen.iblk3 V c 1 t) (Gen.iblk3 V c 3 t)
    (fun y => W4 V c (((cfg3.win 4).blk t).view.emb y)) ?_ ?_ j
  · intro p u
    have hp := p.isLt
    show _ = W4 V c (((cfg3.win 4).blk t).view.emb (ix3 (0 : Fin 2) p u))
    rw [o_block t (0 : Fin 2) p u ⟨2 * (t.val % 8) + 0, by omega⟩ ⟨256 * (t.val / 8) + p.val, by omega⟩ rfl rfl]
    refine plane0_eq (Gen.iblk3 V c 0 t) (Gen.iblk3 V c 1 t) (Gen.iblk3 V c 3 t) _ _ _
      ⟨2 * (t.val % 8) + 0, by omega⟩ ⟨256 * (t.val / 8) + p.val, by omega⟩ p ?_ ?_ ?_ u
    · intro d
      exact q_block V c t p (lo d) _ _ rfl (by show 64 * (2 * (t.val % 8) + 0) + d.val = 128 * (t.val % 8) + d.val; omega)
    · intro v d
      exact k_block V c t v (lo d) _ (by show 64 * (2 * (t.val % 8) + 0) + d.val = 128 * (t.val % 8) + d.val; omega)
    · intro v
      exact m_block V c t p v _ rfl
  · intro p u
    have hp := p.isLt
    show _ = W4 V c (((cfg3.win 4).blk t).view.emb (ix3 (1 : Fin 2) p u))
    rw [o_block t (1 : Fin 2) p u ⟨2 * (t.val % 8) + 1, by omega⟩ ⟨256 * (t.val / 8) + p.val, by omega⟩ rfl rfl]
    refine plane1_eq (Gen.iblk3 V c 0 t) (Gen.iblk3 V c 1 t) (Gen.iblk3 V c 3 t) _ _ _
      ⟨2 * (t.val % 8) + 1, by omega⟩ ⟨256 * (t.val / 8) + p.val, by omega⟩ p ?_ ?_ ?_ u
    · intro d
      exact q_block V c t p (hi d) _ _ rfl (by show 64 * (2 * (t.val % 8) + 1) + d.val = 128 * (t.val % 8) + (64 + d.val); omega)
    · intro v d
      exact k_block V c t v (hi d) _ (by show 64 * (2 * (t.val % 8) + 1) + d.val = 128 * (t.val % 8) + (64 + d.val); omega)
    · intro v
      exact m_block V c t p v _ rfl

/-- An index of the weights is in point t's block iff each coordinate is in the block's range on its axis. -/
theorem mem_blk (t : Fin cfg3.N) (i : S16x2048x2048.Idx) :
    i ∈ ((cfg3.win 4).blk t).view.set ↔ ∀ a : Fin 3, win3_4.index t a * S2x256x2048.size a ≤ (i a).val
      ∧ (i a).val < win3_4.index t a * S2x256x2048.size a + S2x256x2048.size a := by
  show i ∈ ((View.whole main_v7_0).slice (win3_4.rect t)).set ↔ _
  rw [View.set_slice_whole, Rect.mem_set_unit]
  exact Iff.rfl

/-- Index (h, s, u) lies in the block of the point qi = s / 256, hp = h / 2: the 64 blocks cover the array. -/
theorem cover (i : S16x2048x2048.Idx) :
    ∃ t : Fin cfg3.N, (cfg3.win 4).flush t = true ∧ i ∈ ((cfg3.win 4).blk t).view.set := by
  have hi0 : (i 0).val < 16 := (i 0).isLt
  have hi1 : (i 1).val < 2048 := (i 1).isLt
  have hi2 : (i 2).val < 2048 := (i 2).isLt
  have hN : cfg3.N = 64 := N_3
  have ht : (i 1).val / 256 * 8 + (i 0).val / 2 < cfg3.N := by rw [hN]; omega
  obtain ⟨-, -, -, -, -, -, e40, e41, e42⟩ := idx_facts ⟨(i 1).val / 256 * 8 + (i 0).val / 2, ht⟩
  refine ⟨⟨(i 1).val / 256 * 8 + (i 0).val / 2, ht⟩, flush3_4 _, ?_⟩
  rw [mem_blk]
  intro a
  match a with
  | ⟨0, _⟩ =>
    show win3_4.index ⟨(i 1).val / 256 * 8 + (i 0).val / 2, ht⟩ (0 : Fin 3) * 2 ≤ (i 0).val
      ∧ (i 0).val < win3_4.index ⟨(i 1).val / 256 * 8 + (i 0).val / 2, ht⟩ (0 : Fin 3) * 2 + 2
    rw [e40]; show ((i 1).val / 256 * 8 + (i 0).val / 2) % 8 * 2 ≤ (i 0).val ∧ (i 0).val < ((i 1).val / 256 * 8 + (i 0).val / 2) % 8 * 2 + 2; omega
  | ⟨1, _⟩ =>
    show win3_4.index ⟨(i 1).val / 256 * 8 + (i 0).val / 2, ht⟩ (1 : Fin 3) * 256 ≤ (i 1).val
      ∧ (i 1).val < win3_4.index ⟨(i 1).val / 256 * 8 + (i 0).val / 2, ht⟩ (1 : Fin 3) * 256 + 256
    rw [e41]; show ((i 1).val / 256 * 8 + (i 0).val / 2) / 8 * 256 ≤ (i 1).val ∧ (i 1).val < ((i 1).val / 256 * 8 + (i 0).val / 2) / 8 * 256 + 256; omega
  | ⟨2, _⟩ =>
    show win3_4.index ⟨(i 1).val / 256 * 8 + (i 0).val / 2, ht⟩ (2 : Fin 3) * 2048 ≤ (i 2).val
      ∧ (i 2).val < win3_4.index ⟨(i 1).val / 256 * 8 + (i 0).val / 2, ht⟩ (2 : Fin 3) * 2048 + 2048
    rw [e42]; omega

/-- THE WEIGHTS ARRAY after the kernel: the attention weights of the projected queries and keys and the mask the kernel
    finds in its input arrays. -/
theorem final4 (c : Dev nD) :
    (Gen.dat3 (F := Ideal) V c).arrAt 4 cfg3.N
      = fun i => Cert.Attn.weight (fun s d => V c main_v4 (ix2 s d)) (fun t d => V c main_v5 (ix2 t d))
          (fun s t => V c main_v3 (ix2 s t)) (i 0) (i 1) (i 2) :=
  (Gen.dat3 V c).arrAt_eq_of_cover 4 (W4 V c) (fun t _ => flushed_eq V c t) cover

end Cert.KernelIdeal.Att4

end
-- ==== Proof.lean ====
/-
  Multi-head attention with a masked fill, computed by five pipelined kernels, against its plain array reference.

  The kernel program projects the queries, keys and values (x · Wᵀ, three kernels over blocks of 512 rows), runs one
  attention kernel over a grid of (block of 256 query rows) × (pair of heads), which writes for each of the two heads the
  softmax of the masked, scaled scores — the quotient of the exponentials by their row sum, no maximum subtracted — and
  the product of the SCORES with the head's columns of the projected values, and projects the result once more.  The
  reference computes the same with whole-array operations, its softmax after subtracting the row's maximum, its scale a
  division by 8 where the kernel multiplies by 1/8.

  On the extended reals both are one function of the eight arguments (Proof/Spec.lean): sums may be regrouped and
  re-tiled freely, dividing by 8 is multiplying by 1/8 on every extended real, and the shift by the maximum cancels
  exactly when the scores are real numbers, which the precondition (finite inputs) provides.  The kernel's side is read
  region by region off the frame run (Proof/Lin*.lean, Proof/Att*.lean, walked by Proof/KWalk.lean and Proof/KOut.lean),
  the reference's side off its run operation by operation (Proof/Ref*.lean); Proof/Claims.lean joins them.
-/
import proofs.«147855_j51891794870426_2_alg».proof.Defs
import proofs.«147855_j51891794870426_2_alg».proof.Proof.Gen.Kernel
import proofs.«147855_j51891794870426_2_alg».proof.Proof.Gen.Kernel.Skeleton
import proofs.«147855_j51891794870426_2_alg».proof.Proof.Gen.Kernel.Launch
import proofs.«147855_j51891794870426_2_alg».proof.Proof.Gen.Kernel.Points
import proofs.«147855_j51891794870426_2_alg».proof.Proof.Gen.Kernel.Frame
import proofs.«147855_j51891794870426_2_alg».proof.Proof.Gen.KernelIdeal
import proofs.«147855_j51891794870426_2_alg».proof.Proof.Gen.KernelIdeal.Skeleton
import proofs.«147855_j51891794870426_2_alg».proof.Proof.Gen.KernelIdeal.Launch
import proofs.«147855_j51891794870426_2_alg».proof.Proof.Gen.KernelIdeal.Points
import proofs.«147855_j51891794870426_2_alg».proof.Proof.Gen.KernelIdeal.Frame
import proofs.«147855_j51891794870426_2_alg».proof.Proof.Gen.ReferenceIdeal
import proofs.«147855_j51891794870426_2_alg».proof.Proof.Gen.Pre_finite_inputs
import proofs.«147855_j51891794870426_2_alg».proof.Proof.Gen.ReferenceIdeal.Run
import proofs.«147855_j51891794870426_2_alg».proof.Proof.Gen.ReferenceIdeal.Read
import proofs.«147855_j51891794870426_2_alg».proof.Proof.Claims
import proofs.«147855_j51891794870426_2_alg».proof.Proof.AttCtx
import proofs.«147855_j51891794870426_2_alg».proof.Proof.AttW4
import Idealize.ShloMosaic.Adequacy
import Idealize.ShloMosaic.Init

noncomputable section

namespace Cert.Proof

open Idealize.ShloMosaic Idealize.SL.Sem

/-- The five claims: the three frames, the (empty) idealization ledger, and the equality of the two idealized programs'
    results, with the attention region's two output arrays read by `Att4.final4` and `Att.final5`. -/
theorem claim : Cert.Claim := ⟨Cert.Kernel.Gen.facts, Cert.KernelIdeal.Gen.facts, Cert.ReferenceIdeal.Gen.facts, Cert.Pre_finite_inputs.Gen.facts,
  Claims.frame_p, Claims.frame_pi, Claims.frame_ri, Claims.preserves,
  Claims.algebraic_of (fun V c => Cert.KernelIdeal.Att4.final4 V c) (fun V c => Cert.KernelIdeal.Att.final5 V c)⟩

end Cert.Proof

end
